-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S4096x16 : S_.BroadcastsInDim S4096x16 (![] : Fin 0 → Fin S4096x16.rank)
  reducesTo_S4096x16_S_d0_1 : S4096x16.ReducesTo [0, 1] S_
  bcast_S_S16x4096 : S_.BroadcastsInDim S16x4096 (![] : Fin 0 → Fin S16x4096.rank)
  reducesTo_S16x4096_S_d0_1 : S16x4096.ReducesTo [0, 1] S_

variable [Facts]

def fn_part1 {F : FTy → Type} [FloatOps F] (main_arg4 : FVec F S16x4096 .f32) (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  let main_v19 : FVec F S16x4096 .f32 := Host.absf main_arg4
  let main_cst_6 : FVec F S_ .f32 := constant S_ .f32 0x7F800000#32
  let main_v20 : FVec F S16x4096 .f32 := broadcastInDim S16x4096 ![] bcast_S_S16x4096 main_cst_6
  let main_v21 : IVec S16x4096 1 := cmpf .olt main_v19 main_v20
  let main_c_7 : IVec S_ 1 := constantI S_ 1 1#1
  let main_v22 : IVec S_ 1 := (fun x v => Host.reduce IntOp.andi x v reducesTo_S16x4096_S_d0_1 h_S_) main_v21 main_c_7
  let main_v23 : IVec S_ 1 := andi main_v18 main_v22
  main_v23

def fn {F : FTy → Type} [FloatOps F] (main_arg0 : FVec F S4x4096x4096 .f32) (main_arg1 : FVec F S4096x4096 .f32) (main_arg2 : FVec F S4096 .f32) (main_arg3 : FVec F S4096x16 .f32) (main_arg4 : FVec F S16x4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x16 .f32 := Host.absf main_arg3
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_arg4 main_v13 main_v16
-- ==== Kernel.lean ====
abbrev S4x4096x4096 : Shape := ⟨3, ![4, 4096, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S16384x4096 : Shape := ⟨2, ![16384, 4096]⟩
abbrev S1x4096 : Shape := ⟨2, ![1, 4096]⟩
abbrev S16384x16 : Shape := ⟨2, ![16384, 16]⟩
abbrev S2048x512 : Shape := ⟨2, ![2048, 512]⟩
abbrev S512x16 : Shape := ⟨2, ![512, 16]⟩
abbrev S2048x16 : Shape := ⟨2, ![2048, 16]⟩
abbrev S2048x256 : Shape := ⟨2, ![2048, 256]⟩
abbrev S1024x256 : Shape := ⟨2, ![1024, 256]⟩
abbrev S1x1024 : Shape := ⟨2, ![1, 1024]⟩
abbrev S16x1024 : Shape := ⟨2, ![16, 1024]⟩
abbrev S2048x1024 : Shape := ⟨2, ![2048, 1024]⟩

abbrev nBuf : Space → Nat
  | .hbm => 14
  | .vmem => 20
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S4096x16, .f32⟩
  | .hbm, ⟨4, _⟩ => ⟨S16x4096, .f32⟩
  | .hbm, ⟨5, _⟩ => ⟨S16384x4096, .f32⟩
  | .hbm, ⟨6, _⟩ => ⟨S1x4096, .f32⟩
  | .hbm, ⟨7, _⟩ => ⟨S16384x4096, .bf16⟩
  | .hbm, ⟨8, _⟩ => ⟨S4096x4096, .bf16⟩
  | .hbm, ⟨9, _⟩ => ⟨S4096x16, .bf16⟩
  | .hbm, ⟨10, _⟩ => ⟨S16x4096, .bf16⟩
  | .hbm, ⟨11, _⟩ => ⟨S16384x16, .f32⟩
  | .hbm, ⟨12, _⟩ => ⟨S16384x4096, .f32⟩
  | .hbm, ⟨13, _⟩ => ⟨S4x4096x4096, .f32⟩
  | .local _ .vmem, ⟨0, _⟩ => ⟨S2048x512, .bf16⟩
  | .local _ .vmem, ⟨1, _⟩ => ⟨S2048x512, .bf16⟩
  | .local _ .vmem, ⟨2, _⟩ => ⟨S512x16, .bf16⟩
  | .local _ .vmem, ⟨3, _⟩ => ⟨S512x16, .bf16⟩
  | .local _ .vmem, ⟨4, _⟩ => ⟨S2048x16, .f32⟩
  | .local _ .vmem, ⟨5, _⟩ => ⟨S2048x16, .f32⟩
  | .local _ .vmem, ⟨6, _⟩ => ⟨S2048x16, .f32⟩
  | .local _ .vmem, ⟨7, _⟩ => ⟨S2048x256, .bf16⟩
  | .local _ .vmem, ⟨8, _⟩ => ⟨S2048x256, .bf16⟩
  | .local _ .vmem, ⟨9, _⟩ => ⟨S1024x256, .bf16⟩
  | .local _ .vmem, ⟨10, _⟩ => ⟨S1024x256, .bf16⟩
  | .local _ .vmem, ⟨11, _⟩ => ⟨S1x1024, .f32⟩
  | .local _ .vmem, ⟨12, _⟩ => ⟨S1x1024, .f32⟩
  | .local _ .vmem, ⟨13, _⟩ => ⟨S2048x16, .f32⟩
  | .local _ .vmem, ⟨14, _⟩ => ⟨S2048x16, .f32⟩
  | .local _ .vmem, ⟨15, _⟩ => ⟨S16x1024, .bf16⟩
  | .local _ .vmem, ⟨16, _⟩ => ⟨S16x1024, .bf16⟩
  | .local _ .vmem, ⟨17, _⟩ => ⟨S2048x1024, .f32⟩
  | .local _ .vmem, ⟨18, _⟩ => ⟨S2048x1024, .f32⟩
  | .local _ .vmem, ⟨19, _⟩ => ⟨S2048x1024, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x16 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨3, ![8, 4, 16], ![false, false, false]⟩

def k1_cond2 (i : grid1.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S2048x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, false]

abbrev stage1_4 : Fin 2 → Memref sig .tc .vmem S16x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, false]

abbrev stage1_5 : Fin 2 → Memref sig .tc .vmem S2048x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

class Facts₀ : Prop where
  shapeCasts_S4x4096x4096_S16384x4096 : S4x4096x4096.ShapeCasts S16384x4096
  shapeCasts_S4096_S1x4096 : S4096.ShapeCasts S1x4096
  bitsLt_bf16_f32 : FTy.bits .bf16 < FTy.bits .f32
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x16_S512x16_0_0 : ∀ a, (![0, 0] : Fin 2 → Nat) a + S512x16.size a ≤ S512x16.size a
  h_S512x16 : 0 < S512x16.numel
  shapeCasts_S512x16_S512x16 : S512x16.ShapeCasts S512x16
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S16384x4096_S4x4096x4096 : S16384x4096.ShapeCasts S4x4096x4096
  dot_S2048x512_S512x16_S2048x16_1_0_0_1_n_n_wf : DotDims.WF S2048x512 S512x16 S2048x16 [1] [0] [0] [1] [] []
  dot_S2048x256_S1024x256_S2048x1024_1_1_0_0_n_n_wf : DotDims.WF S2048x256 S1024x256 S2048x1024 [1] [1] [0] [0] [] []
  dot_S2048x16_S16x1024_S2048x1024_1_0_0_1_n_n_wf : DotDims.WF S2048x16 S16x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x4096.size a
  hwx0_0 : ∀ i : grid0.Coords, EltTy.bits .bf16 = 32 ∨ (Rect.block (s := S16384x4096) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S4096x16.size a
  hwx0_1 : ∀ i : grid0.Coords, EltTy.bits .bf16 = 32 ∨ (Rect.block (s := S4096x16) S512x16.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x16.size a ≤ S16384x16.size a
  hwx0_2 : ∀ i : grid0.Coords, EltTy.bits .f32 = 32 ∨ (Rect.block (s := S16384x16) S2048x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S16384x4096.size a
  hwx1_0 : ∀ i : grid1.Coords, EltTy.bits .bf16 = 32 ∨ (Rect.block (s := S16384x4096) S2048x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S4096x4096.size a
  hwx1_1 : ∀ i : grid1.Coords, EltTy.bits .bf16 = 32 ∨ (Rect.block (s := S4096x4096) S1024x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x16.size a ≤ S16384x16.size a
  hwx1_3 : ∀ i : grid1.Coords, EltTy.bits .f32 = 32 ∨ (Rect.block (s := S16384x16) S2048x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S16x1024.size a ≤ S16x4096.size a
  hwx1_4 : ∀ i : grid1.Coords, EltTy.bits .bf16 = 32 ∨ (Rect.block (s := S16x4096) S16x1024.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x1024.size a ≤ S16384x4096.size a
  hwx1_5 : ∀ i : grid1.Coords, EltTy.bits .f32 = 32 ∨ (Rect.block (s := S16384x4096) S2048x1024.size (cc1_transform_5 i) (hinb1_5 i)).WholeWords (EltTy.packing .f32)

variable [Facts₀]

def dot_S2048x512_S512x16_S2048x16_1_0_0_1_n_n : DotDims S2048x512 S512x16 S2048x16 where
  lhsContracting := [1]
  rhsContracting := [0]
  lhsNonContracting := [0]
  rhsNonContracting := [1]
  lhsBatch := []
  rhsBatch := []
  wf := dot_S2048x512_S512x16_S2048x16_1_0_0_1_n_n_wf
def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf
def dot_S2048x16_S16x1024_S2048x1024_1_0_0_1_n_n : DotDims S2048x16 S16x1024 S2048x1024 where
  lhsContracting := [1]
  rhsContracting := [0]
  lhsNonContracting := [0]
  rhsNonContracting := [1]
  lhsBatch := []
  rhsBatch := []
  wf := dot_S2048x16_S16x1024_S2048x1024_1_0_0_1_n_n_wf

abbrev win0_0 : Pipeline.Window sig grid0 :=
  Pipeline.Window.ofSpec (Memref.whole main_v2) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S512x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S2048x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v2) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S2048x16.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5) S16x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v7) S2048x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S4x4096x4096 : Shape := ⟨3, ![4, 4096, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S1x1x4096 : Shape := ⟨3, ![1, 1, 4096]⟩
abbrev S4x4096x16 : Shape := ⟨3, ![4, 4096, 16]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S4096x16, .f32⟩
  | .hbm, ⟨4, _⟩ => ⟨S16x4096, .f32⟩
  | .hbm, ⟨5, _⟩ => ⟨S4x4096x4096, .f32⟩
  | .hbm, ⟨6, _⟩ => ⟨S1x1x4096, .f32⟩
  | .hbm, ⟨7, _⟩ => ⟨S4x4096x4096, .f32⟩
  | .hbm, ⟨8, _⟩ => ⟨S4x4096x4096, .f32⟩
  | .hbm, ⟨9, _⟩ => ⟨S4x4096x16, .f32⟩
  | .hbm, ⟨10, _⟩ => ⟨S4x4096x4096, .f32⟩
  | .hbm, ⟨11, _⟩ => ⟨S_, .f32⟩
  | .hbm, ⟨12, _⟩ => ⟨S4x4096x4096, .f32⟩
  | .hbm, ⟨13, _⟩ => ⟨S4x4096x4096, .f32⟩
  | .hbm, ⟨14, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  bcast_S_S4x4096x4096 : S_.BroadcastsInDim S4x4096x4096 (![] : Fin 0 → Fin S4x4096x4096.rank)
  dot_S4x4096x4096_S4096x4096_S4x4096x4096_2_1_01_0_n_n_wf : DotDims.WF S4x4096x4096 S4096x4096 S4x4096x4096 [2] [1] [0, 1] [0] [] []
  dot_S4x4096x4096_S4096x16_S4x4096x16_2_0_01_1_n_n_wf : DotDims.WF S4x4096x4096 S4096x16 S4x4096x16 [2] [0] [0, 1] [1] [] []
  dot_S4x4096x16_S16x4096_S4x4096x4096_2_0_01_1_n_n_wf : DotDims.WF S4x4096x16 S16x4096 S4x4096x4096 [2] [0] [0, 1] [1] [] []

variable [Facts₀]

def dot_S4x4096x4096_S4096x4096_S4x4096x4096_2_1_01_0_n_n : DotDims S4x4096x4096 S4096x4096 S4x4096x4096 where
  lhsContracting := [2]
  rhsContracting := [1]
  lhsNonContracting := [0, 1]
  rhsNonContracting := [0]
  lhsBatch := []
  rhsBatch := []
  wf := dot_S4x4096x4096_S4096x4096_S4x4096x4096_2_1_01_0_n_n_wf
def dot_S4x4096x4096_S4096x16_S4x4096x16_2_0_01_1_n_n : DotDims S4x4096x4096 S4096x16 S4x4096x16 where
  lhsContracting := [2]
  rhsContracting := [0]
  lhsNonContracting := [0, 1]
  rhsNonContracting := [1]
  lhsBatch := []
  rhsBatch := []
  wf := dot_S4x4096x4096_S4096x16_S4x4096x16_2_0_01_1_n_n_wf
def dot_S4x4096x16_S16x4096_S4x4096x4096_2_0_01_1_n_n : DotDims S4x4096x16 S16x4096 S4x4096x4096 where
  lhsContracting := [2]
  rhsContracting := [0]
  lhsNonContracting := [0, 1]
  rhsNonContracting := [1]
  lhsBatch := []
  rhsBatch := []
  wf := dot_S4x4096x16_S16x4096_S4x4096x4096_2_0_01_1_n_n_wf

class Facts : Prop extends Facts₀ where

variable [Facts]
-- ==== Proof.Kernel.Shared.lean ====
/-
  What the two kernels' runs are stated over. Kernel 0 computes xa = x2 · A over a grid of 8 row blocks by 8
  blocks of the contracted axis; kernel 1 computes x2 · Wᵀ over 8 row blocks, 4 column blocks and 16 blocks of the
  contracted axis, adding 2 · (xa · B) and the bias at the last of the 16. Each keeps its running sum in a scratch
  buffer that lives from one grid point to the next: it is zeroed where the contracted-axis coordinate is 0 and
  copied out (kernel 1: completed and copied out) where that coordinate is the last one. Here: a window's block at a
  grid point read off its array, the two conditions of each body decided over the grid, where the output window is
  idle, the memrefs the body is called with, and the part of the region invariant that is not the scratch.
-/
import proofs.«143101_j18683107738116_2_alg».proof.Proof.Gen.Kernel.Launch
import proofs.«143101_j18683107738116_2_alg».proof.Proof.Gen.Kernel.Skeleton
import proofs.«143101_j18683107738116_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section Regions
-- the buffer contents a region is entered with: every statement about a region is made at such contents
variable (V : (c : Dev nD) → (b : Ref sig .tc) → Buf (Elt F) ((c : Thread nD τ).loc b))

/-! ## Kernel 0 -/

/-- Window `w`'s block at grid point `t`, read off its array as kernel 0's region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, whether the point fetched it or
    the block index did not move since the last fetch. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The contracted-axis coordinate is 0: the scratch is zeroed first. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- The contracted-axis coordinate is the last one (7): the scratch is copied to the output block. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last contracted-axis coordinate nothing is stored into the output block and the block is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-- One staging buffer of the output window, through which its contents are stated. -/
abbrev VO0_2 : View sig .tc .vmem S2048x16 .f32 := (Memref.whole cc0_stg2_0 : Memref sig .tc .vmem S2048x16 .f32).view
/-- Each window's current staging memref at point `t`, as the pipeline passes it, and its wholeness. -/
abbrev ms0_0 (t : Fin cfg0.N) : Memref sig .tc .vmem S2048x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x16 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x16 .f32 := win0_2.stage (cfg0.slots t 2)
abbrev hs0_2 (t : Fin cfg0.N) : (ms0_2 t).IsWhole := hstage0_2 ((cfg0.slots t 2).cast nbuf0_2)
/-- The running sum's scratch buffer, whole, and as a view. -/
abbrev scM0 : Memref sig .tc .vmem S2048x16 .f32 := Memref.whole cc0_scratch0
abbrev VS0 : View sig .tc .vmem S2048x16 .f32 := scM0.view

/-- The core's scoped buffers other than kernel 0's staging buffers and its scratch, each at some contents. -/
abbrev Oth0 (c : Dev nD) : sProp 𝕄 :=
  Pipeline.scopedRestBut (Ix := Unit) (Name := ℕ) (U := Pipeline.UD sig nD τ) (Lvl := ℕ) (Val := Elt F) spec0 c [cc0_scratch0]

/-- What a region hands its body besides the windows: the scratch at some contents, the other scoped buffers, the
    generator register. -/
theorem PhiA0_eq (c : Dev nD) :
    (Pipeline.ΦA spec0 c : sProp 𝕄)
      = iprop(iprop((∃ d, owns (c : Thread nD τ) scM0 fullShare d) ∗ Oth0 c) ∗ (∃ r, prngReg c r)) := by
  unfold Pipeline.ΦA
  rw [Pipeline.scopedRest_split_of_list spec0 c [cc0_scratch0] (by decide) (by decide)]
  simp only [scM0, owns_whole, bigSepL_singleton]; try rfl

/-! ## Kernel 1 -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

abbrev VO1_5 : View sig .tc .vmem S2048x1024 .f32 := (Memref.whole cc1_stg5_0 : Memref sig .tc .vmem S2048x1024 .f32).view
abbrev ms1_0 (t : Fin cfg1.N) : Memref sig .tc .vmem S2048x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x16 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S16x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2048x1024 .f32 := win1_5.stage (cfg1.slots t 5)
abbrev hs1_5 (t : Fin cfg1.N) : (ms1_5 t).IsWhole := hstage1_5 ((cfg1.slots t 5).cast nbuf1_5)
abbrev scM1 : Memref sig .tc .vmem S2048x1024 .f32 := Memref.whole cc1_scratch0
abbrev VS1 : View sig .tc .vmem S2048x1024 .f32 := scM1.view

abbrev Oth1 (c : Dev nD) : sProp 𝕄 :=
  Pipeline.scopedRestBut (Ix := Unit) (Name := ℕ) (U := Pipeline.UD sig nD τ) (Lvl := ℕ) (Val := Elt F) spec1 c [cc1_scratch0]

theorem PhiA1_eq (c : Dev nD) :
    (Pipeline.ΦA spec1 c : sProp 𝕄)
      = iprop(iprop((∃ d, owns (c : Thread nD τ) scM1 fullShare d) ∗ Oth1 c) ∗ (∃ r, prngReg c r)) := by
  unfold Pipeline.ΦA
  rw [Pipeline.scopedRest_split_of_list spec1 c [cc1_scratch0] (by decide) (by decide)]
  simp only [scM1, owns_whole, bigSepL_singleton]; try rfl

end Regions

end Cert.Kernel.Hand

end
-- ==== Proof.Kernel.Run0A.lean ====
/-
  Kernel 0's body run once in case A of its two conditions (the contracted-axis coordinate is 0: zero the scratch, then add this point's product).
-/
import proofs.«143101_j18683107738116_2_alg».proof.Proof.Kernel.Shared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 1000000 in
/-- The body of kernel 0 run in case A on whole staging memrefs: the input blocks at their contents, the output block left as found, the scratch at anything. It ends with the inputs as they were,
    the scratch with the listed pieces written; the pieces are what the run finds. -/
noncomputable def kernelRun0_A (c : Dev nD) (i : grid0.Coords) (arg2 : Memref sig .tc .vmem S2048x512 .bf16) (harg2 : arg2.IsWhole) (arg3 : Memref sig .tc .vmem S512x16 .bf16) (harg3 : arg3.IsWhole) (arg4 : Memref sig .tc .vmem S2048x16 .f32) (harg4 : arg4.IsWhole) (arg5 : Memref sig .tc .vmem S2048x16 .f32) (harg5 : arg5.IsWhole) (hc0 : cond0_0 i) (hc1 : ¬cond0_1 i)
    (x0 : Vec F S2048x512 .bf16) (x1 : Vec F S512x16 .bf16) :
    Σ' (LO : List (View.Piece (Elt F) S2048x16 .f32)), { LS : List (View.Piece (Elt F) S2048x16 .f32) //
      ∀ (xi : Vec F S2048x16 .f32) (E : Set ℕ) (K : PUnit → sProp 𝕄),
        iprop(owns (c : Thread nD τ) arg2 fullShare x0 ∗ owns (c : Thread nD τ) arg3 fullShare x1 ∗ owns (c : Thread nD τ) arg4 fullShare xi ∗ (∃ d, owns (c : Thread nD τ) arg5 fullShare d)
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc0__xa_kernel i arg2 harg2 arg3 harg3 arg4 harg4 arg5 harg5) K } := by
  refine ⟨[], ?_, fun xi E K => ?run⟩
  case run =>
    simp only [cc0__xa_kernel_eq_skeleton]; unfold cc0__xa_kernel_skel
    unfold owns
    iintro ⟨⟨%f0, %hf0, H0⟩, ⟨%f1, %hf1, H1⟩, ⟨%fO, %hfO, HO⟩, ⟨%dS, %fS, -, HS⟩, Hk⟩
    obtain rfl := harg2.eq_unread hf0; obtain rfl := harg3.eq_unread hf1; obtain rfl := harg4.eq_unread hfO
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HO]
    · iexists _; isplitr; · ipureintro; exact harg4.read_unread _
      iexact HO
    iexists _; iexact HS

end Cert.Kernel.Hand

end
-- ==== Proof.Kernel.Run0B.lean ====
/-
  Kernel 0's body run once in case B of its two conditions (a middle coordinate: add this point's product to the scratch).
-/
import proofs.«143101_j18683107738116_2_alg».proof.Proof.Kernel.Shared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 1000000 in
/-- The body of kernel 0 run in case B on whole staging memrefs: the input blocks at their contents, the output block left as found, the scratch at what the point before left. It ends with the inputs as they were,
    the scratch with the listed pieces written; the pieces are what the run finds. -/
noncomputable def kernelRun0_B (c : Dev nD) (i : grid0.Coords) (arg2 : Memref sig .tc .vmem S2048x512 .bf16) (harg2 : arg2.IsWhole) (arg3 : Memref sig .tc .vmem S512x16 .bf16) (harg3 : arg3.IsWhole) (arg4 : Memref sig .tc .vmem S2048x16 .f32) (harg4 : arg4.IsWhole) (arg5 : Memref sig .tc .vmem S2048x16 .f32) (harg5 : arg5.IsWhole) (hc0 : ¬cond0_0 i) (hc1 : ¬cond0_1 i)
    (x0 : Vec F S2048x512 .bf16) (x1 : Vec F S512x16 .bf16) (xs0 : Vec F S2048x16 .f32) :
    Σ' (LO : List (View.Piece (Elt F) S2048x16 .f32)), { LS : List (View.Piece (Elt F) S2048x16 .f32) //
      ∀ (xi : Vec F S2048x16 .f32) (E : Set ℕ) (K : PUnit → sProp 𝕄),
        iprop(owns (c : Thread nD τ) arg2 fullShare x0 ∗ owns (c : Thread nD τ) arg3 fullShare x1 ∗ owns (c : Thread nD τ) arg4 fullShare xi ∗ owns (c : Thread nD τ) arg5 fullShare xs0
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc0__xa_kernel i arg2 harg2 arg3 harg3 arg4 harg4 arg5 harg5) K } := by
  refine ⟨[], ?_, fun xi E K => ?run⟩
  case run =>
    simp only [cc0__xa_kernel_eq_skeleton]; unfold cc0__xa_kernel_skel
    unfold owns
    iintro ⟨⟨%f0, %hf0, H0⟩, ⟨%f1, %hf1, H1⟩, ⟨%fO, %hfO, HO⟩, ⟨%fS, %hfS, HS⟩, Hk⟩
    obtain rfl := harg2.eq_unread hf0; obtain rfl := harg3.eq_unread hf1; obtain rfl := harg4.eq_unread hfO; obtain rfl := harg5.eq_unread hfS
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HO]
    · iexists _; isplitr; · ipureintro; exact harg4.read_unread _
      iexact HO
    iexists _; iexact HS

end Cert.Kernel.Hand

end
-- ==== Proof.Kernel.Run0C.lean ====
/-
  Kernel 0's body run once in case C of its two conditions (the last coordinate: add this point's product, then copy the scratch into the output block).
-/
import proofs.«143101_j18683107738116_2_alg».proof.Proof.Kernel.Shared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 1000000 in
/-- The body of kernel 0 run in case C on whole staging memrefs: the input blocks at their contents, the output block at anything, the scratch at what the point before left. It ends with the inputs as they were,
    the scratch with the listed pieces written and the output block with its pieces written; the pieces are what the run finds. -/
noncomputable def kernelRun0_C (c : Dev nD) (i : grid0.Coords) (arg2 : Memref sig .tc .vmem S2048x512 .bf16) (harg2 : arg2.IsWhole) (arg3 : Memref sig .tc .vmem S512x16 .bf16) (harg3 : arg3.IsWhole) (arg4 : Memref sig .tc .vmem S2048x16 .f32) (harg4 : arg4.IsWhole) (arg5 : Memref sig .tc .vmem S2048x16 .f32) (harg5 : arg5.IsWhole) (hc0 : ¬cond0_0 i) (hc1 : cond0_1 i)
    (x0 : Vec F S2048x512 .bf16) (x1 : Vec F S512x16 .bf16) (xs0 : Vec F S2048x16 .f32) :
    Σ' (LO : List (View.Piece (Elt F) S2048x16 .f32)), { LS : List (View.Piece (Elt F) S2048x16 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc0__xa_kernel i arg2 harg2 arg3 harg3 arg4 harg4 arg5 harg5) K } := by
  refine ⟨?_, ?_, fun E K => ?run⟩
  case run =>
    simp only [cc0__xa_kernel_eq_skeleton]; unfold cc0__xa_kernel_skel
    unfold owns
    iintro ⟨⟨%f0, %hf0, H0⟩, ⟨%f1, %hf1, H1⟩, ⟨%dO, %fO, -, HO⟩, ⟨%fS, %hfS, HS⟩, Hk⟩
    obtain rfl := harg2.eq_unread hf0; obtain rfl := harg3.eq_unread hf1; obtain rfl := harg5.eq_unread hfS
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HO]; · iexists _; iexact HO
    iexists _; iexact HS

end Cert.Kernel.Hand

end
-- ==== Proof.Kernel.Frame0.lean ====
/-
  Kernel 0 point by point. The scratch after position n is what the case of position n leaves, computed from the
  point's input blocks and from the scratch after position n - 1; the output block's buffer is stored only at the last
  coordinate of the contracted axis, where it is then written back. This module states those contents, the pipeline's
  proof data over them, and proves the body's obligation at every point from the three cases' runs.
-/
import proofs.«143101_j18683107738116_2_alg».proof.Proof.Kernel.Run0A
import proofs.«143101_j18683107738116_2_alg».proof.Proof.Kernel.Run0B
import proofs.«143101_j18683107738116_2_alg».proof.Proof.Kernel.Run0C

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section Regions
variable (V : (c : Dev nD) → (b : Ref sig .tc) → Buf (Elt F) ((c : Thread nD τ).loc b))

/-- What case A leaves in the output block's staging buffer: its pieces read back (none: the buffer is not touched, and this value is never consulted). -/
def out0_A (c : Dev nD) (i : grid0.Coords) (arg2 : Memref sig .tc .vmem S2048x512 .bf16) (harg2 : arg2.IsWhole) (arg3 : Memref sig .tc .vmem S512x16 .bf16) (harg3 : arg3.IsWhole) (arg4 : Memref sig .tc .vmem S2048x16 .f32) (harg4 : arg4.IsWhole) (arg5 : Memref sig .tc .vmem S2048x16 .f32) (harg5 : arg5.IsWhole) (hc0 : cond0_0 i) (hc1 : ¬cond0_1 i)
    (x0 : Vec F S2048x512 .bf16) (x1 : Vec F S512x16 .bf16) : Vec F S2048x16 .f32 :=
  VO0_2.read (Elt F) (VO0_2.writes (Elt F) VO0_2.junk (kernelRun0_A c i arg2 harg2 arg3 harg3 arg4 harg4 arg5 harg5 hc0 hc1 x0 x1).1)

/-- Case A's stores into the scratch cover it. -/
theorem scover0_A (c : Dev nD) (i : grid0.Coords) (arg2 : Memref sig .tc .vmem S2048x512 .bf16) (harg2 : arg2.IsWhole) (arg3 : Memref sig .tc .vmem S512x16 .bf16) (harg3 : arg3.IsWhole) (arg4 : Memref sig .tc .vmem S2048x16 .f32) (harg4 : arg4.IsWhole) (arg5 : Memref sig .tc .vmem S2048x16 .f32) (harg5 : arg5.IsWhole) (hc0 : cond0_0 i) (hc1 : ¬cond0_1 i)
    (x0 : Vec F S2048x512 .bf16) (x1 : Vec F S512x16 .bf16) (y : S2048x16.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S2048x16.size (by sl_kernel_rfl) y

/-- What case A leaves in the scratch: its pieces read back. -/
def sout0_A (c : Dev nD) (i : grid0.Coords) (arg2 : Memref sig .tc .vmem S2048x512 .bf16) (harg2 : arg2.IsWhole) (arg3 : Memref sig .tc .vmem S512x16 .bf16) (harg3 : arg3.IsWhole) (arg4 : Memref sig .tc .vmem S2048x16 .f32) (harg4 : arg4.IsWhole) (arg5 : Memref sig .tc .vmem S2048x16 .f32) (harg5 : arg5.IsWhole) (hc0 : cond0_0 i) (hc1 : ¬cond0_1 i)
    (x0 : Vec F S2048x512 .bf16) (x1 : Vec F S512x16 .bf16) : Vec F S2048x16 .f32 :=
  VS0.read (Elt F) (VS0.writes (Elt F) VS0.junk (kernelRun0_A c i arg2 harg2 arg3 harg3 arg4 harg4 arg5 harg5 hc0 hc1 x0 x1).2.1)

/-- What case B leaves in the output block's staging buffer: its pieces read back (none: the buffer is not touched, and this value is never consulted). -/
def out0_B (c : Dev nD) (i : grid0.Coords) (arg2 : Memref sig .tc .vmem S2048x512 .bf16) (harg2 : arg2.IsWhole) (arg3 : Memref sig .tc .vmem S512x16 .bf16) (harg3 : arg3.IsWhole) (arg4 : Memref sig .tc .vmem S2048x16 .f32) (harg4 : arg4.IsWhole) (arg5 : Memref sig .tc .vmem S2048x16 .f32) (harg5 : arg5.IsWhole) (hc0 : ¬cond0_0 i) (hc1 : ¬cond0_1 i)
    (x0 : Vec F S2048x512 .bf16) (x1 : Vec F S512x16 .bf16) (xs0 : Vec F S2048x16 .f32) : Vec F S2048x16 .f32 :=
  VO0_2.read (Elt F) (VO0_2.writes (Elt F) VO0_2.junk (kernelRun0_B c i arg2 harg2 arg3 harg3 arg4 harg4 arg5 harg5 hc0 hc1 x0 x1 xs0).1)

/-- Case B's stores into the scratch cover it. -/
theorem scover0_B (c : Dev nD) (i : grid0.Coords) (arg2 : Memref sig .tc .vmem S2048x512 .bf16) (harg2 : arg2.IsWhole) (arg3 : Memref sig .tc .vmem S512x16 .bf16) (harg3 : arg3.IsWhole) (arg4 : Memref sig .tc .vmem S2048x16 .f32) (harg4 : arg4.IsWhole) (arg5 : Memref sig .tc .vmem S2048x16 .f32) (harg5 : arg5.IsWhole) (hc0 : ¬cond0_0 i) (hc1 : ¬cond0_1 i)
    (x0 : Vec F S2048x512 .bf16) (x1 : Vec F S512x16 .bf16) (xs0 : Vec F S2048x16 .f32) (y : S2048x16.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S2048x16.size (by sl_kernel_rfl) y

/-- What case B leaves in the scratch: its pieces read back. -/
def sout0_B (c : Dev nD) (i : grid0.Coords) (arg2 : Memref sig .tc .vmem S2048x512 .bf16) (harg2 : arg2.IsWhole) (arg3 : Memref sig .tc .vmem S512x16 .bf16) (harg3 : arg3.IsWhole) (arg4 : Memref sig .tc .vmem S2048x16 .f32) (harg4 : arg4.IsWhole) (arg5 : Memref sig .tc .vmem S2048x16 .f32) (harg5 : arg5.IsWhole) (hc0 : ¬cond0_0 i) (hc1 : ¬cond0_1 i)
    (x0 : Vec F S2048x512 .bf16) (x1 : Vec F S512x16 .bf16) (xs0 : Vec F S2048x16 .f32) : Vec F S2048x16 .f32 :=
  VS0.read (Elt F) (VS0.writes (Elt F) VS0.junk (kernelRun0_B c i arg2 harg2 arg3 harg3 arg4 harg4 arg5 harg5 hc0 hc1 x0 x1 xs0).2.1)

/-- Case C's one store into the output block covers it. -/
theorem cover0_C (c : Dev nD) (i : grid0.Coords) (arg2 : Memref sig .tc .vmem S2048x512 .bf16) (harg2 : arg2.IsWhole) (arg3 : Memref sig .tc .vmem S512x16 .bf16) (harg3 : arg3.IsWhole) (arg4 : Memref sig .tc .vmem S2048x16 .f32) (harg4 : arg4.IsWhole) (arg5 : Memref sig .tc .vmem S2048x16 .f32) (harg5 : arg5.IsWhole) (hc0 : ¬cond0_0 i) (hc1 : cond0_1 i)
    (x0 : Vec F S2048x512 .bf16) (x1 : Vec F S512x16 .bf16) (xs0 : Vec F S2048x16 .f32) (y : S2048x16.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S2048x16.size (by sl_kernel_rfl) y

/-- What case C leaves in the output block's staging buffer: its pieces read back. -/
def out0_C (c : Dev nD) (i : grid0.Coords) (arg2 : Memref sig .tc .vmem S2048x512 .bf16) (harg2 : arg2.IsWhole) (arg3 : Memref sig .tc .vmem S512x16 .bf16) (harg3 : arg3.IsWhole) (arg4 : Memref sig .tc .vmem S2048x16 .f32) (harg4 : arg4.IsWhole) (arg5 : Memref sig .tc .vmem S2048x16 .f32) (harg5 : arg5.IsWhole) (hc0 : ¬cond0_0 i) (hc1 : cond0_1 i)
    (x0 : Vec F S2048x512 .bf16) (x1 : Vec F S512x16 .bf16) (xs0 : Vec F S2048x16 .f32) : Vec F S2048x16 .f32 :=
  VO0_2.read (Elt F) (VO0_2.writes (Elt F) VO0_2.junk (kernelRun0_C c i arg2 harg2 arg3 harg3 arg4 harg4 arg5 harg5 hc0 hc1 x0 x1 xs0).1)

/-- Case C's stores into the scratch cover it. -/
theorem scover0_C (c : Dev nD) (i : grid0.Coords) (arg2 : Memref sig .tc .vmem S2048x512 .bf16) (harg2 : arg2.IsWhole) (arg3 : Memref sig .tc .vmem S512x16 .bf16) (harg3 : arg3.IsWhole) (arg4 : Memref sig .tc .vmem S2048x16 .f32) (harg4 : arg4.IsWhole) (arg5 : Memref sig .tc .vmem S2048x16 .f32) (harg5 : arg5.IsWhole) (hc0 : ¬cond0_0 i) (hc1 : cond0_1 i)
    (x0 : Vec F S2048x512 .bf16) (x1 : Vec F S512x16 .bf16) (xs0 : Vec F S2048x16 .f32) (y : S2048x16.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S2048x16.size (by sl_kernel_rfl) y

/-- What case C leaves in the scratch: its pieces read back. -/
def sout0_C (c : Dev nD) (i : grid0.Coords) (arg2 : Memref sig .tc .vmem S2048x512 .bf16) (harg2 : arg2.IsWhole) (arg3 : Memref sig .tc .vmem S512x16 .bf16) (harg3 : arg3.IsWhole) (arg4 : Memref sig .tc .vmem S2048x16 .f32) (harg4 : arg4.IsWhole) (arg5 : Memref sig .tc .vmem S2048x16 .f32) (harg5 : arg5.IsWhole) (hc0 : ¬cond0_0 i) (hc1 : cond0_1 i)
    (x0 : Vec F S2048x512 .bf16) (x1 : Vec F S512x16 .bf16) (xs0 : Vec F S2048x16 .f32) : Vec F S2048x16 .f32 :=
  VS0.read (Elt F) (VS0.writes (Elt F) VS0.junk (kernelRun0_C c i arg2 harg2 arg3 harg3 arg4 harg4 arg5 harg5 hc0 hc1 x0 x1 xs0).2.1)

/-! ## Point by point -/

/-- What the output block's staging buffer and the scratch hold after the body at grid position `n`: the case the
    position is in, run on the point's input blocks, the scratch taken from what position `n - 1` left. -/
def outsAt0 (c : Dev nD) : (n : ℕ) → n < cfg0.N → Vec F S2048x16 .f32 × Vec F S2048x16 .f32
  | 0, hn => (out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 8 = 0 then
      if h1 : (n + 1) % 8 = 7 then
        False.elim (by omega)
      else
        (out0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 8 = 7 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 8 = 0) (h1 : ¬t.val % 8 = 7) :
    outsAt0 V c t.val t.isLt = (out0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t), sout0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (out0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the scratch holds anything; afterwards it holds
    what the point before left. Beside it, the other scoped buffers and the generator register at some state. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ Oth0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare ((outsAt0 V c n hn).2) ∗ Oth0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ Oth0 c) ∗ (∃ r, prngReg c r)) := by
  cases n with
  | zero => exact absurd rfl hz
  | succ n => rfl

/-! ## The pipeline's proof data -/

/-- Kernel 0's arrays as the region finds them; after the body each input's buffer at its block and the output's at
    `outsAt0`; the invariant `PhiS0`; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks; the point's position modulo 8 says which case it is
    in; the invariant hands over the scratch at what the point before left (at anything at the first point) and takes
    it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0 V, before0_1 V]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 8 = 0
  · by_cases h1 : t.val % 8 = 7
    · exfalso; omega
    · rw [Dat.leavesExact_idle (dat0 V c) 2 t (idleAt0_2 t (fun h => h1 ((hcond0_1 t).mp h))) (noFlush0_2 t (fun h => h1 ((hcond0_1 t).mp h)))]
      rw [outsAt0_A V c t h0 h1]
      unfold sout0_A; (try dsimp only)
      by_cases hz : t.val = 0
      ·
        rw [PhiS0_castSucc V c t, PhiS0_zero V c _ _ hz, PhiA0_eq]
        iintro ⟨⟨⟨HS, HOth⟩, Hg⟩, Ho, ⟨%d0, H0⟩, ⟨%d1, H1⟩, ⟨%dO, HO⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [HO]; · iexact HO
        isplitl [HS]; · iexact HS
        iintro ⟨H0, H1, HO, ⟨%eS, HS⟩⟩
        isplitl [HS HOth Hg]
        · isplitl [HS HOth]
          · isplitl [HS]
            · unfold owns; iexists _; isplitr
              swap; · iexact HS
              ipureintro; exact View.read_writes_of_cover _ _ _ _ _ (scover0_A c _ _ _ _ _ _ _ _ _ _ _ _ _)
            iexact HOth
          iexact Hg
        isplitl [Ho]; · iexact Ho
        isplitl [H0]; · iexact H0
        isplitl [H1]; · iexact H1
        iexists _; iexact HO
      ·
        rw [PhiS0_castSucc V c t, PhiS0_pos V c _ _ hz]
        iintro ⟨⟨⟨HS, HOth⟩, Hg⟩, Ho, ⟨%d0, H0⟩, ⟨%d1, H1⟩, ⟨%dO, HO⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [HO]; · iexact HO
        isplitl [HS]; · iexists _; iexact HS
        iintro ⟨H0, H1, HO, ⟨%eS, HS⟩⟩
        isplitl [HS HOth Hg]
        · isplitl [HS HOth]
          · isplitl [HS]
            · unfold owns; iexists _; isplitr
              swap; · iexact HS
              ipureintro; exact View.read_writes_of_cover _ _ _ _ _ (scover0_A c _ _ _ _ _ _ _ _ _ _ _ _ _)
            iexact HOth
          iexact Hg
        isplitl [Ho]; · iexact Ho
        isplitl [H0]; · iexact H0
        isplitl [H1]; · iexact H1
        iexists _; iexact HO
  · by_cases h1 : t.val % 8 = 7
    · rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold out0_C sout0_C; (try dsimp only)
      by_cases hz : t.val = 0
      · exfalso; omega
      ·
        rw [PhiS0_castSucc V c t, PhiS0_pos V c _ _ hz]
        iintro ⟨⟨⟨HS, HOth⟩, Hg⟩, Ho, ⟨%d0, H0⟩, ⟨%d1, H1⟩, ⟨%dO, HO⟩⟩
        iapply ((kernelRun0_C c (grid0.coords t) _ _ _ _ _ _ _ _ (fun h => h0 ((hcond0_0 t).mp h)) ((hcond0_1 t).mpr h1) (iblk0 V c 0 t) (iblk0 V c 1 t) _).2.2 Set.univ _)
        isplitl [H0]; · iexact H0
        isplitl [H1]; · iexact H1
        isplitl [HO]; · iexists _; iexact HO
        isplitl [HS]; · iexact HS
        iintro ⟨H0, H1, ⟨%eO, HO⟩, ⟨%eS, HS⟩⟩
        isplitl [HS HOth Hg]
        · isplitl [HS HOth]
          · isplitl [HS]
            · unfold owns; iexists _; isplitr
              swap; · iexact HS
              ipureintro; exact View.read_writes_of_cover _ _ _ _ _ (scover0_C c _ _ _ _ _ _ _ _ _ _ _ _ _ _)
            iexact HOth
          iexact Hg
        isplitl [Ho]; · iexact Ho
        isplitl [H0]; · iexact H0
        isplitl [H1]; · iexact H1
        unfold owns; iexists _; isplitr
        swap; · iexact HO
        ipureintro; exact View.read_writes_of_cover _ _ _ _ _ (cover0_C c _ _ _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [outsAt0_B V c t h0 h1]
      unfold sout0_B; (try dsimp only)
      by_cases hz : t.val = 0
      · exfalso; omega
      ·
        rw [PhiS0_castSucc V c t, PhiS0_pos V c _ _ hz]
        iintro ⟨⟨⟨HS, HOth⟩, Hg⟩, Ho, ⟨%d0, H0⟩, ⟨%d1, H1⟩, ⟨%dO, HO⟩⟩
        iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
        isplitl [H0]; · iexact H0
        isplitl [H1]; · iexact H1
        isplitl [HO]; · iexact HO
        isplitl [HS]; · iexact HS
        iintro ⟨H0, H1, HO, ⟨%eS, HS⟩⟩
        isplitl [HS HOth Hg]
        · isplitl [HS HOth]
          · isplitl [HS]
            · unfold owns; iexists _; isplitr
              swap; · iexact HS
              ipureintro; exact View.read_writes_of_cover _ _ _ _ _ (scover0_B c _ _ _ _ _ _ _ _ _ _ _ _ _ _)
            iexact HOth
          iexact Hg
        isplitl [Ho]; · iexact Ho
        isplitl [H0]; · iexact H0
        isplitl [H1]; · iexact H1
        iexists _; iexact HO

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives back the scratch at some contents. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 64 := N_0; omega), PhiA0_eq]
  iintro ⟨⟨HS, HOth⟩, Hg⟩
  isplitl [HS HOth]
  · isplitl [HS]
    · iexists _; iexact HS
    iexact HOth
  iexact Hg

end Regions

end Cert.Kernel.Hand

end
-- ==== Proof.Kernel.Run1A.lean ====
/-
  Kernel 1's body run once in case A of its two conditions (the contracted-axis coordinate is 0: zero the scratch, then add this point's product).
-/
import proofs.«143101_j18683107738116_2_alg».proof.Proof.Kernel.Shared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 1000000 in
/-- The body of kernel 1 run in case A on whole staging memrefs: the input blocks at their contents, the output block left as found, the scratch at anything. It ends with the inputs as they were,
    the scratch with the listed pieces written; the pieces are what the run finds. -/
noncomputable def kernelRun1_A (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x16 .f32) (harg6 : arg6.IsWhole) (arg7 : Memref sig .tc .vmem S16x1024 .bf16) (harg7 : arg7.IsWhole) (arg8 : Memref sig .tc .vmem S2048x1024 .f32) (harg8 : arg8.IsWhole) (arg9 : Memref sig .tc .vmem S2048x1024 .f32) (harg9 : arg9.IsWhole) (hc0 : cond1_0 i) (hc1 : ¬cond1_1 i)
    (x0 : Vec F S2048x256 .bf16) (x1 : Vec F S1024x256 .bf16) (x2 : Vec F S1x1024 .f32) (x3 : Vec F S2048x16 .f32) (x4 : Vec F S16x1024 .bf16) :
    Σ' (LO : List (View.Piece (Elt F) S2048x1024 .f32)), { LS : List (View.Piece (Elt F) S2048x1024 .f32) //
      ∀ (xi : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi ∗ (∃ f, arg9.view.loc (c : Thread nD τ) ↦[arg9.view.set]{fullShare} arg9.view.writes (Elt F) f LS)) -∗ K ⟨⟩))
          ⊢ wp frame (wpE (defs₀ (F := F)) Variants.none c none) E (cc1__lora_linear_kernel i arg3 harg3 arg4 harg4 arg5 harg5 arg6 harg6 arg7 harg7 arg8 harg8 arg9 harg9) K } := by
  refine ⟨[], ?_, fun xi E K => ?run⟩
  case run =>
    simp only [cc1__lora_linear_kernel_eq_skeleton]; unfold cc1__lora_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%fO, %hfO, HO⟩, ⟨%dS, %fS, -, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfO
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HO]
    · iexists _; isplitr; · ipureintro; exact harg8.read_unread _
      iexact HO
    iexists _; iexact HS

end Cert.Kernel.Hand

end
-- ==== Proof.Kernel.Run1B.lean ====
/-
  Kernel 1's body run once in case B of its two conditions (a middle coordinate: add this point's product to the scratch).
-/
import proofs.«143101_j18683107738116_2_alg».proof.Proof.Kernel.Shared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 1000000 in
/-- The body of kernel 1 run in case B on whole staging memrefs: the input blocks at their contents, the output block left as found, the scratch at what the point before left. It ends with the inputs as they were,
    the scratch with the listed pieces written; the pieces are what the run finds. -/
noncomputable def kernelRun1_B (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x16 .f32) (harg6 : arg6.IsWhole) (arg7 : Memref sig .tc .vmem S16x1024 .bf16) (harg7 : arg7.IsWhole) (arg8 : Memref sig .tc .vmem S2048x1024 .f32) (harg8 : arg8.IsWhole) (arg9 : Memref sig .tc .vmem S2048x1024 .f32) (harg9 : arg9.IsWhole) (hc0 : ¬cond1_0 i) (hc1 : ¬cond1_1 i)
    (x0 : Vec F S2048x256 .bf16) (x1 : Vec F S1024x256 .bf16) (x2 : Vec F S1x1024 .f32) (x3 : Vec F S2048x16 .f32) (x4 : Vec F S16x1024 .bf16) (xs0 : Vec F S2048x1024 .f32) :
    Σ' (LO : List (View.Piece (Elt F) S2048x1024 .f32)), { LS : List (View.Piece (Elt F) S2048x1024 .f32) //
      ∀ (xi : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi ∗ (∃ f, arg9.view.loc (c : Thread nD τ) ↦[arg9.view.set]{fullShare} arg9.view.writes (Elt F) f LS)) -∗ K ⟨⟩))
          ⊢ wp frame (wpE (defs₀ (F := F)) Variants.none c none) E (cc1__lora_linear_kernel i arg3 harg3 arg4 harg4 arg5 harg5 arg6 harg6 arg7 harg7 arg8 harg8 arg9 harg9) K } := by
  refine ⟨[], ?_, fun xi E K => ?run⟩
  case run =>
    simp only [cc1__lora_linear_kernel_eq_skeleton]; unfold cc1__lora_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%fO, %hfO, HO⟩, ⟨%fS, %hfS, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfO; obtain rfl := harg9.eq_unread hfS
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HO]
    · iexists _; isplitr; · ipureintro; exact harg8.read_unread _
      iexact HO
    iexists _; iexact HS

end Cert.Kernel.Hand

end
-- ==== Proof.Kernel.Run1C.lean ====
/-
  Kernel 1's body run once in case C of its two conditions (the last coordinate: add this point's product, then twice the low-rank product, then store scratch plus bias into the output block).
-/
import proofs.«143101_j18683107738116_2_alg».proof.Proof.Kernel.Shared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 1000000 in
/-- The body of kernel 1 run in case C on whole staging memrefs: the input blocks at their contents, the output block at anything, the scratch at what the point before left. It ends with the inputs as they were,
    the scratch with the listed pieces written and the output block with its pieces written; the pieces are what the run finds. -/
noncomputable def kernelRun1_C (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x16 .f32) (harg6 : arg6.IsWhole) (arg7 : Memref sig .tc .vmem S16x1024 .bf16) (harg7 : arg7.IsWhole) (arg8 : Memref sig .tc .vmem S2048x1024 .f32) (harg8 : arg8.IsWhole) (arg9 : Memref sig .tc .vmem S2048x1024 .f32) (harg9 : arg9.IsWhole) (hc0 : ¬cond1_0 i) (hc1 : cond1_1 i)
    (x0 : Vec F S2048x256 .bf16) (x1 : Vec F S1024x256 .bf16) (x2 : Vec F S1x1024 .f32) (x3 : Vec F S2048x16 .f32) (x4 : Vec F S16x1024 .bf16) (xs0 : Vec F S2048x1024 .f32) :
    Σ' (LO : List (View.Piece (Elt F) S2048x1024 .f32)), { LS : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f LO) ∗ (∃ f, arg9.view.loc (c : Thread nD τ) ↦[arg9.view.set]{fullShare} arg9.view.writes (Elt F) f LS)) -∗ K ⟨⟩))
          ⊢ wp frame (wpE (defs₀ (F := F)) Variants.none c none) E (cc1__lora_linear_kernel i arg3 harg3 arg4 harg4 arg5 harg5 arg6 harg6 arg7 harg7 arg8 harg8 arg9 harg9) K } := by
  refine ⟨?_, ?_, fun E K => ?run⟩
  case run =>
    simp only [cc1__lora_linear_kernel_eq_skeleton]; unfold cc1__lora_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%dO, %fO, -, HO⟩, ⟨%fS, %hfS, HS⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfS
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HO]; · iexists _; iexact HO
    iexists _; iexact HS

end Cert.Kernel.Hand

end
-- ==== Proof.Kernel.Frame1.lean ====
/-
  Kernel 1 point by point. The scratch after position n is what the case of position n leaves, computed from the
  point's input blocks and from the scratch after position n - 1; the output block's buffer is stored only at the last
  coordinate of the contracted axis, where it is then written back. This module states those contents, the pipeline's
  proof data over them, and proves the body's obligation at every point from the three cases' runs.
-/
import proofs.«143101_j18683107738116_2_alg».proof.Proof.Kernel.Run1A
import proofs.«143101_j18683107738116_2_alg».proof.Proof.Kernel.Run1B
import proofs.«143101_j18683107738116_2_alg».proof.Proof.Kernel.Run1C

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section Regions
variable (V : (c : Dev nD) → (b : Ref sig .tc) → Buf (Elt F) ((c : Thread nD τ).loc b))

/-- What case A leaves in the output block's staging buffer: its pieces read back (none: the buffer is not touched, and this value is never consulted). -/
def out1_A (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x16 .f32) (harg6 : arg6.IsWhole) (arg7 : Memref sig .tc .vmem S16x1024 .bf16) (harg7 : arg7.IsWhole) (arg8 : Memref sig .tc .vmem S2048x1024 .f32) (harg8 : arg8.IsWhole) (arg9 : Memref sig .tc .vmem S2048x1024 .f32) (harg9 : arg9.IsWhole) (hc0 : cond1_0 i) (hc1 : ¬cond1_1 i)
    (x0 : Vec F S2048x256 .bf16) (x1 : Vec F S1024x256 .bf16) (x2 : Vec F S1x1024 .f32) (x3 : Vec F S2048x16 .f32) (x4 : Vec F S16x1024 .bf16) : Vec F S2048x1024 .f32 :=
  VO1_5.read (Elt F) (VO1_5.writes (Elt F) VO1_5.junk (kernelRun1_A c i arg3 harg3 arg4 harg4 arg5 harg5 arg6 harg6 arg7 harg7 arg8 harg8 arg9 harg9 hc0 hc1 x0 x1 x2 x3 x4).1)

/-- Case A's stores into the scratch cover it. -/
theorem scover1_A (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x16 .f32) (harg6 : arg6.IsWhole) (arg7 : Memref sig .tc .vmem S16x1024 .bf16) (harg7 : arg7.IsWhole) (arg8 : Memref sig .tc .vmem S2048x1024 .f32) (harg8 : arg8.IsWhole) (arg9 : Memref sig .tc .vmem S2048x1024 .f32) (harg9 : arg9.IsWhole) (hc0 : cond1_0 i) (hc1 : ¬cond1_1 i)
    (x0 : Vec F S2048x256 .bf16) (x1 : Vec F S1024x256 .bf16) (x2 : Vec F S1x1024 .f32) (x3 : Vec F S2048x16 .f32) (x4 : Vec F S16x1024 .bf16) (y : S2048x1024.Idx) :
    ∃ pc ∈ (kernelRun1_A c i arg3 harg3 arg4 harg4 arg5 harg5 arg6 harg6 arg7 harg7 arg8 harg8 arg9 harg9 hc0 hc1 x0 x1 x2 x3 x4).2.1, y ∈ pc.1.set :=
  View.cover_of_tiledL (kernelRun1_A c i arg3 harg3 arg4 harg4 arg5 harg5 arg6 harg6 arg7 harg7 arg8 harg8 arg9 harg9 hc0 hc1 x0 x1 x2 x3 x4).2.1 S2048x1024.size (by sl_kernel_rfl) y

/-- What case A leaves in the scratch: its pieces read back. -/
def sout1_A (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x16 .f32) (harg6 : arg6.IsWhole) (arg7 : Memref sig .tc .vmem S16x1024 .bf16) (harg7 : arg7.IsWhole) (arg8 : Memref sig .tc .vmem S2048x1024 .f32) (harg8 : arg8.IsWhole) (arg9 : Memref sig .tc .vmem S2048x1024 .f32) (harg9 : arg9.IsWhole) (hc0 : cond1_0 i) (hc1 : ¬cond1_1 i)
    (x0 : Vec F S2048x256 .bf16) (x1 : Vec F S1024x256 .bf16) (x2 : Vec F S1x1024 .f32) (x3 : Vec F S2048x16 .f32) (x4 : Vec F S16x1024 .bf16) : Vec F S2048x1024 .f32 :=
  VS1.read (Elt F) (VS1.writes (Elt F) VS1.junk (kernelRun1_A c i arg3 harg3 arg4 harg4 arg5 harg5 arg6 harg6 arg7 harg7 arg8 harg8 arg9 harg9 hc0 hc1 x0 x1 x2 x3 x4).2.1)

/-- What case B leaves in the output block's staging buffer: its pieces read back (none: the buffer is not touched, and this value is never consulted). -/
def out1_B (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x16 .f32) (harg6 : arg6.IsWhole) (arg7 : Memref sig .tc .vmem S16x1024 .bf16) (harg7 : arg7.IsWhole) (arg8 : Memref sig .tc .vmem S2048x1024 .f32) (harg8 : arg8.IsWhole) (arg9 : Memref sig .tc .vmem S2048x1024 .f32) (harg9 : arg9.IsWhole) (hc0 : ¬cond1_0 i) (hc1 : ¬cond1_1 i)
    (x0 : Vec F S2048x256 .bf16) (x1 : Vec F S1024x256 .bf16) (x2 : Vec F S1x1024 .f32) (x3 : Vec F S2048x16 .f32) (x4 : Vec F S16x1024 .bf16) (xs0 : Vec F S2048x1024 .f32) : Vec F S2048x1024 .f32 :=
  VO1_5.read (Elt F) (VO1_5.writes (Elt F) VO1_5.junk (kernelRun1_B c i arg3 harg3 arg4 harg4 arg5 harg5 arg6 harg6 arg7 harg7 arg8 harg8 arg9 harg9 hc0 hc1 x0 x1 x2 x3 x4 xs0).1)

/-- Case B's stores into the scratch cover it. -/
theorem scover1_B (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x16 .f32) (harg6 : arg6.IsWhole) (arg7 : Memref sig .tc .vmem S16x1024 .bf16) (harg7 : arg7.IsWhole) (arg8 : Memref sig .tc .vmem S2048x1024 .f32) (harg8 : arg8.IsWhole) (arg9 : Memref sig .tc .vmem S2048x1024 .f32) (harg9 : arg9.IsWhole) (hc0 : ¬cond1_0 i) (hc1 : ¬cond1_1 i)
    (x0 : Vec F S2048x256 .bf16) (x1 : Vec F S1024x256 .bf16) (x2 : Vec F S1x1024 .f32) (x3 : Vec F S2048x16 .f32) (x4 : Vec F S16x1024 .bf16) (xs0 : Vec F S2048x1024 .f32) (y : S2048x1024.Idx) :
    ∃ pc ∈ (kernelRun1_B c i arg3 harg3 arg4 harg4 arg5 harg5 arg6 harg6 arg7 harg7 arg8 harg8 arg9 harg9 hc0 hc1 x0 x1 x2 x3 x4 xs0).2.1, y ∈ pc.1.set :=
  View.cover_of_tiledL (kernelRun1_B c i arg3 harg3 arg4 harg4 arg5 harg5 arg6 harg6 arg7 harg7 arg8 harg8 arg9 harg9 hc0 hc1 x0 x1 x2 x3 x4 xs0).2.1 S2048x1024.size (by sl_kernel_rfl) y

/-- What case B leaves in the scratch: its pieces read back. -/
def sout1_B (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x16 .f32) (harg6 : arg6.IsWhole) (arg7 : Memref sig .tc .vmem S16x1024 .bf16) (harg7 : arg7.IsWhole) (arg8 : Memref sig .tc .vmem S2048x1024 .f32) (harg8 : arg8.IsWhole) (arg9 : Memref sig .tc .vmem S2048x1024 .f32) (harg9 : arg9.IsWhole) (hc0 : ¬cond1_0 i) (hc1 : ¬cond1_1 i)
    (x0 : Vec F S2048x256 .bf16) (x1 : Vec F S1024x256 .bf16) (x2 : Vec F S1x1024 .f32) (x3 : Vec F S2048x16 .f32) (x4 : Vec F S16x1024 .bf16) (xs0 : Vec F S2048x1024 .f32) : Vec F S2048x1024 .f32 :=
  VS1.read (Elt F) (VS1.writes (Elt F) VS1.junk (kernelRun1_B c i arg3 harg3 arg4 harg4 arg5 harg5 arg6 harg6 arg7 harg7 arg8 harg8 arg9 harg9 hc0 hc1 x0 x1 x2 x3 x4 xs0).2.1)

/-- Case C's one store into the output block covers it. -/
theorem cover1_C (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x16 .f32) (harg6 : arg6.IsWhole) (arg7 : Memref sig .tc .vmem S16x1024 .bf16) (harg7 : arg7.IsWhole) (arg8 : Memref sig .tc .vmem S2048x1024 .f32) (harg8 : arg8.IsWhole) (arg9 : Memref sig .tc .vmem S2048x1024 .f32) (harg9 : arg9.IsWhole) (hc0 : ¬cond1_0 i) (hc1 : cond1_1 i)
    (x0 : Vec F S2048x256 .bf16) (x1 : Vec F S1024x256 .bf16) (x2 : Vec F S1x1024 .f32) (x3 : Vec F S2048x16 .f32) (x4 : Vec F S16x1024 .bf16) (xs0 : Vec F S2048x1024 .f32) (y : S2048x1024.Idx) :
    ∃ pc ∈ (kernelRun1_C c i arg3 harg3 arg4 harg4 arg5 harg5 arg6 harg6 arg7 harg7 arg8 harg8 arg9 harg9 hc0 hc1 x0 x1 x2 x3 x4 xs0).1, y ∈ pc.1.set :=
  View.cover_of_tiledL (kernelRun1_C c i arg3 harg3 arg4 harg4 arg5 harg5 arg6 harg6 arg7 harg7 arg8 harg8 arg9 harg9 hc0 hc1 x0 x1 x2 x3 x4 xs0).1 S2048x1024.size (by sl_kernel_rfl) y

/-- What case C leaves in the output block's staging buffer: its pieces read back. -/
def out1_C (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x16 .f32) (harg6 : arg6.IsWhole) (arg7 : Memref sig .tc .vmem S16x1024 .bf16) (harg7 : arg7.IsWhole) (arg8 : Memref sig .tc .vmem S2048x1024 .f32) (harg8 : arg8.IsWhole) (arg9 : Memref sig .tc .vmem S2048x1024 .f32) (harg9 : arg9.IsWhole) (hc0 : ¬cond1_0 i) (hc1 : cond1_1 i)
    (x0 : Vec F S2048x256 .bf16) (x1 : Vec F S1024x256 .bf16) (x2 : Vec F S1x1024 .f32) (x3 : Vec F S2048x16 .f32) (x4 : Vec F S16x1024 .bf16) (xs0 : Vec F S2048x1024 .f32) : Vec F S2048x1024 .f32 :=
  VO1_5.read (Elt F) (VO1_5.writes (Elt F) VO1_5.junk (kernelRun1_C c i arg3 harg3 arg4 harg4 arg5 harg5 arg6 harg6 arg7 harg7 arg8 harg8 arg9 harg9 hc0 hc1 x0 x1 x2 x3 x4 xs0).1)

/-- Case C's stores into the scratch cover it. -/
theorem scover1_C (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x16 .f32) (harg6 : arg6.IsWhole) (arg7 : Memref sig .tc .vmem S16x1024 .bf16) (harg7 : arg7.IsWhole) (arg8 : Memref sig .tc .vmem S2048x1024 .f32) (harg8 : arg8.IsWhole) (arg9 : Memref sig .tc .vmem S2048x1024 .f32) (harg9 : arg9.IsWhole) (hc0 : ¬cond1_0 i) (hc1 : cond1_1 i)
    (x0 : Vec F S2048x256 .bf16) (x1 : Vec F S1024x256 .bf16) (x2 : Vec F S1x1024 .f32) (x3 : Vec F S2048x16 .f32) (x4 : Vec F S16x1024 .bf16) (xs0 : Vec F S2048x1024 .f32) (y : S2048x1024.Idx) :
    ∃ pc ∈ (kernelRun1_C c i arg3 harg3 arg4 harg4 arg5 harg5 arg6 harg6 arg7 harg7 arg8 harg8 arg9 harg9 hc0 hc1 x0 x1 x2 x3 x4 xs0).2.1, y ∈ pc.1.set :=
  View.cover_of_tiledL (kernelRun1_C c i arg3 harg3 arg4 harg4 arg5 harg5 arg6 harg6 arg7 harg7 arg8 harg8 arg9 harg9 hc0 hc1 x0 x1 x2 x3 x4 xs0).2.1 S2048x1024.size (by sl_kernel_rfl) y

/-- What case C leaves in the scratch: its pieces read back. -/
def sout1_C (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x16 .f32) (harg6 : arg6.IsWhole) (arg7 : Memref sig .tc .vmem S16x1024 .bf16) (harg7 : arg7.IsWhole) (arg8 : Memref sig .tc .vmem S2048x1024 .f32) (harg8 : arg8.IsWhole) (arg9 : Memref sig .tc .vmem S2048x1024 .f32) (harg9 : arg9.IsWhole) (hc0 : ¬cond1_0 i) (hc1 : cond1_1 i)
    (x0 : Vec F S2048x256 .bf16) (x1 : Vec F S1024x256 .bf16) (x2 : Vec F S1x1024 .f32) (x3 : Vec F S2048x16 .f32) (x4 : Vec F S16x1024 .bf16) (xs0 : Vec F S2048x1024 .f32) : Vec F S2048x1024 .f32 :=
  VS1.read (Elt F) (VS1.writes (Elt F) VS1.junk (kernelRun1_C c i arg3 harg3 arg4 harg4 arg5 harg5 arg6 harg6 arg7 harg7 arg8 harg8 arg9 harg9 hc0 hc1 x0 x1 x2 x3 x4 xs0).2.1)

/-! ## Point by point -/

/-- What the output block's staging buffer and the scratch hold after the body at grid position `n`: the case the
    position is in, run on the point's input blocks, the scratch taken from what position `n - 1` left. -/
def outsAt1 (c : Dev nD) : (n : ℕ) → n < cfg1.N → Vec F S2048x1024 .f32 × Vec F S2048x1024 .f32
  | 0, hn => (out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 16 = 0 then
      if h1 : (n + 1) % 16 = 15 then
        False.elim (by omega)
      else
        (out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 16 = 15 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

theorem outsAt1_A (c : Dev nD) (t : Fin cfg1.N) (h0 : t.val % 16 = 0) (h1 : ¬t.val % 16 = 15) :
    outsAt1 V c t.val t.isLt = (out1_A c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : ¬t.val % 16 = 15) :
    outsAt1 V c t.val t.isLt = (out1_B c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (out1_C c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the scratch holds anything; afterwards it holds
    what the point before left. Beside it, the other scoped buffers and the generator register at some state. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ Oth1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare ((outsAt1 V c n hn).2) ∗ Oth1 c) ∗ (∃ r, prngReg c r)) := rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ Oth1 c) ∗ (∃ r, prngReg c r)) := by
  cases n with
  | zero => exact absurd rfl hz
  | succ n => rfl

/-! ## The pipeline's proof data -/

/-- Kernel 1's arrays as the region finds them; after the body each input's buffer at its block and the output's at
    `outsAt1`; the invariant `PhiS1`; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the inputs' memrefs hold their blocks; the point's position modulo 16 says which case it is
    in; the invariant hands over the scratch at what the point before left (at anything at the first point) and takes
    it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0 V, before1_1 V, before1_2 V, before1_3 V, before1_4 V]
  rw [show (dat1 V c).owesAt () t.succ = (dat1 V c).owesAt () t.castSucc from rfl]
  rw [show (dat1 V c).Φ t.succ = PhiS1 V c (t.val + 1) t.isLt from rfl, PhiS1_succ]
  have hN : t.val < 512 := lt_of_lt_of_eq t.isLt (show cfg1.N = 512 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 16 = 0
  · by_cases h1 : t.val % 16 = 15
    · exfalso; omega
    · rw [Dat.leavesExact_idle (dat1 V c) 5 t (idleAt1_5 t (fun h => h1 ((hcond1_1 t).mp h))) (noFlush1_5 t (fun h => h1 ((hcond1_1 t).mp h)))]
      rw [outsAt1_A V c t h0 h1]
      unfold sout1_A; (try dsimp only)
      by_cases hz : t.val = 0
      ·
        rw [PhiS1_castSucc V c t, PhiS1_zero V c _ _ hz, PhiA1_eq]
        iintro ⟨⟨⟨HS, HOth⟩, Hg⟩, Ho, ⟨%d0, H0⟩, ⟨%d1, H1⟩, ⟨%d2, H2⟩, ⟨%d3, H3⟩, ⟨%d4, H4⟩, ⟨%dO, HO⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [HO]; · iexact HO
        isplitl [HS]; · iexact HS
        iintro ⟨H0, H1, H2, H3, H4, HO, ⟨%eS, HS⟩⟩
        isplitl [HS HOth Hg]
        · isplitl [HS HOth]
          · isplitl [HS]
            · unfold owns; iexists _; isplitr
              swap; · iexact HS
              ipureintro; exact View.read_writes_of_cover _ _ _ _ _ (scover1_A c _ _ _ _ _ _ _ _ _ _ _ _ _ _ _ _ _ _ _ _ _ _)
            iexact HOth
          iexact Hg
        isplitl [Ho]; · iexact Ho
        isplitl [H0]; · iexact H0
        isplitl [H1]; · iexact H1
        isplitl [H2]; · iexact H2
        isplitl [H3]; · iexact H3
        isplitl [H4]; · iexact H4
        iexists _; iexact HO
      ·
        rw [PhiS1_castSucc V c t, PhiS1_pos V c _ _ hz]
        iintro ⟨⟨⟨HS, HOth⟩, Hg⟩, Ho, ⟨%d0, H0⟩, ⟨%d1, H1⟩, ⟨%d2, H2⟩, ⟨%d3, H3⟩, ⟨%d4, H4⟩, ⟨%dO, HO⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [HO]; · iexact HO
        isplitl [HS]; · iexists _; iexact HS
        iintro ⟨H0, H1, H2, H3, H4, HO, ⟨%eS, HS⟩⟩
        isplitl [HS HOth Hg]
        · isplitl [HS HOth]
          · isplitl [HS]
            · unfold owns; iexists _; isplitr
              swap; · iexact HS
              ipureintro; exact View.read_writes_of_cover _ _ _ _ _ (scover1_A c _ _ _ _ _ _ _ _ _ _ _ _ _ _ _ _ _ _ _ _ _ _)
            iexact HOth
          iexact Hg
        isplitl [Ho]; · iexact Ho
        isplitl [H0]; · iexact H0
        isplitl [H1]; · iexact H1
        isplitl [H2]; · iexact H2
        isplitl [H3]; · iexact H3
        isplitl [H4]; · iexact H4
        iexists _; iexact HO
  · by_cases h1 : t.val % 16 = 15
    · rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      unfold out1_C sout1_C; (try dsimp only)
      by_cases hz : t.val = 0
      · exfalso; omega
      ·
        rw [PhiS1_castSucc V c t, PhiS1_pos V c _ _ hz]
        iintro ⟨⟨⟨HS, HOth⟩, Hg⟩, Ho, ⟨%d0, H0⟩, ⟨%d1, H1⟩, ⟨%d2, H2⟩, ⟨%d3, H3⟩, ⟨%d4, H4⟩, ⟨%dO, HO⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
        isplitl [H0]; · iexact H0
        isplitl [H1]; · iexact H1
        isplitl [H2]; · iexact H2
        isplitl [H3]; · iexact H3
        isplitl [H4]; · iexact H4
        isplitl [HO]; · iexists _; iexact HO
        isplitl [HS]; · iexact HS
        iintro ⟨H0, H1, H2, H3, H4, ⟨%eO, HO⟩, ⟨%eS, HS⟩⟩
        isplitl [HS HOth Hg]
        · isplitl [HS HOth]
          · isplitl [HS]
            · unfold owns; iexists _; isplitr
              swap; · iexact HS
              ipureintro; exact View.read_writes_of_cover _ _ _ _ _ (scover1_C c _ _ _ _ _ _ _ _ _ _ _ _ _ _ _ _ _ _ _ _ _ _ _)
            iexact HOth
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact HO
        ipureintro; exact View.read_writes_of_cover _ _ _ _ _ (cover1_C c _ _ _ _ _ _ _ _ _ _ _ _ _ _ _ _ _ _ _ _ _ _ _)
    · rw [Dat.leavesExact_idle (dat1 V c) 5 t (idleAt1_5 t (fun h => h1 ((hcond1_1 t).mp h))) (noFlush1_5 t (fun h => h1 ((hcond1_1 t).mp h)))]
      rw [outsAt1_B V c t h0 h1]
      unfold sout1_B; (try dsimp only)
      by_cases hz : t.val = 0
      · exfalso; omega
      ·
        rw [PhiS1_castSucc V c t, PhiS1_pos V c _ _ hz]
        iintro ⟨⟨⟨HS, HOth⟩, Hg⟩, Ho, ⟨%d0, H0⟩, ⟨%d1, H1⟩, ⟨%d2, H2⟩, ⟨%d3, H3⟩, ⟨%d4, H4⟩, ⟨%dO, HO⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
        isplitl [H0]; · iexact H0
        isplitl [H1]; · iexact H1
        isplitl [H2]; · iexact H2
        isplitl [H3]; · iexact H3
        isplitl [H4]; · iexact H4
        isplitl [HO]; · iexact HO
        isplitl [HS]; · iexact HS
        iintro ⟨H0, H1, H2, H3, H4, HO, ⟨%eS, HS⟩⟩
        isplitl [HS HOth Hg]
        · isplitl [HS HOth]
          · isplitl [HS]
            · unfold owns; iexists _; isplitr
              swap; · iexact HS
              ipureintro; exact View.read_writes_of_cover _ _ _ _ _ (scover1_B c _ _ _ _ _ _ _ _ _ _ _ _ _ _ _ _ _ _ _ _ _ _ _)
            iexact HOth
          iexact Hg
        isplitl [Ho]; · iexact Ho
        isplitl [H0]; · iexact H0
        isplitl [H1]; · iexact H1
        isplitl [H2]; · iexact H2
        isplitl [H3]; · iexact H3
        isplitl [H4]; · iexact H4
        iexists _; iexact HO

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives back the scratch at some contents. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 512 := N_1; omega), PhiA1_eq]
  iintro ⟨⟨HS, HOth⟩, Hg⟩
  isplitl [HS HOth]
  · isplitl [HS]
    · iexists _; iexact HS
    iexact HOth
  iexact Hg

end Regions

end Cert.Kernel.Hand

end
-- ==== Proof.Kernel.Whole.lean ====
/-
  The whole program: four host reshapes and format changes, kernel 0, kernel 1, one host reshape. The buffer
  contents at each of the five boundaries are a fold from the launch memory: a host stretch applies its operations, a
  kernel region replaces its output array by what its write-backs leave and changes nothing else. Every weakly fair
  execution terminates with every unscoped buffer at the last boundary's contents; the argument arrays are never
  written, so they end as launched.
-/
import proofs.«143101_j18683107738116_2_alg».proof.Proof.Kernel.Frame0
import proofs.«143101_j18683107738116_2_alg».proof.Proof.Kernel.Frame1
import proofs.«143101_j18683107738116_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The contents at each boundary -/

/-- Core `c`'s buffers at launch. -/
abbrev bnd0 : Dev nD → Valuation τ sig (Elt F) := fun c b => m (c, b)
/-- After the first host stretch: kernel 0's entry. -/
abbrev bnd1 : Dev nD → Valuation τ sig (Elt F) := fun c => StableHlo.after hostOps0 (bnd0 m c)
abbrev ent0 : (c : Dev nD) → (b : Ref sig .tc) → Buf (Elt F) ((c : Thread nD τ).loc b) := fun c b => bnd1 m c b
/-- After kernel 0: its arrays at what the pipeline leaves, every other buffer as entered. Kernel 1's entry. -/
def bnd2 (c : Dev nD) : Valuation τ sig (Elt F) :=
  Pipeline.withArrays spec0 c (bnd1 m c) fun w => (dat0 (ent0 m) c).arrAt w cfg0.N
theorem bnd2_arr (c : Dev nD) (w : Fin cfg0.W) :
    bnd2 m c (Proc.devRef .tc (Pipeline.arrRef spec0 w)) = (dat0 (ent0 m) c).arrAt w cfg0.N := by
  unfold bnd2; exact Pipeline.withArrays_arr spec0 launch0.win.arr_inj c _ _ w
theorem bnd2_of_ne (c : Dev nD) (b : Ref sig .tc) (hb : ∀ w, Pipeline.arrRef spec0 w ≠ b) :
    bnd2 m c (Proc.devRef .tc b) = bnd1 m c (Proc.devRef .tc b) := by
  unfold bnd2; exact Pipeline.withArrays_of_ne spec0 c _ _ b hb
abbrev ent1 : (c : Dev nD) → (b : Ref sig .tc) → Buf (Elt F) ((c : Thread nD τ).loc b) := fun c b => bnd2 m c b
theorem hF0 (c : Dev nD) (w : Fin cfg0.W) : (dat0 (ent0 m) c).arrAt w cfg0.N = ent1 m c (Pipeline.arrRef spec0 w) :=
  (bnd2_arr m c w).symm
theorem hrest0 (c : Dev nD) : ∀ b, b ∉ Finset.univ.image (Pipeline.arrRef spec0) → ent1 m c b = ent0 m c b :=
  fun b hb => bnd2_of_ne m c b fun w e => hb (Finset.mem_image.mpr ⟨w, Finset.mem_univ _, e⟩)
/-- After kernel 1. -/
def bnd3 (c : Dev nD) : Valuation τ sig (Elt F) :=
  Pipeline.withArrays spec1 c (bnd2 m c) fun w => (dat1 (ent1 m) c).arrAt w cfg1.N
theorem bnd3_arr (c : Dev nD) (w : Fin cfg1.W) :
    bnd3 m c (Proc.devRef .tc (Pipeline.arrRef spec1 w)) = (dat1 (ent1 m) c).arrAt w cfg1.N := by
  unfold bnd3; exact Pipeline.withArrays_arr spec1 launch1.win.arr_inj c _ _ w
theorem bnd3_of_ne (c : Dev nD) (b : Ref sig .tc) (hb : ∀ w, Pipeline.arrRef spec1 w ≠ b) :
    bnd3 m c (Proc.devRef .tc b) = bnd2 m c (Proc.devRef .tc b) := by
  unfold bnd3; exact Pipeline.withArrays_of_ne spec1 c _ _ b hb
abbrev ext1 : (c : Dev nD) → (b : Ref sig .tc) → Buf (Elt F) ((c : Thread nD τ).loc b) := fun c b => bnd3 m c b
theorem hF1 (c : Dev nD) (w : Fin cfg1.W) : (dat1 (ent1 m) c).arrAt w cfg1.N = ext1 m c (Pipeline.arrRef spec1 w) :=
  (bnd3_arr m c w).symm
theorem hrest1 (c : Dev nD) : ∀ b, b ∉ Finset.univ.image (Pipeline.arrRef spec1) → ext1 m c b = ent1 m c b :=
  fun b hb => bnd3_of_ne m c b fun w e => hb (Finset.mem_image.mpr ⟨w, Finset.mem_univ _, e⟩)
/-- After the last host stretch: the end. -/
abbrev bnd4 : Dev nD → Valuation τ sig (Elt F) := fun c => StableHlo.after hostOps2 (bnd3 m c)

/-- An argument array is written by no host operation and is the output of no kernel: the fold walks back to the
    launch memory. -/
theorem bnd4_arg (c : Dev nD) (b : Ref sig .tc) (h2 : b ∉ hostOps2_W) (h1 : ∀ w, Pipeline.arrRef spec1 w ≠ b)
    (h0 : ∀ w, Pipeline.arrRef spec0 w ≠ b) (hh : b ∉ hostOps0_W) :
    bnd4 m c (Proc.devRef .tc b) = m ((c : Thread nD τ).loc b) :=
  (StableHlo.after_of_writes_sub hostOps2 _ hostOps2_writes h2).trans <|
    (bnd3_of_ne m c b h1).trans <| (bnd2_of_ne m c b h0).trans <|
      (StableHlo.after_of_writes_sub hostOps0 _ hostOps0_writes hh).trans rfl

/-! ## The proof data family and the thread state -/

abbrev adm' : (p : Fin 2) → (pcfgs (F := F) p).Adm := fun p => (cfgs p).toPCfg_adm
/-- Each kernel's proof data at its region's entry contents. -/
def pdats : (p : Fin 2) → (c : Dev nD) → Dat τ (Elt F) Unit ℕ (Pipeline.UD sig nD τ) ℕ (Pipeline.pin (pcfgs (F := F)) adm' p) c
  | ⟨0, _⟩ => fun c => dat0 (ent0 m) c
  | ⟨1, _⟩ => fun c => dat1 (ent1 m) c
abbrev 𝒱₀ : Variants := Variants.none
abbrev Lv : GSem nD τ sig → Finset Unit := fun _ => ∅
abbrev lv : GSem nD τ sig → Unit → ℕ := fun _ _ => 0
/-- What rides beside the buffers through every segment: the generator register at some state and the core owing nothing. -/
abbrev Rd (c : Dev nD) : sProp 𝕄 := iprop((∃ r, prngReg c r) ∗ ∃ W, owes (c : Thread nD τ) (0 : CellTallies nD τ sig Unit) W)
/-- A host stretch as a segment over the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ Lv lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (bnd4 m c) ∗ ∃ r, prngReg c r)

/-! ## The kernels' regions as segments -/

set_option backward.isDefEq.respectTransparency.types false in
/-- Kernel 0's region: entered from every unscoped buffer at `bnd1`, left at `bnd2`. Its arrays are split out of the
    unscoped buffers and put back at the exit contents; the generator register goes into the invariant and comes back;
    nothing is owed; the kernel has no semaphore of its own. -/
def reg0 : Pipeline.RegionSeg (pcfgs (F := F)) adm' (pdats m) () defs₀ 𝒱₀ Lv lv 0 where
  win := launch0.win.to₀
  block_pos := launch0.block_pos
  stage_whole := launch0.stage_whole
  K := PEmpty
  osem k := k.elim
  ho := Pipeline.OwnSemFacts.none _
  hbody c := (body_obligation0 (ent0 m) c).loose
  hwaits := Pipeline.hwaits_of_owed_zero _ _ _ _ Lv lv 0 fun _ _ => rfl
  pre c := iprop(StableHlo.held (c : Thread nD τ) (Pipeline.ucRefs τ sig) (bnd1 m c) ∗ Rd c)
  post c := iprop(StableHlo.held (c : Thread nD τ) (Pipeline.ucRefs τ sig) (bnd2 m c) ∗ Rd c)
  X c := iprop(∃ r, prngReg c r)
  Y c := iprop(∃ r, prngReg c r)
  Z c := Pipeline.unscopedRest (Ix := Unit) (Name := ℕ) (U := Pipeline.UD sig nD τ) (Lvl := ℕ) spec0 c (ent0 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (ent0 m) c)
    unfold Pipeline.ΦA
    iintro ⟨Hp, -, Hr⟩
    isplitl [Hr]; · iexact Hr
    iexact Hp
  hout c := by
    rw [Pipeline.ownSems0_none]
    refine BIBase.Entails.trans (hout0 (ent0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := Pipeline.UD sig nD τ) (Lvl := ℕ)
      launch0.win launch0.arr_whole c (pdats m) ((pdats m 0 c).share_full fun _ => rfl)
      (ent0 m c) (ent1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel 1's region: entered at `bnd2`, left at `bnd3`, in the same way. -/
def reg1 : Pipeline.RegionSeg (pcfgs (F := F)) adm' (pdats m) () defs₀ 𝒱₀ Lv lv 1 where
  win := launch1.win.to₀
  block_pos := launch1.block_pos
  stage_whole := launch1.stage_whole
  K := PEmpty
  osem k := k.elim
  ho := Pipeline.OwnSemFacts.none _
  hbody c := (body_obligation1 (ent1 m) c).loose
  hwaits := Pipeline.hwaits_of_owed_zero _ _ _ _ Lv lv 1 fun _ _ => rfl
  pre c := iprop(StableHlo.held (c : Thread nD τ) (Pipeline.ucRefs τ sig) (bnd2 m c) ∗ Rd c)
  post c := iprop(StableHlo.held (c : Thread nD τ) (Pipeline.ucRefs τ sig) (bnd3 m c) ∗ Rd c)
  X c := iprop(∃ r, prngReg c r)
  Y c := iprop(∃ r, prngReg c r)
  Z c := Pipeline.unscopedRest (Ix := Unit) (Name := ℕ) (U := Pipeline.UD sig nD τ) (Lvl := ℕ) spec1 c (ent1 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (ent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (ent1 m) c)
    unfold Pipeline.ΦA
    iintro ⟨Hp, -, Hr⟩
    isplitl [Hr]; · iexact Hr
    iexact Hp
  hout c := by
    rw [Pipeline.ownSems0_none]
    refine BIBase.Entails.trans (hout1 (ent1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := Pipeline.UD sig nD τ) (Lvl := ℕ)
      launch1.win launch1.arr_whole c (pdats m) ((pdats m 1 c).share_full fun _ => rfl)
      (ent1 m c) (ext1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The segments and the launch -/

abbrev segs : List (Pipeline.Seg (pcfgs (F := F)) adm' (pdats m) () defs₀ 𝒱₀ Lv lv) :=
  [ .host (hseg hostOps0 hostOps0_sub hostOps0_fresh (bnd0 m)),
    .region (reg0 m),
    .region (reg1 m),
    .host (hseg hostOps2 hostOps2_sub hostOps2_fresh (bnd3 m)) ]

theorem main_run (c : Dev nD) : main (F := F) c = Pipeline.Seg.run (segs m) :=
  main_segs adm' (pdats m) () 𝒱₀ Lv lv _ _ (reg0 m) (reg1 m) rfl rfl c

set_option backward.isDefEq.respectTransparency.types false in
/-- Every weakly fair execution of the program from memory `m` with zero counters terminates, nothing faulting, and
    every unscoped buffer of every core ends at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = bnd4 m c b) :=
  Pipeline.θ_run_regions_kit (pcfgs (F := F)) adm' (pdats m) () cellOf_inj embL defs₀ 𝒱₀ Lv lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (bnd0 m c) ∗ Rd c)) (Tₙ := Tₙ m)
    (hch := ⟨fun _ => .rfl, fun _ => .rfl, fun _ => .rfl, fun _ => .rfl, fun c => by
      show iprop(StableHlo.held (c : Thread nD τ) (Pipeline.ucRefs τ sig) (bnd4 m c) ∗ Rd c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach Lv lv fun c => ?_
      rw [show unscopedBufs c (fun b => m ((c : Thread nD τ).loc b)) = StableHlo.held (c : Thread nD τ) (Pipeline.ucRefs τ sig) (bnd0 m c)
        from Pipeline.unscopedBufs_held c (bnd0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = bnd4 m c b)
    (hfin := fun c s' => by
      iintro ⟨⟨Hh, -⟩, HSI⟩
      unfold StableHlo.held
      imodintro
      iapply (pointsTo_read_all (Pipeline.ucRefs τ sig) (fun b => (((c : Thread nD τ)).1, b)) (bnd4 m c) s')
      isplitl [Hh] <;> iassumption)
    (hQ := fun s h c => h c)

/-- The argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (bnd4_arg m c main_arg0 (by decide) (by decide) (by decide) (by decide)),
     (h c _ (mem_uc main_arg1 (by decide))).trans (bnd4_arg m c main_arg1 (by decide) (by decide) (by decide) (by decide)),
     (h c _ (mem_uc main_arg2 (by decide))).trans (bnd4_arg m c main_arg2 (by decide) (by decide) (by decide) (by decide)),
     (h c _ (mem_uc main_arg3 (by decide))).trans (bnd4_arg m c main_arg3 (by decide) (by decide) (by decide) (by decide)),
     (h c _ (mem_uc main_arg4 (by decide))).trans (bnd4_arg m c main_arg4 (by decide) (by decide) (by decide) (by decide))⟩) (run_main m ρ)

end Cert.Kernel.Hand

end
-- ==== Proof.KernelIdeal.Shared.lean ====
/-
  What the two kernels' runs are stated over. Kernel 0 computes xa = x2 · A over a grid of 8 row blocks by 8
  blocks of the contracted axis; kernel 1 computes x2 · Wᵀ over 8 row blocks, 4 column blocks and 16 blocks of the
  contracted axis, adding 2 · (xa · B) and the bias at the last of the 16. Each keeps its running sum in a scratch
  buffer that lives from one grid point to the next: it is zeroed where the contracted-axis coordinate is 0 and
  copied out (kernel 1: completed and copied out) where that coordinate is the last one. Here: a window's block at a
  grid point read off its array, the two conditions of each body decided over the grid, where the output window is
  idle, the memrefs the body is called with, and the part of the region invariant that is not the scratch.
-/
import proofs.«143101_j18683107738116_2_alg».proof.Proof.Gen.KernelIdeal.Launch
import proofs.«143101_j18683107738116_2_alg».proof.Proof.Gen.KernelIdeal.Skeleton
import proofs.«143101_j18683107738116_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section Regions
-- the buffer contents a region is entered with: every statement about a region is made at such contents
variable (V : (c : Dev nD) → (b : Ref sig .tc) → Buf (Elt F) ((c : Thread nD τ).loc b))

/-! ## Kernel 0 -/

/-- Window `w`'s block at grid point `t`, read off its array as kernel 0's region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, whether the point fetched it or
    the block index did not move since the last fetch. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The contracted-axis coordinate is 0: the scratch is zeroed first. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- The contracted-axis coordinate is the last one (7): the scratch is copied to the output block. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last contracted-axis coordinate nothing is stored into the output block and the block is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-- One staging buffer of the output window, through which its contents are stated. -/
abbrev VO0_2 : View sig .tc .vmem S2048x16 .f32 := (Memref.whole cc0_stg2_0 : Memref sig .tc .vmem S2048x16 .f32).view
/-- Each window's current staging memref at point `t`, as the pipeline passes it, and its wholeness. -/
abbrev ms0_0 (t : Fin cfg0.N) : Memref sig .tc .vmem S2048x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x16 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x16 .f32 := win0_2.stage (cfg0.slots t 2)
abbrev hs0_2 (t : Fin cfg0.N) : (ms0_2 t).IsWhole := hstage0_2 ((cfg0.slots t 2).cast nbuf0_2)
/-- The running sum's scratch buffer, whole, and as a view. -/
abbrev scM0 : Memref sig .tc .vmem S2048x16 .f32 := Memref.whole cc0_scratch0
abbrev VS0 : View sig .tc .vmem S2048x16 .f32 := scM0.view

/-- The core's scoped buffers other than kernel 0's staging buffers and its scratch, each at some contents. -/
abbrev Oth0 (c : Dev nD) : sProp 𝕄 :=
  Pipeline.scopedRestBut (Ix := Unit) (Name := ℕ) (U := Pipeline.UD sig nD τ) (Lvl := ℕ) (Val := Elt F) spec0 c [cc0_scratch0]

/-- What a region hands its body besides the windows: the scratch at some contents, the other scoped buffers, the
    generator register. -/
theorem PhiA0_eq (c : Dev nD) :
    (Pipeline.ΦA spec0 c : sProp 𝕄)
      = iprop(iprop((∃ d, owns (c : Thread nD τ) scM0 fullShare d) ∗ Oth0 c) ∗ (∃ r, prngReg c r)) := by
  unfold Pipeline.ΦA
  rw [Pipeline.scopedRest_split_of_list spec0 c [cc0_scratch0] (by decide) (by decide)]
  simp only [scM0, owns_whole, bigSepL_singleton]; try rfl

/-! ## Kernel 1 -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

abbrev VO1_5 : View sig .tc .vmem S2048x1024 .f32 := (Memref.whole cc1_stg5_0 : Memref sig .tc .vmem S2048x1024 .f32).view
abbrev ms1_0 (t : Fin cfg1.N) : Memref sig .tc .vmem S2048x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x16 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S16x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2048x1024 .f32 := win1_5.stage (cfg1.slots t 5)
abbrev hs1_5 (t : Fin cfg1.N) : (ms1_5 t).IsWhole := hstage1_5 ((cfg1.slots t 5).cast nbuf1_5)
abbrev scM1 : Memref sig .tc .vmem S2048x1024 .f32 := Memref.whole cc1_scratch0
abbrev VS1 : View sig .tc .vmem S2048x1024 .f32 := scM1.view

abbrev Oth1 (c : Dev nD) : sProp 𝕄 :=
  Pipeline.scopedRestBut (Ix := Unit) (Name := ℕ) (U := Pipeline.UD sig nD τ) (Lvl := ℕ) (Val := Elt F) spec1 c [cc1_scratch0]

theorem PhiA1_eq (c : Dev nD) :
    (Pipeline.ΦA spec1 c : sProp 𝕄)
      = iprop(iprop((∃ d, owns (c : Thread nD τ) scM1 fullShare d) ∗ Oth1 c) ∗ (∃ r, prngReg c r)) := by
  unfold Pipeline.ΦA
  rw [Pipeline.scopedRest_split_of_list spec1 c [cc1_scratch0] (by decide) (by decide)]
  simp only [scM1, owns_whole, bigSepL_singleton]; try rfl

end Regions

end Cert.KernelIdeal.Hand

end
-- ==== Proof.KernelIdeal.Run0A.lean ====
/-
  Kernel 0's body run once in case A of its two conditions (the contracted-axis coordinate is 0: zero the scratch, then add this point's product).
-/
import proofs.«143101_j18683107738116_2_alg».proof.Proof.KernelIdeal.Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 1000000 in
/-- The body of kernel 0 run in case A on whole staging memrefs: the input blocks at their contents, the output block left as found, the scratch at anything. It ends with the inputs as they were,
    the scratch with the listed pieces written; the pieces are what the run finds. -/
noncomputable def kernelRun0_A (c : Dev nD) (i : grid0.Coords) (arg2 : Memref sig .tc .vmem S2048x512 .bf16) (harg2 : arg2.IsWhole) (arg3 : Memref sig .tc .vmem S512x16 .bf16) (harg3 : arg3.IsWhole) (arg4 : Memref sig .tc .vmem S2048x16 .f32) (harg4 : arg4.IsWhole) (arg5 : Memref sig .tc .vmem S2048x16 .f32) (harg5 : arg5.IsWhole) (hc0 : cond0_0 i) (hc1 : ¬cond0_1 i)
    (x0 : Vec F S2048x512 .bf16) (x1 : Vec F S512x16 .bf16) :
    Σ' (LO : List (View.Piece (Elt F) S2048x16 .f32)), { LS : List (View.Piece (Elt F) S2048x16 .f32) //
      ∀ (xi : Vec F S2048x16 .f32) (E : Set ℕ) (K : PUnit → sProp 𝕄),
        iprop(owns (c : Thread nD τ) arg2 fullShare x0 ∗ owns (c : Thread nD τ) arg3 fullShare x1 ∗ owns (c : Thread nD τ) arg4 fullShare xi ∗ (∃ d, owns (c : Thread nD τ) arg5 fullShare d)
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc0__xa_kernel i arg2 harg2 arg3 harg3 arg4 harg4 arg5 harg5) K } := by
  refine ⟨[], ?_, fun xi E K => ?run⟩
  case run =>
    simp only [cc0__xa_kernel_eq_skeleton]; unfold cc0__xa_kernel_skel
    unfold owns
    iintro ⟨⟨%f0, %hf0, H0⟩, ⟨%f1, %hf1, H1⟩, ⟨%fO, %hfO, HO⟩, ⟨%dS, %fS, -, HS⟩, Hk⟩
    obtain rfl := harg2.eq_unread hf0; obtain rfl := harg3.eq_unread hf1; obtain rfl := harg4.eq_unread hfO
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HO]
    · iexists _; isplitr; · ipureintro; exact harg4.read_unread _
      iexact HO
    iexists _; iexact HS

end Cert.KernelIdeal.Hand

end
-- ==== Proof.KernelIdeal.Run0B.lean ====
/-
  Kernel 0's body run once in case B of its two conditions (a middle coordinate: add this point's product to the scratch).
-/
import proofs.«143101_j18683107738116_2_alg».proof.Proof.KernelIdeal.Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 1000000 in
/-- The body of kernel 0 run in case B on whole staging memrefs: the input blocks at their contents, the output block left as found, the scratch at what the point before left. It ends with the inputs as they were,
    the scratch with the listed pieces written; the pieces are what the run finds. -/
noncomputable def kernelRun0_B (c : Dev nD) (i : grid0.Coords) (arg2 : Memref sig .tc .vmem S2048x512 .bf16) (harg2 : arg2.IsWhole) (arg3 : Memref sig .tc .vmem S512x16 .bf16) (harg3 : arg3.IsWhole) (arg4 : Memref sig .tc .vmem S2048x16 .f32) (harg4 : arg4.IsWhole) (arg5 : Memref sig .tc .vmem S2048x16 .f32) (harg5 : arg5.IsWhole) (hc0 : ¬cond0_0 i) (hc1 : ¬cond0_1 i)
    (x0 : Vec F S2048x512 .bf16) (x1 : Vec F S512x16 .bf16) (xs0 : Vec F S2048x16 .f32) :
    Σ' (LO : List (View.Piece (Elt F) S2048x16 .f32)), { LS : List (View.Piece (Elt F) S2048x16 .f32) //
      ∀ (xi : Vec F S2048x16 .f32) (E : Set ℕ) (K : PUnit → sProp 𝕄),
        iprop(owns (c : Thread nD τ) arg2 fullShare x0 ∗ owns (c : Thread nD τ) arg3 fullShare x1 ∗ owns (c : Thread nD τ) arg4 fullShare xi ∗ owns (c : Thread nD τ) arg5 fullShare xs0
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc0__xa_kernel i arg2 harg2 arg3 harg3 arg4 harg4 arg5 harg5) K } := by
  refine ⟨[], ?_, fun xi E K => ?run⟩
  case run =>
    simp only [cc0__xa_kernel_eq_skeleton]; unfold cc0__xa_kernel_skel
    unfold owns
    iintro ⟨⟨%f0, %hf0, H0⟩, ⟨%f1, %hf1, H1⟩, ⟨%fO, %hfO, HO⟩, ⟨%fS, %hfS, HS⟩, Hk⟩
    obtain rfl := harg2.eq_unread hf0; obtain rfl := harg3.eq_unread hf1; obtain rfl := harg4.eq_unread hfO; obtain rfl := harg5.eq_unread hfS
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HO]
    · iexists _; isplitr; · ipureintro; exact harg4.read_unread _
      iexact HO
    iexists _; iexact HS

end Cert.KernelIdeal.Hand

end
-- ==== Proof.KernelIdeal.Run0C.lean ====
/-
  Kernel 0's body run once in case C of its two conditions (the last coordinate: add this point's product, then copy the scratch into the output block).
-/
import proofs.«143101_j18683107738116_2_alg».proof.Proof.KernelIdeal.Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 1000000 in
/-- The body of kernel 0 run in case C on whole staging memrefs: the input blocks at their contents, the output block at anything, the scratch at what the point before left. It ends with the inputs as they were,
    the scratch with the listed pieces written and the output block with its pieces written; the pieces are what the run finds. -/
noncomputable def kernelRun0_C (c : Dev nD) (i : grid0.Coords) (arg2 : Memref sig .tc .vmem S2048x512 .bf16) (harg2 : arg2.IsWhole) (arg3 : Memref sig .tc .vmem S512x16 .bf16) (harg3 : arg3.IsWhole) (arg4 : Memref sig .tc .vmem S2048x16 .f32) (harg4 : arg4.IsWhole) (arg5 : Memref sig .tc .vmem S2048x16 .f32) (harg5 : arg5.IsWhole) (hc0 : ¬cond0_0 i) (hc1 : cond0_1 i)
    (x0 : Vec F S2048x512 .bf16) (x1 : Vec F S512x16 .bf16) (xs0 : Vec F S2048x16 .f32) :
    Σ' (LO : List (View.Piece (Elt F) S2048x16 .f32)), { LS : List (View.Piece (Elt F) S2048x16 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc0__xa_kernel i arg2 harg2 arg3 harg3 arg4 harg4 arg5 harg5) K } := by
  refine ⟨?_, ?_, fun E K => ?run⟩
  case run =>
    simp only [cc0__xa_kernel_eq_skeleton]; unfold cc0__xa_kernel_skel
    unfold owns
    iintro ⟨⟨%f0, %hf0, H0⟩, ⟨%f1, %hf1, H1⟩, ⟨%dO, %fO, -, HO⟩, ⟨%fS, %hfS, HS⟩, Hk⟩
    obtain rfl := harg2.eq_unread hf0; obtain rfl := harg3.eq_unread hf1; obtain rfl := harg5.eq_unread hfS
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HO]; · iexists _; iexact HO
    iexists _; iexact HS

end Cert.KernelIdeal.Hand

end
-- ==== Proof.KernelIdeal.Frame0.lean ====
/-
  Kernel 0 point by point. The scratch after position n is what the case of position n leaves, computed from the
  point's input blocks and from the scratch after position n - 1; the output block's buffer is stored only at the last
  coordinate of the contracted axis, where it is then written back. This module states those contents, the pipeline's
  proof data over them, and proves the body's obligation at every point from the three cases' runs.
-/
import proofs.«143101_j18683107738116_2_alg».proof.Proof.KernelIdeal.Run0A
import proofs.«143101_j18683107738116_2_alg».proof.Proof.KernelIdeal.Run0B
import proofs.«143101_j18683107738116_2_alg».proof.Proof.KernelIdeal.Run0C

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section Regions
variable (V : (c : Dev nD) → (b : Ref sig .tc) → Buf (Elt F) ((c : Thread nD τ).loc b))

/-- What case A leaves in the output block's staging buffer: its pieces read back (none: the buffer is not touched, and this value is never consulted). -/
def out0_A (c : Dev nD) (i : grid0.Coords) (arg2 : Memref sig .tc .vmem S2048x512 .bf16) (harg2 : arg2.IsWhole) (arg3 : Memref sig .tc .vmem S512x16 .bf16) (harg3 : arg3.IsWhole) (arg4 : Memref sig .tc .vmem S2048x16 .f32) (harg4 : arg4.IsWhole) (arg5 : Memref sig .tc .vmem S2048x16 .f32) (harg5 : arg5.IsWhole) (hc0 : cond0_0 i) (hc1 : ¬cond0_1 i)
    (x0 : Vec F S2048x512 .bf16) (x1 : Vec F S512x16 .bf16) : Vec F S2048x16 .f32 :=
  VO0_2.read (Elt F) (VO0_2.writes (Elt F) VO0_2.junk (kernelRun0_A c i arg2 harg2 arg3 harg3 arg4 harg4 arg5 harg5 hc0 hc1 x0 x1).1)

/-- Case A's stores into the scratch cover it. -/
theorem scover0_A (c : Dev nD) (i : grid0.Coords) (arg2 : Memref sig .tc .vmem S2048x512 .bf16) (harg2 : arg2.IsWhole) (arg3 : Memref sig .tc .vmem S512x16 .bf16) (harg3 : arg3.IsWhole) (arg4 : Memref sig .tc .vmem S2048x16 .f32) (harg4 : arg4.IsWhole) (arg5 : Memref sig .tc .vmem S2048x16 .f32) (harg5 : arg5.IsWhole) (hc0 : cond0_0 i) (hc1 : ¬cond0_1 i)
    (x0 : Vec F S2048x512 .bf16) (x1 : Vec F S512x16 .bf16) (y : S2048x16.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S2048x16.size (by sl_kernel_rfl) y

/-- What case A leaves in the scratch: its pieces read back. -/
def sout0_A (c : Dev nD) (i : grid0.Coords) (arg2 : Memref sig .tc .vmem S2048x512 .bf16) (harg2 : arg2.IsWhole) (arg3 : Memref sig .tc .vmem S512x16 .bf16) (harg3 : arg3.IsWhole) (arg4 : Memref sig .tc .vmem S2048x16 .f32) (harg4 : arg4.IsWhole) (arg5 : Memref sig .tc .vmem S2048x16 .f32) (harg5 : arg5.IsWhole) (hc0 : cond0_0 i) (hc1 : ¬cond0_1 i)
    (x0 : Vec F S2048x512 .bf16) (x1 : Vec F S512x16 .bf16) : Vec F S2048x16 .f32 :=
  VS0.read (Elt F) (VS0.writes (Elt F) VS0.junk (kernelRun0_A c i arg2 harg2 arg3 harg3 arg4 harg4 arg5 harg5 hc0 hc1 x0 x1).2.1)

/-- What case B leaves in the output block's staging buffer: its pieces read back (none: the buffer is not touched, and this value is never consulted). -/
def out0_B (c : Dev nD) (i : grid0.Coords) (arg2 : Memref sig .tc .vmem S2048x512 .bf16) (harg2 : arg2.IsWhole) (arg3 : Memref sig .tc .vmem S512x16 .bf16) (harg3 : arg3.IsWhole) (arg4 : Memref sig .tc .vmem S2048x16 .f32) (harg4 : arg4.IsWhole) (arg5 : Memref sig .tc .vmem S2048x16 .f32) (harg5 : arg5.IsWhole) (hc0 : ¬cond0_0 i) (hc1 : ¬cond0_1 i)
    (x0 : Vec F S2048x512 .bf16) (x1 : Vec F S512x16 .bf16) (xs0 : Vec F S2048x16 .f32) : Vec F S2048x16 .f32 :=
  VO0_2.read (Elt F) (VO0_2.writes (Elt F) VO0_2.junk (kernelRun0_B c i arg2 harg2 arg3 harg3 arg4 harg4 arg5 harg5 hc0 hc1 x0 x1 xs0).1)

/-- Case B's stores into the scratch cover it. -/
theorem scover0_B (c : Dev nD) (i : grid0.Coords) (arg2 : Memref sig .tc .vmem S2048x512 .bf16) (harg2 : arg2.IsWhole) (arg3 : Memref sig .tc .vmem S512x16 .bf16) (harg3 : arg3.IsWhole) (arg4 : Memref sig .tc .vmem S2048x16 .f32) (harg4 : arg4.IsWhole) (arg5 : Memref sig .tc .vmem S2048x16 .f32) (harg5 : arg5.IsWhole) (hc0 : ¬cond0_0 i) (hc1 : ¬cond0_1 i)
    (x0 : Vec F S2048x512 .bf16) (x1 : Vec F S512x16 .bf16) (xs0 : Vec F S2048x16 .f32) (y : S2048x16.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S2048x16.size (by sl_kernel_rfl) y

/-- What case B leaves in the scratch: its pieces read back. -/
def sout0_B (c : Dev nD) (i : grid0.Coords) (arg2 : Memref sig .tc .vmem S2048x512 .bf16) (harg2 : arg2.IsWhole) (arg3 : Memref sig .tc .vmem S512x16 .bf16) (harg3 : arg3.IsWhole) (arg4 : Memref sig .tc .vmem S2048x16 .f32) (harg4 : arg4.IsWhole) (arg5 : Memref sig .tc .vmem S2048x16 .f32) (harg5 : arg5.IsWhole) (hc0 : ¬cond0_0 i) (hc1 : ¬cond0_1 i)
    (x0 : Vec F S2048x512 .bf16) (x1 : Vec F S512x16 .bf16) (xs0 : Vec F S2048x16 .f32) : Vec F S2048x16 .f32 :=
  VS0.read (Elt F) (VS0.writes (Elt F) VS0.junk (kernelRun0_B c i arg2 harg2 arg3 harg3 arg4 harg4 arg5 harg5 hc0 hc1 x0 x1 xs0).2.1)

/-- Case C's one store into the output block covers it. -/
theorem cover0_C (c : Dev nD) (i : grid0.Coords) (arg2 : Memref sig .tc .vmem S2048x512 .bf16) (harg2 : arg2.IsWhole) (arg3 : Memref sig .tc .vmem S512x16 .bf16) (harg3 : arg3.IsWhole) (arg4 : Memref sig .tc .vmem S2048x16 .f32) (harg4 : arg4.IsWhole) (arg5 : Memref sig .tc .vmem S2048x16 .f32) (harg5 : arg5.IsWhole) (hc0 : ¬cond0_0 i) (hc1 : cond0_1 i)
    (x0 : Vec F S2048x512 .bf16) (x1 : Vec F S512x16 .bf16) (xs0 : Vec F S2048x16 .f32) (y : S2048x16.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S2048x16.size (by sl_kernel_rfl) y

/-- What case C leaves in the output block's staging buffer: its pieces read back. -/
def out0_C (c : Dev nD) (i : grid0.Coords) (arg2 : Memref sig .tc .vmem S2048x512 .bf16) (harg2 : arg2.IsWhole) (arg3 : Memref sig .tc .vmem S512x16 .bf16) (harg3 : arg3.IsWhole) (arg4 : Memref sig .tc .vmem S2048x16 .f32) (harg4 : arg4.IsWhole) (arg5 : Memref sig .tc .vmem S2048x16 .f32) (harg5 : arg5.IsWhole) (hc0 : ¬cond0_0 i) (hc1 : cond0_1 i)
    (x0 : Vec F S2048x512 .bf16) (x1 : Vec F S512x16 .bf16) (xs0 : Vec F S2048x16 .f32) : Vec F S2048x16 .f32 :=
  VO0_2.read (Elt F) (VO0_2.writes (Elt F) VO0_2.junk (kernelRun0_C c i arg2 harg2 arg3 harg3 arg4 harg4 arg5 harg5 hc0 hc1 x0 x1 xs0).1)

/-- Case C's stores into the scratch cover it. -/
theorem scover0_C (c : Dev nD) (i : grid0.Coords) (arg2 : Memref sig .tc .vmem S2048x512 .bf16) (harg2 : arg2.IsWhole) (arg3 : Memref sig .tc .vmem S512x16 .bf16) (harg3 : arg3.IsWhole) (arg4 : Memref sig .tc .vmem S2048x16 .f32) (harg4 : arg4.IsWhole) (arg5 : Memref sig .tc .vmem S2048x16 .f32) (harg5 : arg5.IsWhole) (hc0 : ¬cond0_0 i) (hc1 : cond0_1 i)
    (x0 : Vec F S2048x512 .bf16) (x1 : Vec F S512x16 .bf16) (xs0 : Vec F S2048x16 .f32) (y : S2048x16.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S2048x16.size (by sl_kernel_rfl) y

/-- What case C leaves in the scratch: its pieces read back. -/
def sout0_C (c : Dev nD) (i : grid0.Coords) (arg2 : Memref sig .tc .vmem S2048x512 .bf16) (harg2 : arg2.IsWhole) (arg3 : Memref sig .tc .vmem S512x16 .bf16) (harg3 : arg3.IsWhole) (arg4 : Memref sig .tc .vmem S2048x16 .f32) (harg4 : arg4.IsWhole) (arg5 : Memref sig .tc .vmem S2048x16 .f32) (harg5 : arg5.IsWhole) (hc0 : ¬cond0_0 i) (hc1 : cond0_1 i)
    (x0 : Vec F S2048x512 .bf16) (x1 : Vec F S512x16 .bf16) (xs0 : Vec F S2048x16 .f32) : Vec F S2048x16 .f32 :=
  VS0.read (Elt F) (VS0.writes (Elt F) VS0.junk (kernelRun0_C c i arg2 harg2 arg3 harg3 arg4 harg4 arg5 harg5 hc0 hc1 x0 x1 xs0).2.1)

/-! ## Point by point -/

/-- What the output block's staging buffer and the scratch hold after the body at grid position `n`: the case the
    position is in, run on the point's input blocks, the scratch taken from what position `n - 1` left. -/
def outsAt0 (c : Dev nD) : (n : ℕ) → n < cfg0.N → Vec F S2048x16 .f32 × Vec F S2048x16 .f32
  | 0, hn => (out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 8 = 0 then
      if h1 : (n + 1) % 8 = 7 then
        False.elim (by omega)
      else
        (out0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 8 = 7 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 8 = 0) (h1 : ¬t.val % 8 = 7) :
    outsAt0 V c t.val t.isLt = (out0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t), sout0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (out0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the scratch holds anything; afterwards it holds
    what the point before left. Beside it, the other scoped buffers and the generator register at some state. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ Oth0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare ((outsAt0 V c n hn).2) ∗ Oth0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ Oth0 c) ∗ (∃ r, prngReg c r)) := by
  cases n with
  | zero => exact absurd rfl hz
  | succ n => rfl

/-! ## The pipeline's proof data -/

/-- Kernel 0's arrays as the region finds them; after the body each input's buffer at its block and the output's at
    `outsAt0`; the invariant `PhiS0`; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks; the point's position modulo 8 says which case it is
    in; the invariant hands over the scratch at what the point before left (at anything at the first point) and takes
    it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0 V, before0_1 V]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 8 = 0
  · by_cases h1 : t.val % 8 = 7
    · exfalso; omega
    · rw [Dat.leavesExact_idle (dat0 V c) 2 t (idleAt0_2 t (fun h => h1 ((hcond0_1 t).mp h))) (noFlush0_2 t (fun h => h1 ((hcond0_1 t).mp h)))]
      rw [outsAt0_A V c t h0 h1]
      unfold sout0_A; (try dsimp only)
      by_cases hz : t.val = 0
      ·
        rw [PhiS0_castSucc V c t, PhiS0_zero V c _ _ hz, PhiA0_eq]
        iintro ⟨⟨⟨HS, HOth⟩, Hg⟩, Ho, ⟨%d0, H0⟩, ⟨%d1, H1⟩, ⟨%dO, HO⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [HO]; · iexact HO
        isplitl [HS]; · iexact HS
        iintro ⟨H0, H1, HO, ⟨%eS, HS⟩⟩
        isplitl [HS HOth Hg]
        · isplitl [HS HOth]
          · isplitl [HS]
            · unfold owns; iexists _; isplitr
              swap; · iexact HS
              ipureintro; exact View.read_writes_of_cover _ _ _ _ _ (scover0_A c _ _ _ _ _ _ _ _ _ _ _ _ _)
            iexact HOth
          iexact Hg
        isplitl [Ho]; · iexact Ho
        isplitl [H0]; · iexact H0
        isplitl [H1]; · iexact H1
        iexists _; iexact HO
      ·
        rw [PhiS0_castSucc V c t, PhiS0_pos V c _ _ hz]
        iintro ⟨⟨⟨HS, HOth⟩, Hg⟩, Ho, ⟨%d0, H0⟩, ⟨%d1, H1⟩, ⟨%dO, HO⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [HO]; · iexact HO
        isplitl [HS]; · iexists _; iexact HS
        iintro ⟨H0, H1, HO, ⟨%eS, HS⟩⟩
        isplitl [HS HOth Hg]
        · isplitl [HS HOth]
          · isplitl [HS]
            · unfold owns; iexists _; isplitr
              swap; · iexact HS
              ipureintro; exact View.read_writes_of_cover _ _ _ _ _ (scover0_A c _ _ _ _ _ _ _ _ _ _ _ _ _)
            iexact HOth
          iexact Hg
        isplitl [Ho]; · iexact Ho
        isplitl [H0]; · iexact H0
        isplitl [H1]; · iexact H1
        iexists _; iexact HO
  · by_cases h1 : t.val % 8 = 7
    · rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold out0_C sout0_C; (try dsimp only)
      by_cases hz : t.val = 0
      · exfalso; omega
      ·
        rw [PhiS0_castSucc V c t, PhiS0_pos V c _ _ hz]
        iintro ⟨⟨⟨HS, HOth⟩, Hg⟩, Ho, ⟨%d0, H0⟩, ⟨%d1, H1⟩, ⟨%dO, HO⟩⟩
        iapply ((kernelRun0_C c (grid0.coords t) _ _ _ _ _ _ _ _ (fun h => h0 ((hcond0_0 t).mp h)) ((hcond0_1 t).mpr h1) (iblk0 V c 0 t) (iblk0 V c 1 t) _).2.2 Set.univ _)
        isplitl [H0]; · iexact H0
        isplitl [H1]; · iexact H1
        isplitl [HO]; · iexists _; iexact HO
        isplitl [HS]; · iexact HS
        iintro ⟨H0, H1, ⟨%eO, HO⟩, ⟨%eS, HS⟩⟩
        isplitl [HS HOth Hg]
        · isplitl [HS HOth]
          · isplitl [HS]
            · unfold owns; iexists _; isplitr
              swap; · iexact HS
              ipureintro; exact View.read_writes_of_cover _ _ _ _ _ (scover0_C c _ _ _ _ _ _ _ _ _ _ _ _ _ _)
            iexact HOth
          iexact Hg
        isplitl [Ho]; · iexact Ho
        isplitl [H0]; · iexact H0
        isplitl [H1]; · iexact H1
        unfold owns; iexists _; isplitr
        swap; · iexact HO
        ipureintro; exact View.read_writes_of_cover _ _ _ _ _ (cover0_C c _ _ _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [outsAt0_B V c t h0 h1]
      unfold sout0_B; (try dsimp only)
      by_cases hz : t.val = 0
      · exfalso; omega
      ·
        rw [PhiS0_castSucc V c t, PhiS0_pos V c _ _ hz]
        iintro ⟨⟨⟨HS, HOth⟩, Hg⟩, Ho, ⟨%d0, H0⟩, ⟨%d1, H1⟩, ⟨%dO, HO⟩⟩
        iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
        isplitl [H0]; · iexact H0
        isplitl [H1]; · iexact H1
        isplitl [HO]; · iexact HO
        isplitl [HS]; · iexact HS
        iintro ⟨H0, H1, HO, ⟨%eS, HS⟩⟩
        isplitl [HS HOth Hg]
        · isplitl [HS HOth]
          · isplitl [HS]
            · unfold owns; iexists _; isplitr
              swap; · iexact HS
              ipureintro; exact View.read_writes_of_cover _ _ _ _ _ (scover0_B c _ _ _ _ _ _ _ _ _ _ _ _ _ _)
            iexact HOth
          iexact Hg
        isplitl [Ho]; · iexact Ho
        isplitl [H0]; · iexact H0
        isplitl [H1]; · iexact H1
        iexists _; iexact HO

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives back the scratch at some contents. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 64 := N_0; omega), PhiA0_eq]
  iintro ⟨⟨HS, HOth⟩, Hg⟩
  isplitl [HS HOth]
  · isplitl [HS]
    · iexists _; iexact HS
    iexact HOth
  iexact Hg

end Regions

end Cert.KernelIdeal.Hand

end
-- ==== Proof.LibReadBack.lean ====
/-
  Reading a whole buffer back after stores.

  When the LAST of a list of stores into a buffer wrote the whole buffer (through the unit-stride rectangle at zero
  offsets of the buffer's own sizes), a load of the whole buffer afterwards reads that store's value, whatever the
  earlier stores were: an accumulator stored twice within one grid point and then read back.
-/
import Idealize.ShloMosaic.Lib.Pipeline.Value

noncomputable section

namespace Cert.ReadBack

open Idealize.ShloMosaic

/-- A load of the whole buffer after stores the last of which wrote the whole buffer reads that store's payload. The
    offsets `off` may be spelt in any way that is zero on every axis (`h`). -/
theorem readCov_cons_whole {Val : EltTy → Type} [∀ e, Nonempty (Val e)] {S : Shape} {e : EltTy} {sg : RefSig} {κ : Kind} {sp : Space}
    (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self .., by
    show y ∈ (Rect.whole S).set; rw [Rect.set_whole]; exact Finset.mem_univ y⟩), View.canon_cons_unit_zero rfl, View.ld_unit_zero rfl]

end Cert.ReadBack

end
-- ==== Proof.KernelIdeal.Pieces0.lean ====
/-
  What each case of kernel 0's body leaves, as values: at the first block the scratch is 0 + (this block's product), at
  a later block it is the scratch before plus this block's product, and at the last block the output block is a copy
  of the scratch. Each is one covering store's payload read back through whole buffers.
-/
import proofs.«143101_j18683107738116_2_alg».proof.Proof.KernelIdeal.Frame0
import Idealize.ShloMosaic.Lib.Pipeline.Value
import proofs.«143101_j18683107738116_2_alg».proof.Proof.LibReadBack

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

theorem hz2 : (![0, 0] : Fin 2 → Nat) = fun _ => 0 := funext fun a => by fin_cases a <;> rfl

theorem sout0_A_eq (c : Dev nD) (i : grid0.Coords) (arg2 : Memref sig .tc .vmem S2048x512 .bf16) (harg2 : arg2.IsWhole) (arg3 : Memref sig .tc .vmem S512x16 .bf16) (harg3 : arg3.IsWhole) (arg4 : Memref sig .tc .vmem S2048x16 .f32) (harg4 : arg4.IsWhole) (arg5 : Memref sig .tc .vmem S2048x16 .f32) (harg5 : arg5.IsWhole) (hc0 : cond0_0 i) (hc1 : ¬cond0_1 i)
    (x0 : Vec F S2048x512 .bf16) (x1 : Vec F S512x16 .bf16) :
    sout0_A c i arg2 harg2 arg3 harg3 arg4 harg4 arg5 harg5 hc0 hc1 x0 x1 = k0_pay2 (k0_pay1 (F := F)) x0 x1 := by
  unfold sout0_A
  rw [View.read_writes_eq_canon _ _ _ (scover0_A c i arg2 harg2 arg3 harg3 arg4 harg4 arg5 harg5 hc0 hc1 x0 x1)]
  unfold kernelRun0_A
  dsimp only
  sl_unfold_words
  rw [View.canon_cons_unit_zero (S := S2048x16) hz2, View.readCov_unit_zero (S := S2048x16) _ hz2]
  simp only [View.readAt_eq_ld, harg2.read_unread, harg3.read_unread, View.ld_unit_zero (S := S2048x512) hz2, View.ld_unit_zero (S := S512x16) hz2]

theorem sout0_B_eq (c : Dev nD) (i : grid0.Coords) (arg2 : Memref sig .tc .vmem S2048x512 .bf16) (harg2 : arg2.IsWhole) (arg3 : Memref sig .tc .vmem S512x16 .bf16) (harg3 : arg3.IsWhole) (arg4 : Memref sig .tc .vmem S2048x16 .f32) (harg4 : arg4.IsWhole) (arg5 : Memref sig .tc .vmem S2048x16 .f32) (harg5 : arg5.IsWhole) (hc0 : ¬cond0_0 i) (hc1 : ¬cond0_1 i)
    (x0 : Vec F S2048x512 .bf16) (x1 : Vec F S512x16 .bf16) (xs0 : Vec F S2048x16 .f32) :
    sout0_B c i arg2 harg2 arg3 harg3 arg4 harg4 arg5 harg5 hc0 hc1 x0 x1 xs0 = k0_pay2 xs0 x0 x1 := by
  unfold sout0_B
  rw [View.read_writes_eq_canon _ _ _ (scover0_B c i arg2 harg2 arg3 harg3 arg4 harg4 arg5 harg5 hc0 hc1 x0 x1 xs0)]
  unfold kernelRun0_B
  dsimp only
  sl_unfold_words
  rw [View.canon_unit_zero hz2]
  simp only [View.readAt_eq_ld, harg2.read_unread, harg3.read_unread, harg5.read_unread, View.ld_unit_zero (S := S2048x512) hz2, View.ld_unit_zero (S := S512x16) hz2, View.ld_unit_zero (S := S2048x16) hz2]

theorem sout0_C_eq (c : Dev nD) (i : grid0.Coords) (arg2 : Memref sig .tc .vmem S2048x512 .bf16) (harg2 : arg2.IsWhole) (arg3 : Memref sig .tc .vmem S512x16 .bf16) (harg3 : arg3.IsWhole) (arg4 : Memref sig .tc .vmem S2048x16 .f32) (harg4 : arg4.IsWhole) (arg5 : Memref sig .tc .vmem S2048x16 .f32) (harg5 : arg5.IsWhole) (hc0 : ¬cond0_0 i) (hc1 : cond0_1 i)
    (x0 : Vec F S2048x512 .bf16) (x1 : Vec F S512x16 .bf16) (xs0 : Vec F S2048x16 .f32) :
    sout0_C c i arg2 harg2 arg3 harg3 arg4 harg4 arg5 harg5 hc0 hc1 x0 x1 xs0 = k0_pay2 xs0 x0 x1 := by
  unfold sout0_C
  rw [View.read_writes_eq_canon _ _ _ (scover0_C c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg5.read_unread, View.ld_unit_zero (S := S2048x512) hz2, View.ld_unit_zero (S := S512x16) hz2, View.ld_unit_zero (S := S2048x16) hz2]

theorem out0_C_eq (c : Dev nD) (i : grid0.Coords) (arg2 : Memref sig .tc .vmem S2048x512 .bf16) (harg2 : arg2.IsWhole) (arg3 : Memref sig .tc .vmem S512x16 .bf16) (harg3 : arg3.IsWhole) (arg4 : Memref sig .tc .vmem S2048x16 .f32) (harg4 : arg4.IsWhole) (arg5 : Memref sig .tc .vmem S2048x16 .f32) (harg5 : arg5.IsWhole) (hc0 : ¬cond0_0 i) (hc1 : cond0_1 i)
    (x0 : Vec F S2048x512 .bf16) (x1 : Vec F S512x16 .bf16) (xs0 : Vec F S2048x16 .f32) :
    out0_C c i arg2 harg2 arg3 harg3 arg4 harg4 arg5 harg5 hc0 hc1 x0 x1 xs0 = k0_pay2 xs0 x0 x1 := by
  unfold out0_C
  rw [View.read_writes_eq_canon _ _ _ (cover0_C c i arg2 harg2 arg3 harg3 arg4 harg4 arg5 harg5 hc0 hc1 x0 x1 xs0)]
  unfold kernelRun0_C
  dsimp only
  sl_unfold_words
  rw [View.canon_unit_zero hz2, View.readCov_unit_zero (S := S2048x16) _ hz2]
  simp only [View.readAt_eq_ld, harg2.read_unread, harg3.read_unread, harg5.read_unread, View.ld_unit_zero (S := S2048x512) hz2, View.ld_unit_zero (S := S512x16) hz2, View.ld_unit_zero (S := S2048x16) hz2]

end Cert.KernelIdeal.Hand

end
-- ==== Proof.Spec.lean ====
/-
  The two sides as functions of the argument arrays over the extended reals.
  x : [4, 4096, 4096], W : [4096, 4096], b : [4096], A : [4096, 16], B : [16, 4096].
  The reference is  out[p, s, o] = (Σ_d x[p, s, d] · W[o, d] + b[o]) + 2 · Σ_r (Σ_d x[p, s, d] · A[d, r]) · B[r, o].
  The kernels read x as the matrix x2[R, D] with R = p · 4096 + s, and sum over the contracted axis block by block from
  zero, left to right: kernel 0 in 8 blocks of 512 for xa = x2 · A, kernel 1 in 16 blocks of 256 for x2 · Wᵀ; at the last
  block kernel 1 adds 2 · (xa · B) and then the bias. Block sums are indexed by a natural number; a column number is
  reduced modulo 4096, which changes nothing for the blocks that are used.
-/
import Idealize.ShloMosaic.PureOps.Ideal
import Idealize.ShloMosaic.Lib.ValueIdx

noncomputable section

open scoped BigOperators

namespace Cert.Spec

open Idealize.ShloMosaic Idealize.ShloMosaic.ValueIdx

/-- The number 2 as the f32 word both programs print. -/
abbrev two : EReal := Ideal.ofBits .f32 0x40000000#32

/-- Column `n` of the contracted axis, taken modulo its extent. -/
abbrev col (n : ℕ) : Fin 4096 := ⟨n % 4096, Nat.mod_lt _ (by decide)⟩

/-- Row `R` of x read as the [16384, 4096] matrix, at column `D`. -/
def xrow (X : (⟨3, ![4, 4096, 4096]⟩ : Shape).Idx → EReal) (R : Fin 16384) (D : Fin 4096) : EReal :=
  X (ix3 (⟨R.val / 4096, by omega⟩ : Fin 4) (⟨R.val % 4096, Nat.mod_lt _ (by decide)⟩ : Fin 4096) D)

/-! ## The reference -/

def refAt (X : (⟨3, ![4, 4096, 4096]⟩ : Shape).Idx → EReal) (Wt : (⟨2, ![4096, 4096]⟩ : Shape).Idx → EReal)
    (bv : (⟨1, ![4096]⟩ : Shape).Idx → EReal) (A : (⟨2, ![4096, 16]⟩ : Shape).Idx → EReal) (Bm : (⟨2, ![16, 4096]⟩ : Shape).Idx → EReal)
    (p : Fin 4) (s : Fin 4096) (o : Fin 4096) : EReal :=
  ((∑ d : Fin 4096, X (ix3 p s d) * Wt (ix2 o d)) + bv (ix1 o))
    + two * (∑ r : Fin 16, (∑ d : Fin 4096, X (ix3 p s d) * A (ix2 d r)) * Bm (ix2 r o))

def refSpec (X : (⟨3, ![4, 4096, 4096]⟩ : Shape).Idx → EReal) (Wt : (⟨2, ![4096, 4096]⟩ : Shape).Idx → EReal)
    (bv : (⟨1, ![4096]⟩ : Shape).Idx → EReal) (A : (⟨2, ![4096, 16]⟩ : Shape).Idx → EReal) (Bm : (⟨2, ![16, 4096]⟩ : Shape).Idx → EReal) :
    (⟨3, ![4, 4096, 4096]⟩ : Shape).Idx → EReal :=
  fun i => refAt X Wt bv A Bm (i 0) (i 1) (i 2)

/-! ## The kernels -/

/-- Block `kb` (512 columns) of row `R` of x2 against column `r` of A. -/
def blk0 (X : (⟨3, ![4, 4096, 4096]⟩ : Shape).Idx → EReal) (A : (⟨2, ![4096, 16]⟩ : Shape).Idx → EReal)
    (R : Fin 16384) (r : Fin 16) (kb : ℕ) : EReal :=
  ∑ d : Fin 512, xrow X R (col (kb * 512 + d.val)) * A (ix2 (col (kb * 512 + d.val)) r)

/-- Kernel 0's running sum after block `k`: from zero, block after block. -/
def acc0 (X : (⟨3, ![4, 4096, 4096]⟩ : Shape).Idx → EReal) (A : (⟨2, ![4096, 16]⟩ : Shape).Idx → EReal)
    (R : Fin 16384) (r : Fin 16) : ℕ → EReal
  | 0 => 0 + blk0 X A R r 0
  | k + 1 => acc0 X A R r k + blk0 X A R r (k + 1)

/-- xa = x2 · A as kernel 0 leaves it: the running sum after its eighth block. -/
def xaK (X : (⟨3, ![4, 4096, 4096]⟩ : Shape).Idx → EReal) (A : (⟨2, ![4096, 16]⟩ : Shape).Idx → EReal)
    (R : Fin 16384) (r : Fin 16) : EReal := acc0 X A R r 7

/-- Block `kb` (256 columns) of row `R` of x2 against row `o` of W. -/
def blk1 (X : (⟨3, ![4, 4096, 4096]⟩ : Shape).Idx → EReal) (Wt : (⟨2, ![4096, 4096]⟩ : Shape).Idx → EReal)
    (R : Fin 16384) (o : Fin 4096) (kb : ℕ) : EReal :=
  ∑ d : Fin 256, xrow X R (col (kb * 256 + d.val)) * Wt (ix2 o (col (kb * 256 + d.val)))

/-- Kernel 1's running sum after block `k`. -/
def acc1 (X : (⟨3, ![4, 4096, 4096]⟩ : Shape).Idx → EReal) (Wt : (⟨2, ![4096, 4096]⟩ : Shape).Idx → EReal)
    (R : Fin 16384) (o : Fin 4096) : ℕ → EReal
  | 0 => 0 + blk1 X Wt R o 0
  | k + 1 => acc1 X Wt R o k + blk1 X Wt R o (k + 1)

/-- Kernel 1's output at row `R`, column `o`: the sixteen blocks, plus twice xa · B, plus the bias. -/
def outK (X : (⟨3, ![4, 4096, 4096]⟩ : Shape).Idx → EReal) (Wt : (⟨2, ![4096, 4096]⟩ : Shape).Idx → EReal)
    (bv : (⟨1, ![4096]⟩ : Shape).Idx → EReal) (A : (⟨2, ![4096, 16]⟩ : Shape).Idx → EReal) (Bm : (⟨2, ![16, 4096]⟩ : Shape).Idx → EReal)
    (R : Fin 16384) (o : Fin 4096) : EReal :=
  (acc1 X Wt R o 15 + two * (∑ r : Fin 16, xaK X A R r * Bm (ix2 r o))) + bv (ix1 o)

/-- The kernels' result read back as [4, 4096, 4096]. -/
def kerSpec (X : (⟨3, ![4, 4096, 4096]⟩ : Shape).Idx → EReal) (Wt : (⟨2, ![4096, 4096]⟩ : Shape).Idx → EReal)
    (bv : (⟨1, ![4096]⟩ : Shape).Idx → EReal) (A : (⟨2, ![4096, 16]⟩ : Shape).Idx → EReal) (Bm : (⟨2, ![16, 4096]⟩ : Shape).Idx → EReal) :
    (⟨3, ![4, 4096, 4096]⟩ : Shape).Idx → EReal :=
  fun i => outK X Wt bv A Bm (⟨(i 0).val * 4096 + (i 1).val, by
    have h0 : (i 0).val < 4 := (i 0).isLt
    have h1 : (i 1).val < 4096 := (i 1).isLt
    omega⟩ : Fin 16384) (i 2)

end Cert.Spec

end
-- ==== Proof.LibMatmulRead.lean ====
/-
  A matrix product into a zero accumulator, read at an index on the extended reals.

  When the dimension numbers contract ONE axis of extent `n`, the product at an output index `j` is the sum over
  `k : Fin n` of the left operand at `L k` times the right operand at `R k`, where `L k`, `R k` are the operand indices
  the dimension numbers assign to `j` and the contraction coordinate `k` (hypotheses `hl`, `hr'`: whatever batch and free
  axes there are, the caller names the two index families once).
-/
import Idealize.ShloMosaic.PureOps.Ideal.Laws
import Idealize.ShloMosaic.Lib.ValueIdx

noncomputable section

namespace Cert.MatmulRead

open Idealize.ShloMosaic Idealize.ShloMosaic.ValueIdx

/-- A product into the zero splat, one contracted axis of extent `n`: `∑ k : Fin n, lhs (L k) * rhs (R k)`. -/
theorem matmul_zero_read {sl sr so : Shape} {φ₁ φ₂ : FTy} (D : DotDims sl sr so) (prec : Option ContractPrecision) (n : Nat)
    (hr : D.contr.rank = 1) (hs : D.contr.size ⟨0, by omega⟩ = n)
    (lhs : FVec Ideal sl φ₁) (rhs : FVec Ideal sr φ₂) (j : so.Idx) (L : Fin n → sl.Idx) (R : Fin n → sr.Idx)
    (hl : ∀ k, D.lhsIdx j ((contrEquiv1 D n hr hs).symm k) = L k)
    (hr' : ∀ k, D.rhsIdx j ((contrEquiv1 D n hr hs).symm k) = R k) :
    matmul D prec lhs rhs (constant so .f32 0x00000000#32) j = ∑ k : Fin n, lhs (L k) * rhs (R k) := by
  simp only [matmul]
  rw [Ideal.matmul_constant_zero_apply, ← Equiv.sum_comp (contrEquiv1 D n hr hs).symm]
  exact Finset.sum_congr rfl fun k _ => by rw [hl k, hr' k]

end Cert.MatmulRead

end
-- ==== Proof.Payloads.lean ====
/-
  The values the two kernels store, read at an index at the ideal values (the extended reals).

  At the ideal values a shape cast between equal shapes, a narrowing to bf16 and a broadcast read their operand
  through, `addf` and `mulf` are `+` and `*`, the zero splat is `0`, and a matrix product into the zero accumulator
  is the sum over its one contracted axis of the products of the operands' elements. The three products here are
  `[2048, 512] · [512, 16]` and `[2048, 16] · [16, 1024]` (the left's second axis against the right's first) and
  `[2048, 256] · [1024, 256]ᵀ` (the second axis of both).
-/
import proofs.«143101_j18683107738116_2_alg».proof.Proof.Gen.KernelIdeal.Skeleton
import proofs.«143101_j18683107738116_2_alg».proof.Proof.Spec
import proofs.«143101_j18683107738116_2_alg».proof.Proof.LibMatmulRead
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayValue

open Cert.KernelIdeal Cert.KernelIdeal.Gen Idealize.ShloMosaic Idealize.ShloMosaic.ValueIdx

/-! ## The operand indices of the three products -/

/-! ### `[2048, 512] · [512, 16]` -/

/-- The left operand's row is the output's row. -/
theorem lhsA_0 (i : S2048x16.Idx) (q : dot_S2048x512_S512x16_S2048x16_1_0_0_1_n_n.contr.Idx) :
    (dot_S2048x512_S512x16_S2048x16_1_0_0_1_n_n.lhsIdx i q 0).val = (i 0).val := by
  unfold DotDims.lhsIdx
  rw [dif_neg (show ¬(0 : Fin S2048x512.rank) ∈ dot_S2048x512_S512x16_S2048x16_1_0_0_1_n_n.lhsBatch by decide),
    dif_pos (show (0 : Fin S2048x512.rank) ∈ dot_S2048x512_S512x16_S2048x16_1_0_0_1_n_n.lhsNonContracting by decide)]
  rfl
/-- The left operand's column is the contraction position. -/
theorem lhsA_1 (i : S2048x16.Idx) (q : dot_S2048x512_S512x16_S2048x16_1_0_0_1_n_n.contr.Idx) :
    (dot_S2048x512_S512x16_S2048x16_1_0_0_1_n_n.lhsIdx i q 1).val = (q ⟨0, by decide⟩).val :=
  dot_S2048x512_S512x16_S2048x16_1_0_0_1_n_n.lhsIdx_val_of_single rfl i q
/-- The right operand's coordinate on its contracted axis is the contraction position. -/
theorem rhsA_0 (i : S2048x16.Idx) (q : dot_S2048x512_S512x16_S2048x16_1_0_0_1_n_n.contr.Idx) :
    (dot_S2048x512_S512x16_S2048x16_1_0_0_1_n_n.rhsIdx i q 0).val = (q ⟨0, by decide⟩).val :=
  dot_S2048x512_S512x16_S2048x16_1_0_0_1_n_n.rhsIdx_val_of_single rfl i q
/-- The right operand's coordinate on its free axis is the output's column. -/
theorem rhsA_1 (i : S2048x16.Idx) (q : dot_S2048x512_S512x16_S2048x16_1_0_0_1_n_n.contr.Idx) :
    (dot_S2048x512_S512x16_S2048x16_1_0_0_1_n_n.rhsIdx i q 1).val = (i 1).val := by
  unfold DotDims.rhsIdx
  rw [dif_neg (show ¬(1 : Fin S512x16.rank) ∈ dot_S2048x512_S512x16_S2048x16_1_0_0_1_n_n.rhsBatch by decide),
    dif_pos (show (1 : Fin S512x16.rank) ∈ dot_S2048x512_S512x16_S2048x16_1_0_0_1_n_n.rhsNonContracting by decide)]
  rfl

/-- At contraction position `k` the left operand is read at row `r`, column `k`. -/
theorem lhsIdxA (r : Fin 2048) (c : Fin 16) (k : Fin 512) :
    dot_S2048x512_S512x16_S2048x16_1_0_0_1_n_n.lhsIdx (ix2 r c) ((contrEquiv1 dot_S2048x512_S512x16_S2048x16_1_0_0_1_n_n 512 rfl rfl).symm k) = ix2 r k := by
  have hk := contrEquiv1_symm_val dot_S2048x512_S512x16_S2048x16_1_0_0_1_n_n 512 rfl rfl k
  funext a
  refine Fin.ext ?_
  match a with
  | ⟨0, _⟩ => exact lhsA_0 _ _
  | ⟨1, _⟩ => exact (lhsA_1 _ _).trans hk

/-- At contraction position `k` the right operand is read at `(k, c)`. -/
theorem rhsIdxA (r : Fin 2048) (c : Fin 16) (k : Fin 512) :
    dot_S2048x512_S512x16_S2048x16_1_0_0_1_n_n.rhsIdx (ix2 r c) ((contrEquiv1 dot_S2048x512_S512x16_S2048x16_1_0_0_1_n_n 512 rfl rfl).symm k) = ix2 k c := by
  have hk := contrEquiv1_symm_val dot_S2048x512_S512x16_S2048x16_1_0_0_1_n_n 512 rfl rfl k
  funext a
  refine Fin.ext ?_
  match a with
  | ⟨0, _⟩ => exact (rhsA_0 _ _).trans hk
  | ⟨1, _⟩ => exact rhsA_1 _ _

/-! ### `[2048, 256] · [1024, 256]ᵀ` -/

/-- The left operand's row is the output's row. -/
theorem lhsW_0 (i : S2048x1024.Idx) (q : dot_S2048x256_S1024x256_S2048x1024_1_1_0_0_n_n.contr.Idx) :
    (dot_S2048x256_S1024x256_S2048x1024_1_1_0_0_n_n.lhsIdx i q 0).val = (i 0).val := by
  unfold DotDims.lhsIdx
  rw [dif_neg (show ¬(0 : Fin S2048x256.rank) ∈ dot_S2048x256_S1024x256_S2048x1024_1_1_0_0_n_n.lhsBatch by decide),
    dif_pos (show (0 : Fin S2048x256.rank) ∈ dot_S2048x256_S1024x256_S2048x1024_1_1_0_0_n_n.lhsNonContracting by decide)]
  rfl
/-- The left operand's column is the contraction position. -/
theorem lhsW_1 (i : S2048x1024.Idx) (q : dot_S2048x256_S1024x256_S2048x1024_1_1_0_0_n_n.contr.Idx) :
    (dot_S2048x256_S1024x256_S2048x1024_1_1_0_0_n_n.lhsIdx i q 1).val = (q ⟨0, by decide⟩).val :=
  dot_S2048x256_S1024x256_S2048x1024_1_1_0_0_n_n.lhsIdx_val_of_single rfl i q
/-- The right operand's coordinate on its free axis is the output's column. -/
theorem rhsW_0 (i : S2048x1024.Idx) (q : dot_S2048x256_S1024x256_S2048x1024_1_1_0_0_n_n.contr.Idx) :
    (dot_S2048x256_S1024x256_S2048x1024_1_1_0_0_n_n.rhsIdx i q 0).val = (i 1).val := by
  unfold DotDims.rhsIdx
  rw [dif_neg (show ¬(0 : Fin S1024x256.rank) ∈ dot_S2048x256_S1024x256_S2048x1024_1_1_0_0_n_n.rhsBatch by decide),
    dif_pos (show (0 : Fin S1024x256.rank) ∈ dot_S2048x256_S1024x256_S2048x1024_1_1_0_0_n_n.rhsNonContracting by decide)]
  rfl
/-- The right operand's coordinate on its contracted axis is the contraction position. -/
theorem rhsW_1 (i : S2048x1024.Idx) (q : dot_S2048x256_S1024x256_S2048x1024_1_1_0_0_n_n.contr.Idx) :
    (dot_S2048x256_S1024x256_S2048x1024_1_1_0_0_n_n.rhsIdx i q 1).val = (q ⟨0, by decide⟩).val :=
  dot_S2048x256_S1024x256_S2048x1024_1_1_0_0_n_n.rhsIdx_val_of_single rfl i q

/-- At contraction position `k` the left operand is read at row `r`, column `k`. -/
theorem lhsIdxW (r : Fin 2048) (c : Fin 1024) (k : Fin 256) :
    dot_S2048x256_S1024x256_S2048x1024_1_1_0_0_n_n.lhsIdx (ix2 r c) ((contrEquiv1 dot_S2048x256_S1024x256_S2048x1024_1_1_0_0_n_n 256 rfl rfl).symm k) = ix2 r k := by
  have hk := contrEquiv1_symm_val dot_S2048x256_S1024x256_S2048x1024_1_1_0_0_n_n 256 rfl rfl k
  funext a
  refine Fin.ext ?_
  match a with
  | ⟨0, _⟩ => exact lhsW_0 _ _
  | ⟨1, _⟩ => exact (lhsW_1 _ _).trans hk

/-- At contraction position `k` the right operand is read at `(c, k)`. -/
theorem rhsIdxW (r : Fin 2048) (c : Fin 1024) (k : Fin 256) :
    dot_S2048x256_S1024x256_S2048x1024_1_1_0_0_n_n.rhsIdx (ix2 r c) ((contrEquiv1 dot_S2048x256_S1024x256_S2048x1024_1_1_0_0_n_n 256 rfl rfl).symm k) = ix2 c k := by
  have hk := contrEquiv1_symm_val dot_S2048x256_S1024x256_S2048x1024_1_1_0_0_n_n 256 rfl rfl k
  funext a
  refine Fin.ext ?_
  match a with
  | ⟨0, _⟩ => exact rhsW_0 _ _
  | ⟨1, _⟩ => exact (rhsW_1 _ _).trans hk

/-! ### `[2048, 16] · [16, 1024]` -/

/-- The left operand's row is the output's row. -/
theorem lhsB_0 (i : S2048x1024.Idx) (q : dot_S2048x16_S16x1024_S2048x1024_1_0_0_1_n_n.contr.Idx) :
    (dot_S2048x16_S16x1024_S2048x1024_1_0_0_1_n_n.lhsIdx i q 0).val = (i 0).val := by
  unfold DotDims.lhsIdx
  rw [dif_neg (show ¬(0 : Fin S2048x16.rank) ∈ dot_S2048x16_S16x1024_S2048x1024_1_0_0_1_n_n.lhsBatch by decide),
    dif_pos (show (0 : Fin S2048x16.rank) ∈ dot_S2048x16_S16x1024_S2048x1024_1_0_0_1_n_n.lhsNonContracting by decide)]
  rfl
/-- The left operand's column is the contraction position. -/
theorem lhsB_1 (i : S2048x1024.Idx) (q : dot_S2048x16_S16x1024_S2048x1024_1_0_0_1_n_n.contr.Idx) :
    (dot_S2048x16_S16x1024_S2048x1024_1_0_0_1_n_n.lhsIdx i q 1).val = (q ⟨0, by decide⟩).val :=
  dot_S2048x16_S16x1024_S2048x1024_1_0_0_1_n_n.lhsIdx_val_of_single rfl i q
/-- The right operand's coordinate on its contracted axis is the contraction position. -/
theorem rhsB_0 (i : S2048x1024.Idx) (q : dot_S2048x16_S16x1024_S2048x1024_1_0_0_1_n_n.contr.Idx) :
    (dot_S2048x16_S16x1024_S2048x1024_1_0_0_1_n_n.rhsIdx i q 0).val = (q ⟨0, by decide⟩).val :=
  dot_S2048x16_S16x1024_S2048x1024_1_0_0_1_n_n.rhsIdx_val_of_single rfl i q
/-- The right operand's coordinate on its free axis is the output's column. -/
theorem rhsB_1 (i : S2048x1024.Idx) (q : dot_S2048x16_S16x1024_S2048x1024_1_0_0_1_n_n.contr.Idx) :
    (dot_S2048x16_S16x1024_S2048x1024_1_0_0_1_n_n.rhsIdx i q 1).val = (i 1).val := by
  unfold DotDims.rhsIdx
  rw [dif_neg (show ¬(1 : Fin S16x1024.rank) ∈ dot_S2048x16_S16x1024_S2048x1024_1_0_0_1_n_n.rhsBatch by decide),
    dif_pos (show (1 : Fin S16x1024.rank) ∈ dot_S2048x16_S16x1024_S2048x1024_1_0_0_1_n_n.rhsNonContracting by decide)]
  rfl

/-- At contraction position `k` the left operand is read at row `r`, column `k`. -/
theorem lhsIdxB (r : Fin 2048) (c : Fin 1024) (k : Fin 16) :
    dot_S2048x16_S16x1024_S2048x1024_1_0_0_1_n_n.lhsIdx (ix2 r c) ((contrEquiv1 dot_S2048x16_S16x1024_S2048x1024_1_0_0_1_n_n 16 rfl rfl).symm k) = ix2 r k := by
  have hk := contrEquiv1_symm_val dot_S2048x16_S16x1024_S2048x1024_1_0_0_1_n_n 16 rfl rfl k
  funext a
  refine Fin.ext ?_
  match a with
  | ⟨0, _⟩ => exact lhsB_0 _ _
  | ⟨1, _⟩ => exact (lhsB_1 _ _).trans hk

/-- At contraction position `k` the right operand is read at `(k, c)`. -/
theorem rhsIdxB (r : Fin 2048) (c : Fin 1024) (k : Fin 16) :
    dot_S2048x16_S16x1024_S2048x1024_1_0_0_1_n_n.rhsIdx (ix2 r c) ((contrEquiv1 dot_S2048x16_S16x1024_S2048x1024_1_0_0_1_n_n 16 rfl rfl).symm k) = ix2 k c := by
  have hk := contrEquiv1_symm_val dot_S2048x16_S16x1024_S2048x1024_1_0_0_1_n_n 16 rfl rfl k
  funext a
  refine Fin.ext ?_
  match a with
  | ⟨0, _⟩ => exact (rhsB_0 _ _).trans hk
  | ⟨1, _⟩ => exact rhsB_1 _ _

/-! ## Kernel 0 -/

/-- The first store of kernel 0 writes zeros. -/
theorem pay0_1_apply (j : S2048x16.Idx) : k0_pay1 (F := Ideal) j = 0 := by
  unfold k0_pay1
  simp only [shapeCast_self]
  exact Ideal.ofBits_zero_f32

/-- The second store of kernel 0 writes the stored value plus the block's product. -/
theorem pay0_2_apply (v3 : Vec Ideal S2048x16 .f32) (v4 : Vec Ideal S2048x512 .bf16) (v6 : Vec Ideal S512x16 .bf16) (R : Fin 2048) (r : Fin 16) :
    k0_pay2 (F := Ideal) v3 v4 v6 (ix2 R r) = v3 (ix2 R r) + ∑ d : Fin 512, v4 (ix2 R d) * v6 (ix2 d r) := by
  unfold k0_pay2
  simp only [shapeCast_self]
  refine (addf_apply _ _ _).trans ?_
  refine congrArg (v3 (ix2 R r) + ·) ?_
  exact Cert.MatmulRead.matmul_zero_read dot_S2048x512_S512x16_S2048x16_1_0_0_1_n_n none 512 rfl rfl v4 v6 (ix2 R r)
    (fun k => ix2 R k) (fun k => ix2 k r) (lhsIdxA R r) (rhsIdxA R r)

/-! ## Kernel 1 -/

/-- The first store of kernel 1 writes zeros. -/
theorem pay1_1_apply (j : S2048x1024.Idx) : k1_pay1 (F := Ideal) j = 0 := by
  unfold k1_pay1
  simp only [shapeCast_self]
  exact Ideal.ofBits_zero_f32

/-- The second store of kernel 1 writes the stored value plus the block's product of x with the transposed weights. -/
theorem pay1_2_apply (v3 : Vec Ideal S2048x1024 .f32) (v4 : Vec Ideal S2048x256 .bf16) (v6 : Vec Ideal S1024x256 .bf16) (R : Fin 2048) (o : Fin 1024) :
    k1_pay2 (F := Ideal) v3 v4 v6 (ix2 R o) = v3 (ix2 R o) + ∑ d : Fin 256, v4 (ix2 R d) * v6 (ix2 o d) := by
  unfold k1_pay2
  simp only [shapeCast_self]
  refine (addf_apply _ _ _).trans ?_
  refine congrArg (v3 (ix2 R o) + ·) ?_
  exact Cert.MatmulRead.matmul_zero_read dot_S2048x256_S1024x256_S2048x1024_1_1_0_0_n_n none 256 rfl rfl v4 v6 (ix2 R o)
    (fun k => ix2 R k) (fun k => ix2 o k) (lhsIdxW R o) (rhsIdxW R o)

/-- The third store of kernel 1 writes the stored value plus twice the product of the low-rank factors. -/
theorem pay1_3_apply (v16 : Vec Ideal S2048x16 .f32) (v19 : Vec Ideal S16x1024 .bf16) (v22 : Vec Ideal S2048x1024 .f32) (R : Fin 2048) (o : Fin 1024) :
    k1_pay3 (F := Ideal) v16 v19 v22 (ix2 R o) = v22 (ix2 R o) + Cert.Spec.two * ∑ r : Fin 16, v16 (ix2 R r) * v19 (ix2 r o) := by
  unfold k1_pay3
  simp only [shapeCast_self]
  refine (addf_apply _ _ _).trans ?_
  refine congrArg (v22 (ix2 R o) + ·) ?_
  refine (mulf_apply _ _ _).trans ?_
  refine congrArg (Cert.Spec.two * ·) ?_
  exact Cert.MatmulRead.matmul_zero_read dot_S2048x16_S16x1024_S2048x1024_1_0_0_1_n_n none 16 rfl rfl _ v19 (ix2 R o)
    (fun k => ix2 R k) (fun k => ix2 k o) (lhsIdxB R o) (rhsIdxB R o)

/-- The last store of kernel 1 adds the bias row. -/
theorem pay1_4_apply (v29 : Vec Ideal S2048x1024 .f32) (v30 : Vec Ideal S1x1024 .f32) (R : Fin 2048) (o : Fin 1024) :
    k1_pay4 (F := Ideal) v29 v30 (ix2 R o) = v29 (ix2 R o) + v30 (ix2 (0 : Fin 1) o) := by
  unfold k1_pay4
  simp only [shapeCast_self]
  refine (addf_apply _ _ _).trans ?_
  refine congrArg (v29 (ix2 R o) + ·) ?_
  exact broadcastTo_apply v30 broadcasts_S1x1024_S2048x1024 (ix2 R o) (ix2 (0 : Fin 1) o) (fun a => match a with
    | ⟨0, _⟩ => by show 0 = if (1 : Nat) = 1 then 0 else _; rw [if_pos rfl]
    | ⟨1, _⟩ => by show o.val = if (1024 : Nat) = 1 then 0 else o.val; rw [if_neg (by decide)])

end Cert.KernelIdeal.PayValue

end
-- ==== Proof.KernelIdeal.Value0.lean ====
/-
  The value kernel 0 leaves. At grid position n (row block n / 8, contracted-axis block n % 8) the scratch holds, at
  local row Rl and column r, the running sum of row (n / 8) · 2048 + Rl of x2 against column r of A after block n % 8:
  zero plus the first block's product at n % 8 = 0, the sum before plus this block's product otherwise. At n % 8 = 7 the
  scratch is copied to the output block, which is written back to rows (n / 8) · 2048 … of xa; the eight row blocks
  tile xa.
-/
import proofs.«143101_j18683107738116_2_alg».proof.Proof.KernelIdeal.Pieces0
import proofs.«143101_j18683107738116_2_alg».proof.Proof.Payloads
import proofs.«143101_j18683107738116_2_alg».proof.Proof.Spec
import Idealize.ShloMosaic.Lib.Pipeline.Value
import Idealize.ShloMosaic.Lib.ValueIdx

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.PayValue Cert.Spec

section
variable (V : (c : Dev nD) → (b : Ref sig .tc) → Buf (Elt Ideal) ((c : Thread nD τ).loc b))

/-- The block index maps of kernel 0 at grid position t (row block t / 8, contracted-axis block t % 8). -/
theorem idx0 : ∀ t : Fin cfg0.N, win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = t.val / 8 ∧ win0_2.index t (1 : Fin 2) = 0 :=
  (by decide +kernel : ∀ t : Fin grid0.N, _)

/-- The row of x2 that local row `Rl` of the block at position `n` is. -/
abbrev row0 (n : ℕ) (Rl : Fin 2048) : Fin 16384 := ⟨(n / 8 * 2048 + Rl.val) % 16384, Nat.mod_lt _ (by decide)⟩

theorem iblk0_0_apply (c : Dev nD) (t : Fin cfg0.N) (Rl : Fin 2048) (d : Fin 512) :
    iblk0 V c 0 t (ix2 Rl d) = V c main_v2 (ix2 (row0 t.val Rl) (col (t.val % 8 * 512 + d.val))) := by
  have ht : t.val < 64 := lt_of_lt_of_eq t.isLt (show cfg0.N = 64 from N_0)
  obtain ⟨e0, e1, -, -, -, -⟩ := idx0 t
  unfold iblk0
  rw [View.read_apply]
  show V c main_v2 _ = V c main_v2 _
  refine congrArg (V c main_v2) ?_
  funext a; apply Fin.ext
  match a with
  | ⟨0, _⟩ => show win0_0.index t (0 : Fin 2) * 2048 + 1 * Rl.val = (t.val / 8 * 2048 + Rl.val) % 16384; have := Rl.isLt; omega
  | ⟨1, _⟩ => show win0_0.index t (1 : Fin 2) * 512 + 1 * d.val = (t.val % 8 * 512 + d.val) % 4096; have := d.isLt; omega

theorem iblk0_1_apply (c : Dev nD) (t : Fin cfg0.N) (d : Fin 512) (r : Fin 16) :
    iblk0 V c 1 t (ix2 d r) = V c main_v4 (ix2 (col (t.val % 8 * 512 + d.val)) r) := by
  have ht : t.val < 64 := lt_of_lt_of_eq t.isLt (show cfg0.N = 64 from N_0)
  obtain ⟨-, -, e0, e1, -, -⟩ := idx0 t
  unfold iblk0
  rw [View.read_apply]
  show V c main_v4 _ = V c main_v4 _
  refine congrArg (V c main_v4) ?_
  funext a; apply Fin.ext
  match a with
  | ⟨0, _⟩ => show win0_1.index t (0 : Fin 2) * 512 + 1 * d.val = (t.val % 8 * 512 + d.val) % 4096; have := d.isLt; omega
  | ⟨1, _⟩ => show win0_1.index t (1 : Fin 2) * 16 + 1 * r.val = r.val; omega

variable (X : (⟨3, ![4, 4096, 4096]⟩ : Shape).Idx → EReal) (A : (⟨2, ![4096, 16]⟩ : Shape).Idx → EReal)

/-- This point's product at a local index is the specification's block sum. -/
theorem blkpt0 (c : Dev nD) (hx : ∀ (R : Fin 16384) (D : Fin 4096), V c main_v2 (ix2 R D) = xrow X R D)
    (ha : ∀ (D : Fin 4096) (r : Fin 16), V c main_v4 (ix2 D r) = A (ix2 D r))
    (t : Fin cfg0.N) (Rl : Fin 2048) (r : Fin 16) (x0 : Vec Ideal S2048x512 .bf16) (x1 : Vec Ideal S512x16 .bf16)
    (h0 : x0 = iblk0 V c 0 t) (h1 : x1 = iblk0 V c 1 t) :
    (∑ d : Fin 512, x0 (ix2 Rl d) * x1 (ix2 d r)) = blk0 X A (row0 t.val Rl) r (t.val % 8) := by
  subst h0 h1
  unfold blk0
  refine Finset.sum_congr rfl fun d _ => ?_
  rw [iblk0_0_apply, iblk0_1_apply, hx, ha]

/-- THE RUNNING SUM: after position n the scratch holds, at local row Rl and column r, the specification's running sum
    of row (n / 8) · 2048 + Rl after block n % 8. -/
theorem sc0_eq (c : Dev nD) (hx : ∀ (R : Fin 16384) (D : Fin 4096), V c main_v2 (ix2 R D) = xrow X R D)
    (ha : ∀ (D : Fin 4096) (r : Fin 16), V c main_v4 (ix2 D r) = A (ix2 D r)) :
    ∀ (n : ℕ) (hn : n < cfg0.N) (Rl : Fin 2048) (r : Fin 16),
      ((outsAt0 V c n hn).2 : Vec Ideal S2048x16 .f32) (ix2 Rl r) = acc0 X A (row0 n Rl) r (n % 8)
  | 0, hn, Rl, r => by
    rw [outsAt0_A V c ⟨0, hn⟩ rfl (by dsimp only; omega)]
    dsimp only
    rw [sout0_A_eq, pay0_2_apply, pay0_1_apply, blkpt0 V X A c hx ha ⟨0, hn⟩ Rl r _ _ rfl rfl]
    rfl
  | n + 1, hn, Rl, r => by
    have hN : n + 1 < 64 := lt_of_lt_of_eq hn (show cfg0.N = 64 from N_0)
    by_cases h0 : (n + 1) % 8 = 0
    · rw [outsAt0_A V c ⟨n + 1, hn⟩ h0 (by dsimp only; omega)]
      dsimp only
      rw [sout0_A_eq, pay0_2_apply, pay0_1_apply, blkpt0 V X A c hx ha ⟨n + 1, hn⟩ Rl r _ _ rfl rfl]
      dsimp only
      rw [h0]
      rfl
    · have hrow : row0 (n + 1) Rl = row0 n Rl := Fin.ext (by show (_ : ℕ) % 16384 = _ % 16384; have := Rl.isLt; omega)
      have hk : (n + 1) % 8 = n % 8 + 1 := by omega
      by_cases h1 : (n + 1) % 8 = 7
      · rw [outsAt0_C V c ⟨n + 1, hn⟩ h0 h1]
        dsimp only
        rw [sout0_C_eq, pay0_2_apply, blkpt0 V X A c hx ha ⟨n + 1, hn⟩ Rl r _ _ rfl rfl]
        dsimp only
        show ((outsAt0 V c n (Nat.lt_of_succ_lt hn)).2 : Vec Ideal S2048x16 .f32) (ix2 Rl r) + _ = _
        rw [sc0_eq c hx ha n (Nat.lt_of_succ_lt hn) Rl r, hrow, hk]
        rfl
      · rw [outsAt0_B V c ⟨n + 1, hn⟩ h0 h1]
        dsimp only
        rw [sout0_B_eq, pay0_2_apply, blkpt0 V X A c hx ha ⟨n + 1, hn⟩ Rl r _ _ rfl rfl]
        dsimp only
        show ((outsAt0 V c n (Nat.lt_of_succ_lt hn)).2 : Vec Ideal S2048x16 .f32) (ix2 Rl r) + _ = _
        rw [sc0_eq c hx ha n (Nat.lt_of_succ_lt hn) Rl r, hrow, hk]
        rfl

/-- xa as kernel 0 leaves it, as contents of its result array. -/
abbrev XA : (⟨2, ![16384, 16]⟩ : Shape).Idx → EReal := fun j => xaK X A (j 0) (j 1)

/-- What a point at the last block writes back is its block of xa. -/
theorem flushed0_eq (c : Dev nD) (hx : ∀ (R : Fin 16384) (D : Fin 4096), V c main_v2 (ix2 R D) = xrow X R D)
    (ha : ∀ (D : Fin 4096) (r : Fin 16), V c main_v4 (ix2 D r) = A (ix2 D r))
    (t : Fin cfg0.N) (hf : (cfg0.win 2).flush t = true) :
    (dat0 V c).flushed 2 t = ((cfg0.win 2).blk t).view.read (Elt Ideal) (XA X A) := by
  have ht : t.val < 64 := lt_of_lt_of_eq t.isLt (show cfg0.N = 64 from N_0)
  have h7 : t.val % 8 = 7 := (flush0_2 t).mp hf
  obtain ⟨-, -, -, -, e0, e1⟩ := idx0 t
  show (cfg0.win 2).cut (grid0.coords t) ((dat0 V c).after 2 t) = _
  rw [after0_2, outsAt0_C V c t (by omega) h7]
  dsimp only
  rw [out0_C_eq, ← sout0_C_eq c (grid0.coords t) (ms0_0 t) (hs0_0 t) (ms0_1 t) (hs0_1 t) (ms0_2 t) (hs0_2 t) scM0 (Memref.isWhole_whole _)
    (fun h => (by omega : ¬t.val % 8 = 0) ((hcond0_0 t).mp h)) ((hcond0_1 t).mpr h7)]
  funext j
  obtain ⟨Rl, r, rfl⟩ : ∃ (Rl : Fin 2048) (r : Fin 16), j = ix2 Rl r := ⟨j 0, j 1, eq_ix2 j⟩
  have hs := sc0_eq V X A c hx ha t.val t.isLt Rl r
  rw [outsAt0_C V c t (by omega) h7] at hs
  dsimp only at hs
  refine hs.trans ?_
  rw [View.read_apply, h7]
  show xaK X A (row0 t.val Rl) r = xaK X A _ _
  refine congrArg₂ (xaK X A) (Fin.ext ?_) (Fin.ext ?_)
  · show (t.val / 8 * 2048 + Rl.val) % 16384 = win0_2.index t (0 : Fin 2) * 2048 + 1 * Rl.val; have := Rl.isLt; omega
  · show r.val = win0_2.index t (1 : Fin 2) * 16 + 1 * r.val; omega

theorem mem_blk0 (t : Fin cfg0.N) (i : S16384x16.Idx) :
    i ∈ ((cfg0.win 2).blk t).view.set ↔ ∀ a : Fin 2, win0_2.index t a * S2048x16.size a ≤ (i a).val ∧ (i a).val < win0_2.index t a * S2048x16.size a + S2048x16.size a := by
  show i ∈ ((View.whole main_v6).slice (win0_2.rect t)).set ↔ _
  rw [View.set_slice_whole, Rect.mem_set_unit]
  exact Iff.rfl

/-- THE ARRAY xa after kernel 0: every row block's last point writes its block. -/
theorem final0 (c : Dev nD) (hx : ∀ (R : Fin 16384) (D : Fin 4096), V c main_v2 (ix2 R D) = xrow X R D)
    (ha : ∀ (D : Fin 4096) (r : Fin 16), V c main_v4 (ix2 D r) = A (ix2 D r)) :
    (dat0 V c).arrAt 2 cfg0.N = XA X A :=
  (dat0 V c).arrAt_eq_of_cover 2 (XA X A) (flushed0_eq V X A c hx ha) fun i => by
    have hi0 : (i 0).val < 16384 := (i 0).isLt
    have hi1 : (i 1).val < 16 := (i 1).isLt
    have hlt : (i 0).val / 2048 * 8 + 7 < cfg0.N := by rw [show cfg0.N = 64 from N_0]; omega
    refine ⟨⟨(i 0).val / 2048 * 8 + 7, hlt⟩, (flush0_2 _).mpr (by show ((i 0).val / 2048 * 8 + 7) % 8 = 7; omega), ?_⟩
    rw [mem_blk0]
    obtain ⟨-, -, -, -, e0, e1⟩ := idx0 ⟨(i 0).val / 2048 * 8 + 7, hlt⟩
    intro a
    match a with
    | ⟨0, _⟩ => show win0_2.index _ (0 : Fin 2) * 2048 ≤ (i 0).val ∧ (i 0).val < win0_2.index _ (0 : Fin 2) * 2048 + 2048; rw [e0]; dsimp only; omega
    | ⟨1, _⟩ => show win0_2.index _ (1 : Fin 2) * 16 ≤ (i 1).val ∧ (i 1).val < win0_2.index _ (1 : Fin 2) * 16 + 16; rw [e1]; omega

end

end Cert.KernelIdeal.Hand

end
-- ==== Proof.KernelIdeal.Run1A.lean ====
/-
  Kernel 1's body run once in case A of its two conditions (the contracted-axis coordinate is 0: zero the scratch, then add this point's product).
-/
import proofs.«143101_j18683107738116_2_alg».proof.Proof.KernelIdeal.Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 1000000 in
/-- The body of kernel 1 run in case A on whole staging memrefs: the input blocks at their contents, the output block left as found, the scratch at anything. It ends with the inputs as they were,
    the scratch with the listed pieces written; the pieces are what the run finds. -/
noncomputable def kernelRun1_A (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x16 .f32) (harg6 : arg6.IsWhole) (arg7 : Memref sig .tc .vmem S16x1024 .bf16) (harg7 : arg7.IsWhole) (arg8 : Memref sig .tc .vmem S2048x1024 .f32) (harg8 : arg8.IsWhole) (arg9 : Memref sig .tc .vmem S2048x1024 .f32) (harg9 : arg9.IsWhole) (hc0 : cond1_0 i) (hc1 : ¬cond1_1 i)
    (x0 : Vec F S2048x256 .bf16) (x1 : Vec F S1024x256 .bf16) (x2 : Vec F S1x1024 .f32) (x3 : Vec F S2048x16 .f32) (x4 : Vec F S16x1024 .bf16) :
    Σ' (LO : List (View.Piece (Elt F) S2048x1024 .f32)), { LS : List (View.Piece (Elt F) S2048x1024 .f32) //
      ∀ (xi : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi ∗ (∃ f, arg9.view.loc (c : Thread nD τ) ↦[arg9.view.set]{fullShare} arg9.view.writes (Elt F) f LS)) -∗ K ⟨⟩))
          ⊢ wp frame (wpE (defs₀ (F := F)) Variants.none c none) E (cc1__lora_linear_kernel i arg3 harg3 arg4 harg4 arg5 harg5 arg6 harg6 arg7 harg7 arg8 harg8 arg9 harg9) K } := by
  refine ⟨[], ?_, fun xi E K => ?run⟩
  case run =>
    simp only [cc1__lora_linear_kernel_eq_skeleton]; unfold cc1__lora_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%fO, %hfO, HO⟩, ⟨%dS, %fS, -, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfO
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HO]
    · iexists _; isplitr; · ipureintro; exact harg8.read_unread _
      iexact HO
    iexists _; iexact HS

end Cert.KernelIdeal.Hand

end
-- ==== Proof.KernelIdeal.Run1B.lean ====
/-
  Kernel 1's body run once in case B of its two conditions (a middle coordinate: add this point's product to the scratch).
-/
import proofs.«143101_j18683107738116_2_alg».proof.Proof.KernelIdeal.Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 1000000 in
/-- The body of kernel 1 run in case B on whole staging memrefs: the input blocks at their contents, the output block left as found, the scratch at what the point before left. It ends with the inputs as they were,
    the scratch with the listed pieces written; the pieces are what the run finds. -/
noncomputable def kernelRun1_B (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x16 .f32) (harg6 : arg6.IsWhole) (arg7 : Memref sig .tc .vmem S16x1024 .bf16) (harg7 : arg7.IsWhole) (arg8 : Memref sig .tc .vmem S2048x1024 .f32) (harg8 : arg8.IsWhole) (arg9 : Memref sig .tc .vmem S2048x1024 .f32) (harg9 : arg9.IsWhole) (hc0 : ¬cond1_0 i) (hc1 : ¬cond1_1 i)
    (x0 : Vec F S2048x256 .bf16) (x1 : Vec F S1024x256 .bf16) (x2 : Vec F S1x1024 .f32) (x3 : Vec F S2048x16 .f32) (x4 : Vec F S16x1024 .bf16) (xs0 : Vec F S2048x1024 .f32) :
    Σ' (LO : List (View.Piece (Elt F) S2048x1024 .f32)), { LS : List (View.Piece (Elt F) S2048x1024 .f32) //
      ∀ (xi : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi ∗ (∃ f, arg9.view.loc (c : Thread nD τ) ↦[arg9.view.set]{fullShare} arg9.view.writes (Elt F) f LS)) -∗ K ⟨⟩))
          ⊢ wp frame (wpE (defs₀ (F := F)) Variants.none c none) E (cc1__lora_linear_kernel i arg3 harg3 arg4 harg4 arg5 harg5 arg6 harg6 arg7 harg7 arg8 harg8 arg9 harg9) K } := by
  refine ⟨[], ?_, fun xi E K => ?run⟩
  case run =>
    simp only [cc1__lora_linear_kernel_eq_skeleton]; unfold cc1__lora_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%fO, %hfO, HO⟩, ⟨%fS, %hfS, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfO; obtain rfl := harg9.eq_unread hfS
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HO]
    · iexists _; isplitr; · ipureintro; exact harg8.read_unread _
      iexact HO
    iexists _; iexact HS

end Cert.KernelIdeal.Hand

end
-- ==== Proof.KernelIdeal.Run1C.lean ====
/-
  Kernel 1's body run once in case C of its two conditions (the last coordinate: add this point's product, then twice the low-rank product, then store scratch plus bias into the output block).
-/
import proofs.«143101_j18683107738116_2_alg».proof.Proof.KernelIdeal.Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 1000000 in
/-- The body of kernel 1 run in case C on whole staging memrefs: the input blocks at their contents, the output block at anything, the scratch at what the point before left. It ends with the inputs as they were,
    the scratch with the listed pieces written and the output block with its pieces written; the pieces are what the run finds. -/
noncomputable def kernelRun1_C (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x16 .f32) (harg6 : arg6.IsWhole) (arg7 : Memref sig .tc .vmem S16x1024 .bf16) (harg7 : arg7.IsWhole) (arg8 : Memref sig .tc .vmem S2048x1024 .f32) (harg8 : arg8.IsWhole) (arg9 : Memref sig .tc .vmem S2048x1024 .f32) (harg9 : arg9.IsWhole) (hc0 : ¬cond1_0 i) (hc1 : cond1_1 i)
    (x0 : Vec F S2048x256 .bf16) (x1 : Vec F S1024x256 .bf16) (x2 : Vec F S1x1024 .f32) (x3 : Vec F S2048x16 .f32) (x4 : Vec F S16x1024 .bf16) (xs0 : Vec F S2048x1024 .f32) :
    Σ' (LO : List (View.Piece (Elt F) S2048x1024 .f32)), { LS : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f LO) ∗ (∃ f, arg9.view.loc (c : Thread nD τ) ↦[arg9.view.set]{fullShare} arg9.view.writes (Elt F) f LS)) -∗ K ⟨⟩))
          ⊢ wp frame (wpE (defs₀ (F := F)) Variants.none c none) E (cc1__lora_linear_kernel i arg3 harg3 arg4 harg4 arg5 harg5 arg6 harg6 arg7 harg7 arg8 harg8 arg9 harg9) K } := by
  refine ⟨?_, ?_, fun E K => ?run⟩
  case run =>
    simp only [cc1__lora_linear_kernel_eq_skeleton]; unfold cc1__lora_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%dO, %fO, -, HO⟩, ⟨%fS, %hfS, HS⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfS
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HO]; · iexists _; iexact HO
    iexists _; iexact HS

end Cert.KernelIdeal.Hand

end
-- ==== Proof.KernelIdeal.Frame1.lean ====
/-
  Kernel 1 point by point. The scratch after position n is what the case of position n leaves, computed from the
  point's input blocks and from the scratch after position n - 1; the output block's buffer is stored only at the last
  coordinate of the contracted axis, where it is then written back. This module states those contents, the pipeline's
  proof data over them, and proves the body's obligation at every point from the three cases' runs.
-/
import proofs.«143101_j18683107738116_2_alg».proof.Proof.KernelIdeal.Run1A
import proofs.«143101_j18683107738116_2_alg».proof.Proof.KernelIdeal.Run1B
import proofs.«143101_j18683107738116_2_alg».proof.Proof.KernelIdeal.Run1C

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section Regions
variable (V : (c : Dev nD) → (b : Ref sig .tc) → Buf (Elt F) ((c : Thread nD τ).loc b))

/-- What case A leaves in the output block's staging buffer: its pieces read back (none: the buffer is not touched, and this value is never consulted). -/
def out1_A (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x16 .f32) (harg6 : arg6.IsWhole) (arg7 : Memref sig .tc .vmem S16x1024 .bf16) (harg7 : arg7.IsWhole) (arg8 : Memref sig .tc .vmem S2048x1024 .f32) (harg8 : arg8.IsWhole) (arg9 : Memref sig .tc .vmem S2048x1024 .f32) (harg9 : arg9.IsWhole) (hc0 : cond1_0 i) (hc1 : ¬cond1_1 i)
    (x0 : Vec F S2048x256 .bf16) (x1 : Vec F S1024x256 .bf16) (x2 : Vec F S1x1024 .f32) (x3 : Vec F S2048x16 .f32) (x4 : Vec F S16x1024 .bf16) : Vec F S2048x1024 .f32 :=
  VO1_5.read (Elt F) (VO1_5.writes (Elt F) VO1_5.junk (kernelRun1_A c i arg3 harg3 arg4 harg4 arg5 harg5 arg6 harg6 arg7 harg7 arg8 harg8 arg9 harg9 hc0 hc1 x0 x1 x2 x3 x4).1)

/-- Case A's stores into the scratch cover it. -/
theorem scover1_A (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x16 .f32) (harg6 : arg6.IsWhole) (arg7 : Memref sig .tc .vmem S16x1024 .bf16) (harg7 : arg7.IsWhole) (arg8 : Memref sig .tc .vmem S2048x1024 .f32) (harg8 : arg8.IsWhole) (arg9 : Memref sig .tc .vmem S2048x1024 .f32) (harg9 : arg9.IsWhole) (hc0 : cond1_0 i) (hc1 : ¬cond1_1 i)
    (x0 : Vec F S2048x256 .bf16) (x1 : Vec F S1024x256 .bf16) (x2 : Vec F S1x1024 .f32) (x3 : Vec F S2048x16 .f32) (x4 : Vec F S16x1024 .bf16) (y : S2048x1024.Idx) :
    ∃ pc ∈ (kernelRun1_A c i arg3 harg3 arg4 harg4 arg5 harg5 arg6 harg6 arg7 harg7 arg8 harg8 arg9 harg9 hc0 hc1 x0 x1 x2 x3 x4).2.1, y ∈ pc.1.set :=
  View.cover_of_tiledL (kernelRun1_A c i arg3 harg3 arg4 harg4 arg5 harg5 arg6 harg6 arg7 harg7 arg8 harg8 arg9 harg9 hc0 hc1 x0 x1 x2 x3 x4).2.1 S2048x1024.size (by sl_kernel_rfl) y

/-- What case A leaves in the scratch: its pieces read back. -/
def sout1_A (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x16 .f32) (harg6 : arg6.IsWhole) (arg7 : Memref sig .tc .vmem S16x1024 .bf16) (harg7 : arg7.IsWhole) (arg8 : Memref sig .tc .vmem S2048x1024 .f32) (harg8 : arg8.IsWhole) (arg9 : Memref sig .tc .vmem S2048x1024 .f32) (harg9 : arg9.IsWhole) (hc0 : cond1_0 i) (hc1 : ¬cond1_1 i)
    (x0 : Vec F S2048x256 .bf16) (x1 : Vec F S1024x256 .bf16) (x2 : Vec F S1x1024 .f32) (x3 : Vec F S2048x16 .f32) (x4 : Vec F S16x1024 .bf16) : Vec F S2048x1024 .f32 :=
  VS1.read (Elt F) (VS1.writes (Elt F) VS1.junk (kernelRun1_A c i arg3 harg3 arg4 harg4 arg5 harg5 arg6 harg6 arg7 harg7 arg8 harg8 arg9 harg9 hc0 hc1 x0 x1 x2 x3 x4).2.1)

/-- What case B leaves in the output block's staging buffer: its pieces read back (none: the buffer is not touched, and this value is never consulted). -/
def out1_B (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x16 .f32) (harg6 : arg6.IsWhole) (arg7 : Memref sig .tc .vmem S16x1024 .bf16) (harg7 : arg7.IsWhole) (arg8 : Memref sig .tc .vmem S2048x1024 .f32) (harg8 : arg8.IsWhole) (arg9 : Memref sig .tc .vmem S2048x1024 .f32) (harg9 : arg9.IsWhole) (hc0 : ¬cond1_0 i) (hc1 : ¬cond1_1 i)
    (x0 : Vec F S2048x256 .bf16) (x1 : Vec F S1024x256 .bf16) (x2 : Vec F S1x1024 .f32) (x3 : Vec F S2048x16 .f32) (x4 : Vec F S16x1024 .bf16) (xs0 : Vec F S2048x1024 .f32) : Vec F S2048x1024 .f32 :=
  VO1_5.read (Elt F) (VO1_5.writes (Elt F) VO1_5.junk (kernelRun1_B c i arg3 harg3 arg4 harg4 arg5 harg5 arg6 harg6 arg7 harg7 arg8 harg8 arg9 harg9 hc0 hc1 x0 x1 x2 x3 x4 xs0).1)

/-- Case B's stores into the scratch cover it. -/
theorem scover1_B (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x16 .f32) (harg6 : arg6.IsWhole) (arg7 : Memref sig .tc .vmem S16x1024 .bf16) (harg7 : arg7.IsWhole) (arg8 : Memref sig .tc .vmem S2048x1024 .f32) (harg8 : arg8.IsWhole) (arg9 : Memref sig .tc .vmem S2048x1024 .f32) (harg9 : arg9.IsWhole) (hc0 : ¬cond1_0 i) (hc1 : ¬cond1_1 i)
    (x0 : Vec F S2048x256 .bf16) (x1 : Vec F S1024x256 .bf16) (x2 : Vec F S1x1024 .f32) (x3 : Vec F S2048x16 .f32) (x4 : Vec F S16x1024 .bf16) (xs0 : Vec F S2048x1024 .f32) (y : S2048x1024.Idx) :
    ∃ pc ∈ (kernelRun1_B c i arg3 harg3 arg4 harg4 arg5 harg5 arg6 harg6 arg7 harg7 arg8 harg8 arg9 harg9 hc0 hc1 x0 x1 x2 x3 x4 xs0).2.1, y ∈ pc.1.set :=
  View.cover_of_tiledL (kernelRun1_B c i arg3 harg3 arg4 harg4 arg5 harg5 arg6 harg6 arg7 harg7 arg8 harg8 arg9 harg9 hc0 hc1 x0 x1 x2 x3 x4 xs0).2.1 S2048x1024.size (by sl_kernel_rfl) y

/-- What case B leaves in the scratch: its pieces read back. -/
def sout1_B (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x16 .f32) (harg6 : arg6.IsWhole) (arg7 : Memref sig .tc .vmem S16x1024 .bf16) (harg7 : arg7.IsWhole) (arg8 : Memref sig .tc .vmem S2048x1024 .f32) (harg8 : arg8.IsWhole) (arg9 : Memref sig .tc .vmem S2048x1024 .f32) (harg9 : arg9.IsWhole) (hc0 : ¬cond1_0 i) (hc1 : ¬cond1_1 i)
    (x0 : Vec F S2048x256 .bf16) (x1 : Vec F S1024x256 .bf16) (x2 : Vec F S1x1024 .f32) (x3 : Vec F S2048x16 .f32) (x4 : Vec F S16x1024 .bf16) (xs0 : Vec F S2048x1024 .f32) : Vec F S2048x1024 .f32 :=
  VS1.read (Elt F) (VS1.writes (Elt F) VS1.junk (kernelRun1_B c i arg3 harg3 arg4 harg4 arg5 harg5 arg6 harg6 arg7 harg7 arg8 harg8 arg9 harg9 hc0 hc1 x0 x1 x2 x3 x4 xs0).2.1)

/-- Case C's one store into the output block covers it. -/
theorem cover1_C (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x16 .f32) (harg6 : arg6.IsWhole) (arg7 : Memref sig .tc .vmem S16x1024 .bf16) (harg7 : arg7.IsWhole) (arg8 : Memref sig .tc .vmem S2048x1024 .f32) (harg8 : arg8.IsWhole) (arg9 : Memref sig .tc .vmem S2048x1024 .f32) (harg9 : arg9.IsWhole) (hc0 : ¬cond1_0 i) (hc1 : cond1_1 i)
    (x0 : Vec F S2048x256 .bf16) (x1 : Vec F S1024x256 .bf16) (x2 : Vec F S1x1024 .f32) (x3 : Vec F S2048x16 .f32) (x4 : Vec F S16x1024 .bf16) (xs0 : Vec F S2048x1024 .f32) (y : S2048x1024.Idx) :
    ∃ pc ∈ (kernelRun1_C c i arg3 harg3 arg4 harg4 arg5 harg5 arg6 harg6 arg7 harg7 arg8 harg8 arg9 harg9 hc0 hc1 x0 x1 x2 x3 x4 xs0).1, y ∈ pc.1.set :=
  View.cover_of_tiledL (kernelRun1_C c i arg3 harg3 arg4 harg4 arg5 harg5 arg6 harg6 arg7 harg7 arg8 harg8 arg9 harg9 hc0 hc1 x0 x1 x2 x3 x4 xs0).1 S2048x1024.size (by sl_kernel_rfl) y

/-- What case C leaves in the output block's staging buffer: its pieces read back. -/
def out1_C (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x16 .f32) (harg6 : arg6.IsWhole) (arg7 : Memref sig .tc .vmem S16x1024 .bf16) (harg7 : arg7.IsWhole) (arg8 : Memref sig .tc .vmem S2048x1024 .f32) (harg8 : arg8.IsWhole) (arg9 : Memref sig .tc .vmem S2048x1024 .f32) (harg9 : arg9.IsWhole) (hc0 : ¬cond1_0 i) (hc1 : cond1_1 i)
    (x0 : Vec F S2048x256 .bf16) (x1 : Vec F S1024x256 .bf16) (x2 : Vec F S1x1024 .f32) (x3 : Vec F S2048x16 .f32) (x4 : Vec F S16x1024 .bf16) (xs0 : Vec F S2048x1024 .f32) : Vec F S2048x1024 .f32 :=
  VO1_5.read (Elt F) (VO1_5.writes (Elt F) VO1_5.junk (kernelRun1_C c i arg3 harg3 arg4 harg4 arg5 harg5 arg6 harg6 arg7 harg7 arg8 harg8 arg9 harg9 hc0 hc1 x0 x1 x2 x3 x4 xs0).1)

/-- Case C's stores into the scratch cover it. -/
theorem scover1_C (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x16 .f32) (harg6 : arg6.IsWhole) (arg7 : Memref sig .tc .vmem S16x1024 .bf16) (harg7 : arg7.IsWhole) (arg8 : Memref sig .tc .vmem S2048x1024 .f32) (harg8 : arg8.IsWhole) (arg9 : Memref sig .tc .vmem S2048x1024 .f32) (harg9 : arg9.IsWhole) (hc0 : ¬cond1_0 i) (hc1 : cond1_1 i)
    (x0 : Vec F S2048x256 .bf16) (x1 : Vec F S1024x256 .bf16) (x2 : Vec F S1x1024 .f32) (x3 : Vec F S2048x16 .f32) (x4 : Vec F S16x1024 .bf16) (xs0 : Vec F S2048x1024 .f32) (y : S2048x1024.Idx) :
    ∃ pc ∈ (kernelRun1_C c i arg3 harg3 arg4 harg4 arg5 harg5 arg6 harg6 arg7 harg7 arg8 harg8 arg9 harg9 hc0 hc1 x0 x1 x2 x3 x4 xs0).2.1, y ∈ pc.1.set :=
  View.cover_of_tiledL (kernelRun1_C c i arg3 harg3 arg4 harg4 arg5 harg5 arg6 harg6 arg7 harg7 arg8 harg8 arg9 harg9 hc0 hc1 x0 x1 x2 x3 x4 xs0).2.1 S2048x1024.size (by sl_kernel_rfl) y

/-- What case C leaves in the scratch: its pieces read back. -/
def sout1_C (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x16 .f32) (harg6 : arg6.IsWhole) (arg7 : Memref sig .tc .vmem S16x1024 .bf16) (harg7 : arg7.IsWhole) (arg8 : Memref sig .tc .vmem S2048x1024 .f32) (harg8 : arg8.IsWhole) (arg9 : Memref sig .tc .vmem S2048x1024 .f32) (harg9 : arg9.IsWhole) (hc0 : ¬cond1_0 i) (hc1 : cond1_1 i)
    (x0 : Vec F S2048x256 .bf16) (x1 : Vec F S1024x256 .bf16) (x2 : Vec F S1x1024 .f32) (x3 : Vec F S2048x16 .f32) (x4 : Vec F S16x1024 .bf16) (xs0 : Vec F S2048x1024 .f32) : Vec F S2048x1024 .f32 :=
  VS1.read (Elt F) (VS1.writes (Elt F) VS1.junk (kernelRun1_C c i arg3 harg3 arg4 harg4 arg5 harg5 arg6 harg6 arg7 harg7 arg8 harg8 arg9 harg9 hc0 hc1 x0 x1 x2 x3 x4 xs0).2.1)

/-! ## Point by point -/

/-- What the output block's staging buffer and the scratch hold after the body at grid position `n`: the case the
    position is in, run on the point's input blocks, the scratch taken from what position `n - 1` left. -/
def outsAt1 (c : Dev nD) : (n : ℕ) → n < cfg1.N → Vec F S2048x1024 .f32 × Vec F S2048x1024 .f32
  | 0, hn => (out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 16 = 0 then
      if h1 : (n + 1) % 16 = 15 then
        False.elim (by omega)
      else
        (out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 16 = 15 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

theorem outsAt1_A (c : Dev nD) (t : Fin cfg1.N) (h0 : t.val % 16 = 0) (h1 : ¬t.val % 16 = 15) :
    outsAt1 V c t.val t.isLt = (out1_A c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : ¬t.val % 16 = 15) :
    outsAt1 V c t.val t.isLt = (out1_B c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (out1_C c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the scratch holds anything; afterwards it holds
    what the point before left. Beside it, the other scoped buffers and the generator register at some state. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ Oth1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare ((outsAt1 V c n hn).2) ∗ Oth1 c) ∗ (∃ r, prngReg c r)) := rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ Oth1 c) ∗ (∃ r, prngReg c r)) := by
  cases n with
  | zero => exact absurd rfl hz
  | succ n => rfl

/-! ## The pipeline's proof data -/

/-- Kernel 1's arrays as the region finds them; after the body each input's buffer at its block and the output's at
    `outsAt1`; the invariant `PhiS1`; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the inputs' memrefs hold their blocks; the point's position modulo 16 says which case it is
    in; the invariant hands over the scratch at what the point before left (at anything at the first point) and takes
    it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0 V, before1_1 V, before1_2 V, before1_3 V, before1_4 V]
  rw [show (dat1 V c).owesAt () t.succ = (dat1 V c).owesAt () t.castSucc from rfl]
  rw [show (dat1 V c).Φ t.succ = PhiS1 V c (t.val + 1) t.isLt from rfl, PhiS1_succ]
  have hN : t.val < 512 := lt_of_lt_of_eq t.isLt (show cfg1.N = 512 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 16 = 0
  · by_cases h1 : t.val % 16 = 15
    · exfalso; omega
    · rw [Dat.leavesExact_idle (dat1 V c) 5 t (idleAt1_5 t (fun h => h1 ((hcond1_1 t).mp h))) (noFlush1_5 t (fun h => h1 ((hcond1_1 t).mp h)))]
      rw [outsAt1_A V c t h0 h1]
      unfold sout1_A; (try dsimp only)
      by_cases hz : t.val = 0
      ·
        rw [PhiS1_castSucc V c t, PhiS1_zero V c _ _ hz, PhiA1_eq]
        iintro ⟨⟨⟨HS, HOth⟩, Hg⟩, Ho, ⟨%d0, H0⟩, ⟨%d1, H1⟩, ⟨%d2, H2⟩, ⟨%d3, H3⟩, ⟨%d4, H4⟩, ⟨%dO, HO⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [HO]; · iexact HO
        isplitl [HS]; · iexact HS
        iintro ⟨H0, H1, H2, H3, H4, HO, ⟨%eS, HS⟩⟩
        isplitl [HS HOth Hg]
        · isplitl [HS HOth]
          · isplitl [HS]
            · unfold owns; iexists _; isplitr
              swap; · iexact HS
              ipureintro; exact View.read_writes_of_cover _ _ _ _ _ (scover1_A c _ _ _ _ _ _ _ _ _ _ _ _ _ _ _ _ _ _ _ _ _ _)
            iexact HOth
          iexact Hg
        isplitl [Ho]; · iexact Ho
        isplitl [H0]; · iexact H0
        isplitl [H1]; · iexact H1
        isplitl [H2]; · iexact H2
        isplitl [H3]; · iexact H3
        isplitl [H4]; · iexact H4
        iexists _; iexact HO
      ·
        rw [PhiS1_castSucc V c t, PhiS1_pos V c _ _ hz]
        iintro ⟨⟨⟨HS, HOth⟩, Hg⟩, Ho, ⟨%d0, H0⟩, ⟨%d1, H1⟩, ⟨%d2, H2⟩, ⟨%d3, H3⟩, ⟨%d4, H4⟩, ⟨%dO, HO⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [HO]; · iexact HO
        isplitl [HS]; · iexists _; iexact HS
        iintro ⟨H0, H1, H2, H3, H4, HO, ⟨%eS, HS⟩⟩
        isplitl [HS HOth Hg]
        · isplitl [HS HOth]
          · isplitl [HS]
            · unfold owns; iexists _; isplitr
              swap; · iexact HS
              ipureintro; exact View.read_writes_of_cover _ _ _ _ _ (scover1_A c _ _ _ _ _ _ _ _ _ _ _ _ _ _ _ _ _ _ _ _ _ _)
            iexact HOth
          iexact Hg
        isplitl [Ho]; · iexact Ho
        isplitl [H0]; · iexact H0
        isplitl [H1]; · iexact H1
        isplitl [H2]; · iexact H2
        isplitl [H3]; · iexact H3
        isplitl [H4]; · iexact H4
        iexists _; iexact HO
  · by_cases h1 : t.val % 16 = 15
    · rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      unfold out1_C sout1_C; (try dsimp only)
      by_cases hz : t.val = 0
      · exfalso; omega
      ·
        rw [PhiS1_castSucc V c t, PhiS1_pos V c _ _ hz]
        iintro ⟨⟨⟨HS, HOth⟩, Hg⟩, Ho, ⟨%d0, H0⟩, ⟨%d1, H1⟩, ⟨%d2, H2⟩, ⟨%d3, H3⟩, ⟨%d4, H4⟩, ⟨%dO, HO⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
        isplitl [H0]; · iexact H0
        isplitl [H1]; · iexact H1
        isplitl [H2]; · iexact H2
        isplitl [H3]; · iexact H3
        isplitl [H4]; · iexact H4
        isplitl [HO]; · iexists _; iexact HO
        isplitl [HS]; · iexact HS
        iintro ⟨H0, H1, H2, H3, H4, ⟨%eO, HO⟩, ⟨%eS, HS⟩⟩
        isplitl [HS HOth Hg]
        · isplitl [HS HOth]
          · isplitl [HS]
            · unfold owns; iexists _; isplitr
              swap; · iexact HS
              ipureintro; exact View.read_writes_of_cover _ _ _ _ _ (scover1_C c _ _ _ _ _ _ _ _ _ _ _ _ _ _ _ _ _ _ _ _ _ _ _)
            iexact HOth
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact HO
        ipureintro; exact View.read_writes_of_cover _ _ _ _ _ (cover1_C c _ _ _ _ _ _ _ _ _ _ _ _ _ _ _ _ _ _ _ _ _ _ _)
    · rw [Dat.leavesExact_idle (dat1 V c) 5 t (idleAt1_5 t (fun h => h1 ((hcond1_1 t).mp h))) (noFlush1_5 t (fun h => h1 ((hcond1_1 t).mp h)))]
      rw [outsAt1_B V c t h0 h1]
      unfold sout1_B; (try dsimp only)
      by_cases hz : t.val = 0
      · exfalso; omega
      ·
        rw [PhiS1_castSucc V c t, PhiS1_pos V c _ _ hz]
        iintro ⟨⟨⟨HS, HOth⟩, Hg⟩, Ho, ⟨%d0, H0⟩, ⟨%d1, H1⟩, ⟨%d2, H2⟩, ⟨%d3, H3⟩, ⟨%d4, H4⟩, ⟨%dO, HO⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
        isplitl [H0]; · iexact H0
        isplitl [H1]; · iexact H1
        isplitl [H2]; · iexact H2
        isplitl [H3]; · iexact H3
        isplitl [H4]; · iexact H4
        isplitl [HO]; · iexact HO
        isplitl [HS]; · iexact HS
        iintro ⟨H0, H1, H2, H3, H4, HO, ⟨%eS, HS⟩⟩
        isplitl [HS HOth Hg]
        · isplitl [HS HOth]
          · isplitl [HS]
            · unfold owns; iexists _; isplitr
              swap; · iexact HS
              ipureintro; exact View.read_writes_of_cover _ _ _ _ _ (scover1_B c _ _ _ _ _ _ _ _ _ _ _ _ _ _ _ _ _ _ _ _ _ _ _)
            iexact HOth
          iexact Hg
        isplitl [Ho]; · iexact Ho
        isplitl [H0]; · iexact H0
        isplitl [H1]; · iexact H1
        isplitl [H2]; · iexact H2
        isplitl [H3]; · iexact H3
        isplitl [H4]; · iexact H4
        iexists _; iexact HO

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives back the scratch at some contents. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 512 := N_1; omega), PhiA1_eq]
  iintro ⟨⟨HS, HOth⟩, Hg⟩
  isplitl [HS HOth]
  · isplitl [HS]
    · iexists _; iexact HS
    iexact HOth
  iexact Hg

end Regions

end Cert.KernelIdeal.Hand

end
-- ==== Proof.KernelIdeal.Pieces1.lean ====
/-
  What each case of kernel 1's body leaves, as values. First block: scratch = 0 + product. Later block: scratch before
  plus product. Last block: the scratch gets that sum plus twice the low-rank product, and the output block is the
  scratch plus the bias row.
-/
import proofs.«143101_j18683107738116_2_alg».proof.Proof.KernelIdeal.Frame1
import proofs.«143101_j18683107738116_2_alg».proof.Proof.KernelIdeal.Pieces0
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

theorem sout1_A_eq (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x16 .f32) (harg6 : arg6.IsWhole) (arg7 : Memref sig .tc .vmem S16x1024 .bf16) (harg7 : arg7.IsWhole) (arg8 : Memref sig .tc .vmem S2048x1024 .f32) (harg8 : arg8.IsWhole) (arg9 : Memref sig .tc .vmem S2048x1024 .f32) (harg9 : arg9.IsWhole) (hc0 : cond1_0 i) (hc1 : ¬cond1_1 i)
    (x0 : Vec F S2048x256 .bf16) (x1 : Vec F S1024x256 .bf16) (x2 : Vec F S1x1024 .f32) (x3 : Vec F S2048x16 .f32) (x4 : Vec F S16x1024 .bf16) :
    sout1_A c i arg3 harg3 arg4 harg4 arg5 harg5 arg6 harg6 arg7 harg7 arg8 harg8 arg9 harg9 hc0 hc1 x0 x1 x2 x3 x4 = k1_pay2 (k1_pay1 (F := F)) x0 x1 := by
  unfold sout1_A
  rw [View.read_writes_eq_canon _ _ _ (scover1_A c i arg3 harg3 arg4 harg4 arg5 harg5 arg6 harg6 arg7 harg7 arg8 harg8 arg9 harg9 hc0 hc1 x0 x1 x2 x3 x4)]
  unfold kernelRun1_A
  dsimp only
  sl_unfold_words
  rw [View.canon_cons_unit_zero (S := S2048x1024) hz2, View.readCov_unit_zero (S := S2048x1024) _ hz2]
  simp only [View.readAt_eq_ld, harg3.read_unread, harg4.read_unread, View.ld_unit_zero (S := S2048x256) hz2, View.ld_unit_zero (S := S1024x256) hz2]

theorem sout1_B_eq (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x16 .f32) (harg6 : arg6.IsWhole) (arg7 : Memref sig .tc .vmem S16x1024 .bf16) (harg7 : arg7.IsWhole) (arg8 : Memref sig .tc .vmem S2048x1024 .f32) (harg8 : arg8.IsWhole) (arg9 : Memref sig .tc .vmem S2048x1024 .f32) (harg9 : arg9.IsWhole) (hc0 : ¬cond1_0 i) (hc1 : ¬cond1_1 i)
    (x0 : Vec F S2048x256 .bf16) (x1 : Vec F S1024x256 .bf16) (x2 : Vec F S1x1024 .f32) (x3 : Vec F S2048x16 .f32) (x4 : Vec F S16x1024 .bf16) (xs0 : Vec F S2048x1024 .f32) :
    sout1_B c i arg3 harg3 arg4 harg4 arg5 harg5 arg6 harg6 arg7 harg7 arg8 harg8 arg9 harg9 hc0 hc1 x0 x1 x2 x3 x4 xs0 = k1_pay2 xs0 x0 x1 := by
  unfold sout1_B
  rw [View.read_writes_eq_canon _ _ _ (scover1_B c i arg3 harg3 arg4 harg4 arg5 harg5 arg6 harg6 arg7 harg7 arg8 harg8 arg9 harg9 hc0 hc1 x0 x1 x2 x3 x4 xs0)]
  unfold kernelRun1_B
  dsimp only
  sl_unfold_words
  rw [View.canon_unit_zero hz2]
  simp only [View.readAt_eq_ld, harg3.read_unread, harg4.read_unread, harg5.read_unread, harg6.read_unread, harg7.read_unread, harg9.read_unread, View.ld_unit_zero (S := S2048x256) hz2, View.ld_unit_zero (S := S1024x256) hz2, View.ld_unit_zero (S := S1x1024) hz2, View.ld_unit_zero (S := S2048x16) hz2, View.ld_unit_zero (S := S16x1024) hz2, View.ld_unit_zero (S := S2048x1024) hz2]

theorem sout1_C_eq (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x16 .f32) (harg6 : arg6.IsWhole) (arg7 : Memref sig .tc .vmem S16x1024 .bf16) (harg7 : arg7.IsWhole) (arg8 : Memref sig .tc .vmem S2048x1024 .f32) (harg8 : arg8.IsWhole) (arg9 : Memref sig .tc .vmem S2048x1024 .f32) (harg9 : arg9.IsWhole) (hc0 : ¬cond1_0 i) (hc1 : cond1_1 i)
    (x0 : Vec F S2048x256 .bf16) (x1 : Vec F S1024x256 .bf16) (x2 : Vec F S1x1024 .f32) (x3 : Vec F S2048x16 .f32) (x4 : Vec F S16x1024 .bf16) (xs0 : Vec F S2048x1024 .f32) :
    sout1_C c i arg3 harg3 arg4 harg4 arg5 harg5 arg6 harg6 arg7 harg7 arg8 harg8 arg9 harg9 hc0 hc1 x0 x1 x2 x3 x4 xs0 = k1_pay3 x3 x4 (k1_pay2 xs0 x0 x1) := by
  unfold sout1_C
  rw [View.read_writes_eq_canon _ _ _ (scover1_C c i arg3 harg3 arg4 harg4 arg5 harg5 arg6 harg6 arg7 harg7 arg8 harg8 arg9 harg9 hc0 hc1 x0 x1 x2 x3 x4 xs0)]
  unfold kernelRun1_C
  dsimp only
  sl_unfold_words
  rw [View.canon_cons_unit_zero (S := S2048x1024) hz2, View.readCov_unit_zero (S := S2048x1024) _ hz2]
  simp only [View.readAt_eq_ld, harg3.read_unread, harg4.read_unread, harg5.read_unread, harg6.read_unread, harg7.read_unread, harg9.read_unread, View.ld_unit_zero (S := S2048x256) hz2, View.ld_unit_zero (S := S1024x256) hz2, View.ld_unit_zero (S := S1x1024) hz2, View.ld_unit_zero (S := S2048x16) hz2, View.ld_unit_zero (S := S16x1024) hz2, View.ld_unit_zero (S := S2048x1024) hz2]

theorem out1_C_eq (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x16 .f32) (harg6 : arg6.IsWhole) (arg7 : Memref sig .tc .vmem S16x1024 .bf16) (harg7 : arg7.IsWhole) (arg8 : Memref sig .tc .vmem S2048x1024 .f32) (harg8 : arg8.IsWhole) (arg9 : Memref sig .tc .vmem S2048x1024 .f32) (harg9 : arg9.IsWhole) (hc0 : ¬cond1_0 i) (hc1 : cond1_1 i)
    (x0 : Vec F S2048x256 .bf16) (x1 : Vec F S1024x256 .bf16) (x2 : Vec F S1x1024 .f32) (x3 : Vec F S2048x16 .f32) (x4 : Vec F S16x1024 .bf16) (xs0 : Vec F S2048x1024 .f32) :
    out1_C c i arg3 harg3 arg4 harg4 arg5 harg5 arg6 harg6 arg7 harg7 arg8 harg8 arg9 harg9 hc0 hc1 x0 x1 x2 x3 x4 xs0 = k1_pay4 (k1_pay3 x3 x4 (k1_pay2 xs0 x0 x1)) x2 := by
  unfold out1_C
  rw [View.read_writes_eq_canon _ _ _ (cover1_C c i arg3 harg3 arg4 harg4 arg5 harg5 arg6 harg6 arg7 harg7 arg8 harg8 arg9 harg9 hc0 hc1 x0 x1 x2 x3 x4 xs0)]
  unfold kernelRun1_C
  dsimp only
  sl_unfold_words
  rw [View.canon_unit_zero hz2, Cert.ReadBack.readCov_cons_whole _ hz2, View.readCov_unit_zero (S := S2048x1024) _ hz2]
  simp only [View.readAt_eq_ld, harg3.read_unread, harg4.read_unread, harg5.read_unread, harg6.read_unread, harg7.read_unread, harg9.read_unread, View.ld_unit_zero (S := S2048x256) hz2, View.ld_unit_zero (S := S1024x256) hz2, View.ld_unit_zero (S := S1x1024) hz2, View.ld_unit_zero (S := S2048x16) hz2, View.ld_unit_zero (S := S16x1024) hz2, View.ld_unit_zero (S := S2048x1024) hz2]

end Cert.KernelIdeal.Hand

end
-- ==== Proof.KernelIdeal.Value1.lean ====
/-
  The value kernel 1 leaves. At grid position n (row block n / 64, column block n / 16 % 4, contracted-axis block
  n % 16) the scratch holds the running sum of row (n / 64) · 2048 + Rl of x2 against row (n / 16 % 4) · 1024 + ol of W
  after block n % 16. At n % 16 = 15 the body adds twice the product of xa's row with B's column, then stores that
  plus the bias into the output block, which is written back; the 8 × 4 blocks tile the result.
-/
import proofs.«143101_j18683107738116_2_alg».proof.Proof.KernelIdeal.Pieces1
import proofs.«143101_j18683107738116_2_alg».proof.Proof.Payloads
import proofs.«143101_j18683107738116_2_alg».proof.Proof.Spec
import Idealize.ShloMosaic.Lib.Pipeline.Value
import Idealize.ShloMosaic.Lib.ValueIdx

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.PayValue Cert.Spec

section
variable (V : (c : Dev nD) → (b : Ref sig .tc) → Buf (Elt Ideal) ((c : Thread nD τ).loc b))

/-- The block index maps of kernel 1 at grid position t (row block t / 64, column block t / 16 % 4, contracted-axis block t % 16). -/
theorem idx1 : ∀ t : Fin cfg1.N, win1_0.index t (0 : Fin 2) = t.val / 64 ∧ win1_0.index t (1 : Fin 2) = t.val % 16
    ∧ win1_1.index t (0 : Fin 2) = t.val / 16 % 4 ∧ win1_1.index t (1 : Fin 2) = t.val % 16
    ∧ win1_2.index t (0 : Fin 2) = 0 ∧ win1_2.index t (1 : Fin 2) = t.val / 16 % 4
    ∧ win1_3.index t (0 : Fin 2) = t.val / 64 ∧ win1_3.index t (1 : Fin 2) = 0
    ∧ win1_4.index t (0 : Fin 2) = 0 ∧ win1_4.index t (1 : Fin 2) = t.val / 16 % 4
    ∧ win1_5.index t (0 : Fin 2) = t.val / 64 ∧ win1_5.index t (1 : Fin 2) = t.val / 16 % 4 :=
  (by decide +kernel : ∀ t : Fin grid1.N, _)

/-- The row of x2 and the column of the output that a local row / column of the block at position `n` are. -/
abbrev row1 (n : ℕ) (Rl : Fin 2048) : Fin 16384 := ⟨(n / 64 * 2048 + Rl.val) % 16384, Nat.mod_lt _ (by decide)⟩
abbrev ocol1 (n : ℕ) (ol : Fin 1024) : Fin 4096 := ⟨(n / 16 % 4 * 1024 + ol.val) % 4096, Nat.mod_lt _ (by decide)⟩

theorem iblk1_0_apply (c : Dev nD) (t : Fin cfg1.N) (Rl : Fin 2048) (d : Fin 256) :
    iblk1 V c 0 t (ix2 Rl d) = V c main_v2 (ix2 (row1 t.val Rl) (col (t.val % 16 * 256 + d.val))) := by
  have ht : t.val < 512 := lt_of_lt_of_eq t.isLt (show cfg1.N = 512 from N_1)
  obtain ⟨e0, e1, -, -, -, -, -, -, -, -, -, -⟩ := idx1 t
  unfold iblk1
  rw [View.read_apply]
  show V c main_v2 _ = V c main_v2 _
  refine congrArg (V c main_v2) ?_
  funext a; apply Fin.ext
  match a with
  | ⟨0, _⟩ => show win1_0.index t (0 : Fin 2) * 2048 + 1 * Rl.val = (t.val / 64 * 2048 + Rl.val) % 16384; have := Rl.isLt; omega
  | ⟨1, _⟩ => show win1_0.index t (1 : Fin 2) * 256 + 1 * d.val = (t.val % 16 * 256 + d.val) % 4096; have := d.isLt; omega

theorem iblk1_1_apply (c : Dev nD) (t : Fin cfg1.N) (ol : Fin 1024) (d : Fin 256) :
    iblk1 V c 1 t (ix2 ol d) = V c main_v3 (ix2 (ocol1 t.val ol) (col (t.val % 16 * 256 + d.val))) := by
  have ht : t.val < 512 := lt_of_lt_of_eq t.isLt (show cfg1.N = 512 from N_1)
  obtain ⟨-, -, e0, e1, -, -, -, -, -, -, -, -⟩ := idx1 t
  unfold iblk1
  rw [View.read_apply]
  show V c main_v3 _ = V c main_v3 _
  refine congrArg (V c main_v3) ?_
  funext a; apply Fin.ext
  match a with
  | ⟨0, _⟩ => show win1_1.index t (0 : Fin 2) * 1024 + 1 * ol.val = (t.val / 16 % 4 * 1024 + ol.val) % 4096; have := ol.isLt; omega
  | ⟨1, _⟩ => show win1_1.index t (1 : Fin 2) * 256 + 1 * d.val = (t.val % 16 * 256 + d.val) % 4096; have := d.isLt; omega

theorem iblk1_2_apply (c : Dev nD) (t : Fin cfg1.N) (z : Fin 1) (ol : Fin 1024) :
    iblk1 V c 2 t (ix2 z ol) = V c main_v1 (ix2 (0 : Fin 1) (ocol1 t.val ol)) := by
  have ht : t.val < 512 := lt_of_lt_of_eq t.isLt (show cfg1.N = 512 from N_1)
  obtain ⟨-, -, -, -, e0, e1, -, -, -, -, -, -⟩ := idx1 t
  unfold iblk1
  rw [View.read_apply]
  show V c main_v1 _ = V c main_v1 _
  refine congrArg (V c main_v1) ?_
  funext a; apply Fin.ext
  match a with
  | ⟨0, _⟩ => show win1_2.index t (0 : Fin 2) * 1 + 1 * z.val = 0; have := z.isLt; omega
  | ⟨1, _⟩ => show win1_2.index t (1 : Fin 2) * 1024 + 1 * ol.val = (t.val / 16 % 4 * 1024 + ol.val) % 4096; have := ol.isLt; omega

theorem iblk1_3_apply (c : Dev nD) (t : Fin cfg1.N) (Rl : Fin 2048) (r : Fin 16) :
    iblk1 V c 3 t (ix2 Rl r) = V c main_v6 (ix2 (row1 t.val Rl) r) := by
  have ht : t.val < 512 := lt_of_lt_of_eq t.isLt (show cfg1.N = 512 from N_1)
  obtain ⟨-, -, -, -, -, -, e0, e1, -, -, -, -⟩ := idx1 t
  unfold iblk1
  rw [View.read_apply]
  show V c main_v6 _ = V c main_v6 _
  refine congrArg (V c main_v6) ?_
  funext a; apply Fin.ext
  match a with
  | ⟨0, _⟩ => show win1_3.index t (0 : Fin 2) * 2048 + 1 * Rl.val = (t.val / 64 * 2048 + Rl.val) % 16384; have := Rl.isLt; omega
  | ⟨1, _⟩ => show win1_3.index t (1 : Fin 2) * 16 + 1 * r.val = r.val; omega

theorem iblk1_4_apply (c : Dev nD) (t : Fin cfg1.N) (r : Fin 16) (ol : Fin 1024) :
    iblk1 V c 4 t (ix2 r ol) = V c main_v5 (ix2 r (ocol1 t.val ol)) := by
  have ht : t.val < 512 := lt_of_lt_of_eq t.isLt (show cfg1.N = 512 from N_1)
  obtain ⟨-, -, -, -, -, -, -, -, e0, e1, -, -⟩ := idx1 t
  unfold iblk1
  rw [View.read_apply]
  show V c main_v5 _ = V c main_v5 _
  refine congrArg (V c main_v5) ?_
  funext a; apply Fin.ext
  match a with
  | ⟨0, _⟩ => show win1_4.index t (0 : Fin 2) * 16 + 1 * r.val = r.val; omega
  | ⟨1, _⟩ => show win1_4.index t (1 : Fin 2) * 1024 + 1 * ol.val = (t.val / 16 % 4 * 1024 + ol.val) % 4096; have := ol.isLt; omega

variable (X : (⟨3, ![4, 4096, 4096]⟩ : Shape).Idx → EReal) (Wt : (⟨2, ![4096, 4096]⟩ : Shape).Idx → EReal)
  (bv : (⟨1, ![4096]⟩ : Shape).Idx → EReal) (A : (⟨2, ![4096, 16]⟩ : Shape).Idx → EReal) (Bm : (⟨2, ![16, 4096]⟩ : Shape).Idx → EReal)

/-- This point's product at a local index is the specification's block sum. -/
theorem blkpt1 (c : Dev nD) (hx : ∀ (R : Fin 16384) (D : Fin 4096), V c main_v2 (ix2 R D) = xrow X R D)
    (hw : ∀ (o : Fin 4096) (D : Fin 4096), V c main_v3 (ix2 o D) = Wt (ix2 o D))
    (t : Fin cfg1.N) (Rl : Fin 2048) (ol : Fin 1024) (x0 : Vec Ideal S2048x256 .bf16) (x1 : Vec Ideal S1024x256 .bf16)
    (h0 : x0 = iblk1 V c 0 t) (h1 : x1 = iblk1 V c 1 t) :
    (∑ d : Fin 256, x0 (ix2 Rl d) * x1 (ix2 ol d)) = blk1 X Wt (row1 t.val Rl) (ocol1 t.val ol) (t.val % 16) := by
  subst h0 h1
  unfold blk1
  refine Finset.sum_congr rfl fun d _ => ?_
  rw [iblk1_0_apply, iblk1_1_apply, hx, hw]

/-- THE RUNNING SUM: after a position n that is not a last block the scratch holds the specification's running sum
    after block n % 16. -/
theorem sc1_eq (c : Dev nD) (hx : ∀ (R : Fin 16384) (D : Fin 4096), V c main_v2 (ix2 R D) = xrow X R D)
    (hw : ∀ (o : Fin 4096) (D : Fin 4096), V c main_v3 (ix2 o D) = Wt (ix2 o D)) :
    ∀ (n : ℕ) (hn : n < cfg1.N) (hne : n % 16 ≠ 15) (Rl : Fin 2048) (ol : Fin 1024),
      ((outsAt1 V c n hn).2 : Vec Ideal S2048x1024 .f32) (ix2 Rl ol) = acc1 X Wt (row1 n Rl) (ocol1 n ol) (n % 16)
  | 0, hn, hne, Rl, ol => by
    rw [outsAt1_A V c ⟨0, hn⟩ rfl (by dsimp only; omega)]
    dsimp only
    rw [sout1_A_eq, pay1_2_apply, pay1_1_apply, blkpt1 V X Wt c hx hw ⟨0, hn⟩ Rl ol _ _ rfl rfl]
    rfl
  | n + 1, hn, hne, Rl, ol => by
    have hN : n + 1 < 512 := lt_of_lt_of_eq hn (show cfg1.N = 512 from N_1)
    by_cases h0 : (n + 1) % 16 = 0
    · rw [outsAt1_A V c ⟨n + 1, hn⟩ h0 (by dsimp only; omega)]
      dsimp only
      rw [sout1_A_eq, pay1_2_apply, pay1_1_apply, blkpt1 V X Wt c hx hw ⟨n + 1, hn⟩ Rl ol _ _ rfl rfl]
      dsimp only
      rw [h0]
      rfl
    · have hrow : row1 (n + 1) Rl = row1 n Rl := Fin.ext (by show (_ : ℕ) % 16384 = _ % 16384; have := Rl.isLt; omega)
      have hcol : ocol1 (n + 1) ol = ocol1 n ol := Fin.ext (by show (_ : ℕ) % 4096 = _ % 4096; have := ol.isLt; omega)
      have hk : (n + 1) % 16 = n % 16 + 1 := by omega
      rw [outsAt1_B V c ⟨n + 1, hn⟩ h0 hne]
      dsimp only
      rw [sout1_B_eq, pay1_2_apply, blkpt1 V X Wt c hx hw ⟨n + 1, hn⟩ Rl ol _ _ rfl rfl]
      dsimp only
      show ((outsAt1 V c n (Nat.lt_of_succ_lt hn)).2 : Vec Ideal S2048x1024 .f32) (ix2 Rl ol) + _ = _
      rw [sc1_eq c hx hw n (Nat.lt_of_succ_lt hn) (by omega) Rl ol, hrow, hcol, hk]
      rfl

/-- The low-rank term at a local index: xa's row against B's column. -/
theorem lorapt1 (c : Dev nD) (hxa : ∀ (R : Fin 16384) (r : Fin 16), V c main_v6 (ix2 R r) = xaK X A R r)
    (hB : ∀ (r : Fin 16) (o : Fin 4096), V c main_v5 (ix2 r o) = Bm (ix2 r o))
    (t : Fin cfg1.N) (Rl : Fin 2048) (ol : Fin 1024) (x3 : Vec Ideal S2048x16 .f32) (x4 : Vec Ideal S16x1024 .bf16)
    (h3 : x3 = iblk1 V c 3 t) (h4 : x4 = iblk1 V c 4 t) :
    (∑ r : Fin 16, x3 (ix2 Rl r) * x4 (ix2 r ol)) = ∑ r : Fin 16, xaK X A (row1 t.val Rl) r * Bm (ix2 r (ocol1 t.val ol)) := by
  subst h3 h4
  refine Finset.sum_congr rfl fun r _ => ?_
  rw [iblk1_3_apply, iblk1_4_apply, hxa, hB]

/-- The result as kernel 1 leaves it, as contents of its result array. -/
abbrev OUT : (⟨2, ![16384, 4096]⟩ : Shape).Idx → EReal := fun j => outK X Wt bv A Bm (j 0) (j 1)

/-- What a point at the last block writes back is its block of the result. -/
theorem flushed1_eq (c : Dev nD) (hx : ∀ (R : Fin 16384) (D : Fin 4096), V c main_v2 (ix2 R D) = xrow X R D)
    (hw : ∀ (o : Fin 4096) (D : Fin 4096), V c main_v3 (ix2 o D) = Wt (ix2 o D))
    (hb : ∀ (o : Fin 4096), V c main_v1 (ix2 (0 : Fin 1) o) = bv (ix1 o))
    (hxa : ∀ (R : Fin 16384) (r : Fin 16), V c main_v6 (ix2 R r) = xaK X A R r)
    (hB : ∀ (r : Fin 16) (o : Fin 4096), V c main_v5 (ix2 r o) = Bm (ix2 r o))
    (t : Fin cfg1.N) (hf : (cfg1.win 5).flush t = true) :
    (dat1 V c).flushed 5 t = ((cfg1.win 5).blk t).view.read (Elt Ideal) (OUT X Wt bv A Bm) := by
  have ht : t.val < 512 := lt_of_lt_of_eq t.isLt (show cfg1.N = 512 from N_1)
  have h15 : t.val % 16 = 15 := (flush1_5 t).mp hf
  obtain ⟨-, -, -, -, -, -, -, -, -, -, e0, e1⟩ := idx1 t
  show (cfg1.win 5).cut (grid1.coords t) ((dat1 V c).after 5 t) = _
  rw [after1_5, outsAt1_C V c t (by omega) h15]
  dsimp only
  rw [out1_C_eq]
  funext j
  obtain ⟨Rl, ol, rfl⟩ : ∃ (Rl : Fin 2048) (ol : Fin 1024), j = ix2 Rl ol := ⟨j 0, j 1, eq_ix2 j⟩
  have hp : t.val - 1 < cfg1.N := Nat.lt_of_le_of_lt (Nat.sub_le _ _) t.isLt
  have hrow : row1 (t.val - 1) Rl = row1 t.val Rl := Fin.ext (by show (_ : ℕ) % 16384 = _ % 16384; have := Rl.isLt; omega)
  have hcol : ocol1 (t.val - 1) ol = ocol1 t.val ol := Fin.ext (by show (_ : ℕ) % 4096 = _ % 4096; have := ol.isLt; omega)
  show k1_pay4 (F := Ideal) (k1_pay3 (iblk1 V c 3 t) (iblk1 V c 4 t) (k1_pay2 (outsAt1 V c (t.val - 1) hp).2 (iblk1 V c 0 t) (iblk1 V c 1 t)))
    (iblk1 V c 2 t) (ix2 Rl ol) = _
  rw [pay1_4_apply, pay1_3_apply, pay1_2_apply, blkpt1 V X Wt c hx hw t Rl ol _ _ rfl rfl,
    lorapt1 V X A Bm c hxa hB t Rl ol _ _ rfl rfl,
    sc1_eq V X Wt c hx hw (t.val - 1) hp (by omega) Rl ol, hrow, hcol, iblk1_2_apply, hb]
  rw [View.read_apply, show (t.val - 1) % 16 = 14 from by omega, h15]
  show (acc1 X Wt (row1 t.val Rl) (ocol1 t.val ol) 14 + blk1 X Wt (row1 t.val Rl) (ocol1 t.val ol) 15
      + two * ∑ r : Fin 16, xaK X A (row1 t.val Rl) r * Bm (ix2 r (ocol1 t.val ol))) + bv (ix1 (ocol1 t.val ol))
    = outK X Wt bv A Bm _ _
  refine congrArg₂ (outK X Wt bv A Bm) (Fin.ext ?_) (Fin.ext ?_)
  · show (t.val / 64 * 2048 + Rl.val) % 16384 = win1_5.index t (0 : Fin 2) * 2048 + 1 * Rl.val; have := Rl.isLt; omega
  · show (t.val / 16 % 4 * 1024 + ol.val) % 4096 = win1_5.index t (1 : Fin 2) * 1024 + 1 * ol.val; have := ol.isLt; omega

theorem mem_blk1 (t : Fin cfg1.N) (i : S16384x4096.Idx) :
    i ∈ ((cfg1.win 5).blk t).view.set ↔ ∀ a : Fin 2, win1_5.index t a * S2048x1024.size a ≤ (i a).val ∧ (i a).val < win1_5.index t a * S2048x1024.size a + S2048x1024.size a := by
  show i ∈ ((View.whole main_v7).slice (win1_5.rect t)).set ↔ _
  rw [View.set_slice_whole, Rect.mem_set_unit]
  exact Iff.rfl

/-- THE RESULT ARRAY after kernel 1: every (row block, column block)'s last point writes its block. -/
theorem final1 (c : Dev nD) (hx : ∀ (R : Fin 16384) (D : Fin 4096), V c main_v2 (ix2 R D) = xrow X R D)
    (hw : ∀ (o : Fin 4096) (D : Fin 4096), V c main_v3 (ix2 o D) = Wt (ix2 o D))
    (hb : ∀ (o : Fin 4096), V c main_v1 (ix2 (0 : Fin 1) o) = bv (ix1 o))
    (hxa : ∀ (R : Fin 16384) (r : Fin 16), V c main_v6 (ix2 R r) = xaK X A R r)
    (hB : ∀ (r : Fin 16) (o : Fin 4096), V c main_v5 (ix2 r o) = Bm (ix2 r o)) :
    (dat1 V c).arrAt 5 cfg1.N = OUT X Wt bv A Bm :=
  (dat1 V c).arrAt_eq_of_cover 5 (OUT X Wt bv A Bm) (flushed1_eq V X Wt bv A Bm c hx hw hb hxa hB) fun i => by
    have hi0 : (i 0).val < 16384 := (i 0).isLt
    have hi1 : (i 1).val < 4096 := (i 1).isLt
    have hlt : ((i 0).val / 2048 * 4 + (i 1).val / 1024) * 16 + 15 < cfg1.N := by rw [show cfg1.N = 512 from N_1]; omega
    refine ⟨⟨((i 0).val / 2048 * 4 + (i 1).val / 1024) * 16 + 15, hlt⟩, (flush1_5 _).mpr (by show (((i 0).val / 2048 * 4 + (i 1).val / 1024) * 16 + 15) % 16 = 15; omega), ?_⟩
    rw [mem_blk1]
    obtain ⟨-, -, -, -, -, -, -, -, -, -, e0, e1⟩ := idx1 ⟨((i 0).val / 2048 * 4 + (i 1).val / 1024) * 16 + 15, hlt⟩
    intro a
    match a with
    | ⟨0, _⟩ => show win1_5.index _ (0 : Fin 2) * 2048 ≤ (i 0).val ∧ (i 0).val < win1_5.index _ (0 : Fin 2) * 2048 + 2048; rw [e0]; dsimp only; omega
    | ⟨1, _⟩ => show win1_5.index _ (1 : Fin 2) * 1024 ≤ (i 1).val ∧ (i 1).val < win1_5.index _ (1 : Fin 2) * 1024 + 1024; rw [e1]; dsimp only; omega

end

end Cert.KernelIdeal.Hand

end
-- ==== Proof.KernelIdeal.Whole.lean ====
/-
  The whole program: four host reshapes and format changes, kernel 0, kernel 1, one host reshape. The buffer
  contents at each of the five boundaries are a fold from the launch memory: a host stretch applies its operations, a
  kernel region replaces its output array by what its write-backs leave and changes nothing else. Every weakly fair
  execution terminates with every unscoped buffer at the last boundary's contents; the argument arrays are never
  written, so they end as launched.
-/
import proofs.«143101_j18683107738116_2_alg».proof.Proof.KernelIdeal.Frame0
import proofs.«143101_j18683107738116_2_alg».proof.Proof.KernelIdeal.Frame1
import proofs.«143101_j18683107738116_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The contents at each boundary -/

/-- Core `c`'s buffers at launch. -/
abbrev bnd0 : Dev nD → Valuation τ sig (Elt F) := fun c b => m (c, b)
/-- After the first host stretch: kernel 0's entry. -/
abbrev bnd1 : Dev nD → Valuation τ sig (Elt F) := fun c => StableHlo.after hostOps0 (bnd0 m c)
abbrev ent0 : (c : Dev nD) → (b : Ref sig .tc) → Buf (Elt F) ((c : Thread nD τ).loc b) := fun c b => bnd1 m c b
/-- After kernel 0: its arrays at what the pipeline leaves, every other buffer as entered. Kernel 1's entry. -/
def bnd2 (c : Dev nD) : Valuation τ sig (Elt F) :=
  Pipeline.withArrays spec0 c (bnd1 m c) fun w => (dat0 (ent0 m) c).arrAt w cfg0.N
theorem bnd2_arr (c : Dev nD) (w : Fin cfg0.W) :
    bnd2 m c (Proc.devRef .tc (Pipeline.arrRef spec0 w)) = (dat0 (ent0 m) c).arrAt w cfg0.N := by
  unfold bnd2; exact Pipeline.withArrays_arr spec0 launch0.win.arr_inj c _ _ w
theorem bnd2_of_ne (c : Dev nD) (b : Ref sig .tc) (hb : ∀ w, Pipeline.arrRef spec0 w ≠ b) :
    bnd2 m c (Proc.devRef .tc b) = bnd1 m c (Proc.devRef .tc b) := by
  unfold bnd2; exact Pipeline.withArrays_of_ne spec0 c _ _ b hb
abbrev ent1 : (c : Dev nD) → (b : Ref sig .tc) → Buf (Elt F) ((c : Thread nD τ).loc b) := fun c b => bnd2 m c b
theorem hF0 (c : Dev nD) (w : Fin cfg0.W) : (dat0 (ent0 m) c).arrAt w cfg0.N = ent1 m c (Pipeline.arrRef spec0 w) :=
  (bnd2_arr m c w).symm
theorem hrest0 (c : Dev nD) : ∀ b, b ∉ Finset.univ.image (Pipeline.arrRef spec0) → ent1 m c b = ent0 m c b :=
  fun b hb => bnd2_of_ne m c b fun w e => hb (Finset.mem_image.mpr ⟨w, Finset.mem_univ _, e⟩)
/-- After kernel 1. -/
def bnd3 (c : Dev nD) : Valuation τ sig (Elt F) :=
  Pipeline.withArrays spec1 c (bnd2 m c) fun w => (dat1 (ent1 m) c).arrAt w cfg1.N
theorem bnd3_arr (c : Dev nD) (w : Fin cfg1.W) :
    bnd3 m c (Proc.devRef .tc (Pipeline.arrRef spec1 w)) = (dat1 (ent1 m) c).arrAt w cfg1.N := by
  unfold bnd3; exact Pipeline.withArrays_arr spec1 launch1.win.arr_inj c _ _ w
theorem bnd3_of_ne (c : Dev nD) (b : Ref sig .tc) (hb : ∀ w, Pipeline.arrRef spec1 w ≠ b) :
    bnd3 m c (Proc.devRef .tc b) = bnd2 m c (Proc.devRef .tc b) := by
  unfold bnd3; exact Pipeline.withArrays_of_ne spec1 c _ _ b hb
abbrev ext1 : (c : Dev nD) → (b : Ref sig .tc) → Buf (Elt F) ((c : Thread nD τ).loc b) := fun c b => bnd3 m c b
theorem hF1 (c : Dev nD) (w : Fin cfg1.W) : (dat1 (ent1 m) c).arrAt w cfg1.N = ext1 m c (Pipeline.arrRef spec1 w) :=
  (bnd3_arr m c w).symm
theorem hrest1 (c : Dev nD) : ∀ b, b ∉ Finset.univ.image (Pipeline.arrRef spec1) → ext1 m c b = ent1 m c b :=
  fun b hb => bnd3_of_ne m c b fun w e => hb (Finset.mem_image.mpr ⟨w, Finset.mem_univ _, e⟩)
/-- After the last host stretch: the end. -/
abbrev bnd4 : Dev nD → Valuation τ sig (Elt F) := fun c => StableHlo.after hostOps2 (bnd3 m c)

/-- An argument array is written by no host operation and is the output of no kernel: the fold walks back to the
    launch memory. -/
theorem bnd4_arg (c : Dev nD) (b : Ref sig .tc) (h2 : b ∉ hostOps2_W) (h1 : ∀ w, Pipeline.arrRef spec1 w ≠ b)
    (h0 : ∀ w, Pipeline.arrRef spec0 w ≠ b) (hh : b ∉ hostOps0_W) :
    bnd4 m c (Proc.devRef .tc b) = m ((c : Thread nD τ).loc b) :=
  (StableHlo.after_of_writes_sub hostOps2 _ hostOps2_writes h2).trans <|
    (bnd3_of_ne m c b h1).trans <| (bnd2_of_ne m c b h0).trans <|
      (StableHlo.after_of_writes_sub hostOps0 _ hostOps0_writes hh).trans rfl

/-! ## The proof data family and the thread state -/

abbrev adm' : (p : Fin 2) → (pcfgs (F := F) p).Adm := fun p => (cfgs p).toPCfg_adm
/-- Each kernel's proof data at its region's entry contents. -/
def pdats : (p : Fin 2) → (c : Dev nD) → Dat τ (Elt F) Unit ℕ (Pipeline.UD sig nD τ) ℕ (Pipeline.pin (pcfgs (F := F)) adm' p) c
  | ⟨0, _⟩ => fun c => dat0 (ent0 m) c
  | ⟨1, _⟩ => fun c => dat1 (ent1 m) c
abbrev 𝒱₀ : Variants := Variants.none
abbrev Lv : GSem nD τ sig → Finset Unit := fun _ => ∅
abbrev lv : GSem nD τ sig → Unit → ℕ := fun _ _ => 0
/-- What rides beside the buffers through every segment: the generator register at some state and the core owing nothing. -/
abbrev Rd (c : Dev nD) : sProp 𝕄 := iprop((∃ r, prngReg c r) ∗ ∃ W, owes (c : Thread nD τ) (0 : CellTallies nD τ sig Unit) W)
/-- A host stretch as a segment over the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ Lv lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (bnd4 m c) ∗ ∃ r, prngReg c r)

/-! ## The kernels' regions as segments -/

set_option backward.isDefEq.respectTransparency.types false in
/-- Kernel 0's region: entered from every unscoped buffer at `bnd1`, left at `bnd2`. Its arrays are split out of the
    unscoped buffers and put back at the exit contents; the generator register goes into the invariant and comes back;
    nothing is owed; the kernel has no semaphore of its own. -/
def reg0 : Pipeline.RegionSeg (pcfgs (F := F)) adm' (pdats m) () defs₀ 𝒱₀ Lv lv 0 where
  win := launch0.win.to₀
  block_pos := launch0.block_pos
  stage_whole := launch0.stage_whole
  K := PEmpty
  osem k := k.elim
  ho := Pipeline.OwnSemFacts.none _
  hbody c := (body_obligation0 (ent0 m) c).loose
  hwaits := Pipeline.hwaits_of_owed_zero _ _ _ _ Lv lv 0 fun _ _ => rfl
  pre c := iprop(StableHlo.held (c : Thread nD τ) (Pipeline.ucRefs τ sig) (bnd1 m c) ∗ Rd c)
  post c := iprop(StableHlo.held (c : Thread nD τ) (Pipeline.ucRefs τ sig) (bnd2 m c) ∗ Rd c)
  X c := iprop(∃ r, prngReg c r)
  Y c := iprop(∃ r, prngReg c r)
  Z c := Pipeline.unscopedRest (Ix := Unit) (Name := ℕ) (U := Pipeline.UD sig nD τ) (Lvl := ℕ) spec0 c (ent0 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (ent0 m) c)
    unfold Pipeline.ΦA
    iintro ⟨Hp, -, Hr⟩
    isplitl [Hr]; · iexact Hr
    iexact Hp
  hout c := by
    rw [Pipeline.ownSems0_none]
    refine BIBase.Entails.trans (hout0 (ent0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := Pipeline.UD sig nD τ) (Lvl := ℕ)
      launch0.win launch0.arr_whole c (pdats m) ((pdats m 0 c).share_full fun _ => rfl)
      (ent0 m c) (ent1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel 1's region: entered at `bnd2`, left at `bnd3`, in the same way. -/
def reg1 : Pipeline.RegionSeg (pcfgs (F := F)) adm' (pdats m) () defs₀ 𝒱₀ Lv lv 1 where
  win := launch1.win.to₀
  block_pos := launch1.block_pos
  stage_whole := launch1.stage_whole
  K := PEmpty
  osem k := k.elim
  ho := Pipeline.OwnSemFacts.none _
  hbody c := (body_obligation1 (ent1 m) c).loose
  hwaits := Pipeline.hwaits_of_owed_zero _ _ _ _ Lv lv 1 fun _ _ => rfl
  pre c := iprop(StableHlo.held (c : Thread nD τ) (Pipeline.ucRefs τ sig) (bnd2 m c) ∗ Rd c)
  post c := iprop(StableHlo.held (c : Thread nD τ) (Pipeline.ucRefs τ sig) (bnd3 m c) ∗ Rd c)
  X c := iprop(∃ r, prngReg c r)
  Y c := iprop(∃ r, prngReg c r)
  Z c := Pipeline.unscopedRest (Ix := Unit) (Name := ℕ) (U := Pipeline.UD sig nD τ) (Lvl := ℕ) spec1 c (ent1 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (ent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (ent1 m) c)
    unfold Pipeline.ΦA
    iintro ⟨Hp, -, Hr⟩
    isplitl [Hr]; · iexact Hr
    iexact Hp
  hout c := by
    rw [Pipeline.ownSems0_none]
    refine BIBase.Entails.trans (hout1 (ent1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := Pipeline.UD sig nD τ) (Lvl := ℕ)
      launch1.win launch1.arr_whole c (pdats m) ((pdats m 1 c).share_full fun _ => rfl)
      (ent1 m c) (ext1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The segments and the launch -/

abbrev segs : List (Pipeline.Seg (pcfgs (F := F)) adm' (pdats m) () defs₀ 𝒱₀ Lv lv) :=
  [ .host (hseg hostOps0 hostOps0_sub hostOps0_fresh (bnd0 m)),
    .region (reg0 m),
    .region (reg1 m),
    .host (hseg hostOps2 hostOps2_sub hostOps2_fresh (bnd3 m)) ]

theorem main_run (c : Dev nD) : main (F := F) c = Pipeline.Seg.run (segs m) :=
  main_segs adm' (pdats m) () 𝒱₀ Lv lv _ _ (reg0 m) (reg1 m) rfl rfl c

set_option backward.isDefEq.respectTransparency.types false in
/-- Every weakly fair execution of the program from memory `m` with zero counters terminates, nothing faulting, and
    every unscoped buffer of every core ends at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = bnd4 m c b) :=
  Pipeline.θ_run_regions_kit (pcfgs (F := F)) adm' (pdats m) () cellOf_inj embL defs₀ 𝒱₀ Lv lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (bnd0 m c) ∗ Rd c)) (Tₙ := Tₙ m)
    (hch := ⟨fun _ => .rfl, fun _ => .rfl, fun _ => .rfl, fun _ => .rfl, fun c => by
      show iprop(StableHlo.held (c : Thread nD τ) (Pipeline.ucRefs τ sig) (bnd4 m c) ∗ Rd c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach Lv lv fun c => ?_
      rw [show unscopedBufs c (fun b => m ((c : Thread nD τ).loc b)) = StableHlo.held (c : Thread nD τ) (Pipeline.ucRefs τ sig) (bnd0 m c)
        from Pipeline.unscopedBufs_held c (bnd0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = bnd4 m c b)
    (hfin := fun c s' => by
      iintro ⟨⟨Hh, -⟩, HSI⟩
      unfold StableHlo.held
      imodintro
      iapply (pointsTo_read_all (Pipeline.ucRefs τ sig) (fun b => (((c : Thread nD τ)).1, b)) (bnd4 m c) s')
      isplitl [Hh] <;> iassumption)
    (hQ := fun s h c => h c)

/-- The argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (bnd4_arg m c main_arg0 (by decide) (by decide) (by decide) (by decide)),
     (h c _ (mem_uc main_arg1 (by decide))).trans (bnd4_arg m c main_arg1 (by decide) (by decide) (by decide) (by decide)),
     (h c _ (mem_uc main_arg2 (by decide))).trans (bnd4_arg m c main_arg2 (by decide) (by decide) (by decide) (by decide)),
     (h c _ (mem_uc main_arg3 (by decide))).trans (bnd4_arg m c main_arg3 (by decide) (by decide) (by decide) (by decide)),
     (h c _ (mem_uc main_arg4 (by decide))).trans (bnd4_arg m c main_arg4 (by decide) (by decide) (by decide) (by decide))⟩) (run_main m ρ)

end Cert.KernelIdeal.Hand

end
-- ==== Proof.KernelIdeal.Glue.lean ====
/-
  The host operations around the two kernels, read at an index. Before kernel 0 the program reshapes x to the matrix
  [16384, 4096] (row p · 4096 + s is x[p, s, ·]: the same row-major position) and the bias to [1, 4096], and changes
  the format of x, W, A and B, which on the extended reals changes nothing. Kernel 0 writes only its own output, so
  kernel 1 finds every other buffer as kernel 0 found it and kernel 0's output as its write-backs left it. After
  kernel 1 the program reshapes its output [16384, 4096] back to [4, 4096, 4096].
-/
import proofs.«143101_j18683107738116_2_alg».proof.Proof.KernelIdeal.Whole
import proofs.«143101_j18683107738116_2_alg».proof.Proof.Spec
import Idealize.ShloMosaic.Lib.ValueIdx
import Idealize.ShloMosaic.Lib.Pipeline.Value
import Idealize.ShloMosaic.Lib.StableHlo.Run

set_option maxRecDepth 16384

noncomputable section

namespace Cert.KernelIdeal.Hand

open Idealize.ShloMosaic Idealize.ShloMosaic.TcCoe Idealize.SL.Sem Idealize.ShloMosaic.StableHlo
open Cert.KernelIdeal Cert.KernelIdeal.Gen Cert.Spec Idealize.ShloMosaic.ValueIdx

/-! ## The three reshapes at an index -/

/-- x as the matrix [16384, 4096]: entry (R, D) is x[R / 4096, R % 4096, D], the same row-major position. -/
theorem reshape_x_apply {α : Type} (x : S4x4096x4096.Idx → α) (R : Fin 16384) (D : Fin 4096) :
    shapeCast S16384x4096 x shapeCasts_S4x4096x4096_S16384x4096 (ix2 R D)
      = x (ix3 (⟨R.val / 4096, by omega⟩ : Fin 4) (⟨R.val % 4096, Nat.mod_lt _ (by decide)⟩ : Fin 4096) D) := by
  refine shapeCast_apply x _ (ix2 R D) _ ?_
  rw [Shape.rowMajor_val_three, Shape.rowMajor_val_two]
  show (R.val / 4096 * 4096 + R.val % 4096) * 4096 + D.val = R.val * 4096 + D.val
  omega

/-- The bias as [1, 4096]: entry (0, o) is b[o]. -/
theorem reshape_b_apply {α : Type} (b : S4096.Idx → α) (o : Fin 4096) :
    shapeCast S1x4096 b shapeCasts_S4096_S1x4096 (ix2 (0 : Fin 1) o) = b (ix1 o) := by
  refine shapeCast_apply b _ (ix2 (0 : Fin 1) o) _ ?_
  rw [Shape.rowMajor_val_one, Shape.rowMajor_val_two]
  show o.val = (0 : Fin 1).val * 4096 + o.val
  simp

/-- The matrix [16384, 4096] as [4, 4096, 4096]: entry (p, s, o) is entry (p · 4096 + s, o). -/
theorem reshape_out_apply {α : Type} (y : S16384x4096.Idx → α) (i : S4x4096x4096.Idx) :
    shapeCast S4x4096x4096 y shapeCasts_S16384x4096_S4x4096x4096 i
      = y (ix2 (⟨(i 0).val * 4096 + (i 1).val, by
          have h0 : (i 0).val < 4 := (i 0).isLt
          have h1 : (i 1).val < 4096 := (i 1).isLt
          omega⟩ : Fin 16384) (i 2)) := by
  refine shapeCast_apply y _ i _ ?_
  rw [Shape.rowMajor_val_three, Shape.rowMajor_val_two]
  rfl

variable (m : (ℓ : Loc nD τ sig) → Buf (Elt Ideal) ℓ) (c : Dev nD)

/-! ## Kernel 0's entry: the first host stretch over the launch memory -/

theorem bnd1_v2 : (bnd1 m c (Proc.devRef .tc main_v2) : S16384x4096.Idx → EReal)
    = shapeCast S16384x4096 (m ((c : Thread nD τ).loc main_arg0)) shapeCasts_S4x4096x4096_S16384x4096 := by
  dsimp only [bnd1, bnd0, hostOps0]; after_results; rfl

theorem bnd1_v1 : (bnd1 m c (Proc.devRef .tc main_v1) : S1x4096.Idx → EReal)
    = shapeCast S1x4096 (m ((c : Thread nD τ).loc main_arg2)) shapeCasts_S4096_S1x4096 := by
  dsimp only [bnd1, bnd0, hostOps0]; after_results; rfl

theorem bnd1_v3 : (bnd1 m c (Proc.devRef .tc main_v3) : S4096x4096.Idx → EReal) = m ((c : Thread nD τ).loc main_arg1) := by
  dsimp only [bnd1, bnd0, hostOps0]; after_results; rfl

theorem bnd1_v4 : (bnd1 m c (Proc.devRef .tc main_v4) : S4096x16.Idx → EReal) = m ((c : Thread nD τ).loc main_arg3) := by
  dsimp only [bnd1, bnd0, hostOps0]; after_results; rfl

theorem bnd1_v5 : (bnd1 m c (Proc.devRef .tc main_v5) : S16x4096.Idx → EReal) = m ((c : Thread nD τ).loc main_arg4) := by
  dsimp only [bnd1, bnd0, hostOps0]; after_results; rfl

theorem ent0_v2 (R : Fin 16384) (D : Fin 4096) :
    ent0 m c main_v2 (ix2 R D) = xrow (m ((c : Thread nD τ).loc main_arg0)) R D :=
  (congrFun (bnd1_v2 m c) (ix2 R D)).trans (reshape_x_apply _ R D)

theorem ent0_v4 (D : Fin 4096) (r : Fin 16) :
    ent0 m c main_v4 (ix2 D r) = m ((c : Thread nD τ).loc main_arg3) (ix2 D r) :=
  congrFun (bnd1_v4 m c) (ix2 D r)

/-! ## Kernel 1's entry: kernel 0's arrays as it leaves them, every other buffer as it found it -/

theorem ent1_v2 (R : Fin 16384) (D : Fin 4096) :
    ent1 m c main_v2 (ix2 R D) = xrow (m ((c : Thread nD τ).loc main_arg0)) R D := by
  have e : ent1 m c main_v2 = ent0 m c main_v2 :=
    (bnd2_arr m c 0).trans (((dat0 (ent0 m) c).arrAt_in 0 rfl _).trans (A_eq0 (ent0 m) c 0))
  rw [e]
  exact ent0_v2 m c R D

theorem ent1_v3 (o : Fin 4096) (D : Fin 4096) :
    ent1 m c main_v3 (ix2 o D) = m ((c : Thread nD τ).loc main_arg1) (ix2 o D) :=
  congrFun ((bnd2_of_ne m c main_v3 (by decide)).trans (bnd1_v3 m c)) (ix2 o D)

theorem ent1_v1 (o : Fin 4096) :
    ent1 m c main_v1 (ix2 (0 : Fin 1) o) = m ((c : Thread nD τ).loc main_arg2) (ix1 o) :=
  (congrFun ((bnd2_of_ne m c main_v1 (by decide)).trans (bnd1_v1 m c)) (ix2 (0 : Fin 1) o)).trans (reshape_b_apply _ o)

theorem ent1_v5 (r : Fin 16) (o : Fin 4096) :
    ent1 m c main_v5 (ix2 r o) = m ((c : Thread nD τ).loc main_arg4) (ix2 r o) :=
  congrFun ((bnd2_of_ne m c main_v5 (by decide)).trans (bnd1_v5 m c)) (ix2 r o)

theorem ent1_v6 : ent1 m c main_v6 = (dat0 (ent0 m) c).arrAt 2 cfg0.N :=
  bnd2_arr m c 2

/-! ## After kernel 1, and the last reshape -/

theorem bnd3_v7 : bnd3 m c (Proc.devRef .tc main_v7) = (dat1 (ent1 m) c).arrAt 5 cfg1.N :=
  bnd3_arr m c 5

theorem bnd4_v8_eq : (bnd4 m c (Proc.devRef .tc main_v8) : S4x4096x4096.Idx → EReal)
    = shapeCast S4x4096x4096 (bnd3 m c (Proc.devRef .tc main_v7)) shapeCasts_S16384x4096_S4x4096x4096 := by
  dsimp only [bnd4, hostOps2]; after_results; rfl

theorem bnd4_v8 (i : S4x4096x4096.Idx) :
    bnd4 m c (Proc.devRef .tc main_v8) i
      = bnd3 m c (Proc.devRef .tc main_v7) (ix2 (⟨(i 0).val * 4096 + (i 1).val, by
          have h0 : (i 0).val < 4 := (i 0).isLt
          have h1 : (i 1).val < 4096 := (i 1).isLt
          omega⟩ : Fin 16384) (i 2)) :=
  (congrFun (bnd4_v8_eq m c) i).trans (reshape_out_apply _ i)

end Cert.KernelIdeal.Hand

end
-- ==== Proof.KernelIdeal.Result.lean ====
/-
  The program's result as one function of the argument arrays. The last host reshape reads kernel 1's result array
  row-major; kernel 1's entry contents are the host's re-laid and re-formatted arguments and kernel 0's xa; so the
  result is the specification's kernel-side function of the five arguments.
-/
import proofs.«143101_j18683107738116_2_alg».proof.Proof.KernelIdeal.Value0
import proofs.«143101_j18683107738116_2_alg».proof.Proof.KernelIdeal.Value1
import proofs.«143101_j18683107738116_2_alg».proof.Proof.KernelIdeal.Glue

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.PayValue Cert.Spec

variable (m : (ℓ : Loc nD τ sig) → Buf (Elt Ideal) ℓ) (ρ : Dev nD → PrngReg)

/-- xa on kernel 1's entry is what kernel 0 left. -/
theorem ent1_xa (c : Dev nD) (R : Fin 16384) (r : Fin 16) :
    ent1 m c main_v6 (ix2 R r) = xaK (m ((c : Thread nD τ).loc main_arg0)) (m ((c : Thread nD τ).loc main_arg3)) R r := by
  rw [ent1_v6, final0 (ent0 m) (m ((c : Thread nD τ).loc main_arg0)) (m ((c : Thread nD τ).loc main_arg3)) c (ent0_v2 m c) (ent0_v4 m c)]

/-- The result array at the end. -/
theorem result_eq (c : Dev nD) :
    bnd4 m c (Proc.devRef .tc main_v8) = kerSpec (m ((c : Thread nD τ).loc main_arg0)) (m ((c : Thread nD τ).loc main_arg1))
      (m ((c : Thread nD τ).loc main_arg2)) (m ((c : Thread nD τ).loc main_arg3)) (m ((c : Thread nD τ).loc main_arg4)) := by
  funext i
  rw [bnd4_v8, bnd3_v7, final1 (ent1 m) (m ((c : Thread nD τ).loc main_arg0)) (m ((c : Thread nD τ).loc main_arg1))
    (m ((c : Thread nD τ).loc main_arg2)) (m ((c : Thread nD τ).loc main_arg3)) (m ((c : Thread nD τ).loc main_arg4)) c
    (ent1_v2 m c) (ent1_v3 m c) (ent1_v1 m c) (ent1_xa m c) (ent1_v5 m c)]
  rfl

/-- Every weakly fair execution terminates with the result at the specification's function of the arguments, and the
    arguments unchanged. -/
theorem run_value : θ_run defs (onTc (τ := τ) (main (F := Ideal))) ⟨m, fun _ => 0, ρ⟩ (fun r => ∀ c : Dev nD,
      r.2.mem ((c.tc : Thread nD τ).loc main_v8) = kerSpec (m ((c : Thread nD τ).loc main_arg0)) (m ((c : Thread nD τ).loc main_arg1))
        (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v8 (by decide))).trans (result_eq m c),
     (h c _ (mem_uc main_arg0 (by decide))).trans (bnd4_arg m c main_arg0 (by decide) (by decide) (by decide) (by decide)),
     (h c _ (mem_uc main_arg1 (by decide))).trans (bnd4_arg m c main_arg1 (by decide) (by decide) (by decide) (by decide)),
     (h c _ (mem_uc main_arg2 (by decide))).trans (bnd4_arg m c main_arg2 (by decide) (by decide) (by decide) (by decide)),
     (h c _ (mem_uc main_arg3 (by decide))).trans (bnd4_arg m c main_arg3 (by decide) (by decide) (by decide) (by decide)),
     (h c _ (mem_uc main_arg4 (by decide))).trans (bnd4_arg m c main_arg4 (by decide) (by decide) (by decide) (by decide))⟩) (run_main m ρ)

end Cert.KernelIdeal.Hand

end
-- ==== Proof.RefRead.lean ====
/-
  The reference's result, read at an index, is the specification's reference function of the five argument arrays:
  at (p, s, o) the first contraction is Σ_d x[p, s, d] · W[o, d], the bias is read at o through its two broadcasts,
  the splat constant is the word for 2, and the two chained contractions are Σ_r (Σ_d x[p, s, d] · A[d, r]) · B[r, o].
-/
import proofs.«143101_j18683107738116_2_alg».proof.Proof.Gen.ReferenceIdeal.Read
import proofs.«143101_j18683107738116_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-- The left operand's index of the first and second contraction at output (p, s, ·) and contraction coordinate d. -/
theorem lidx_v0_ix3 (p : Fin 4) (s : Fin 4096) (o : Fin 4096) (d : Fin 4096) :
    lidx_main_v0 (ix3 p s o) d = ix3 p s d :=
  funext fun a => Fin.ext (by match a with | ⟨0, _⟩ => rfl | ⟨1, _⟩ => rfl | ⟨2, _⟩ => rfl)

/-- The right operand's index of the first contraction: W is read at (o, d). -/
theorem ridx_v0_ix3 (p : Fin 4) (s : Fin 4096) (o : Fin 4096) (d : Fin 4096) :
    ridx_main_v0 (ix3 p s o) d = ix2 o d :=
  funext fun a => Fin.ext (by match a with | ⟨0, _⟩ => rfl | ⟨1, _⟩ => rfl)

/-- The bias is read at o through its two broadcasts. -/
theorem idx_v1_v2_ix3 (p : Fin 4) (s : Fin 4096) (o : Fin 4096) :
    idx_main_v1 (idx_main_v2 (ix3 p s o)) = ix1 o :=
  funext fun a => Fin.ext (by match a with | ⟨0, _⟩ => rfl)

/-- The left operand's index of the last contraction: x · A is read at (p, s, r). -/
theorem lidx_v5_ix3 (p : Fin 4) (s : Fin 4096) (o : Fin 4096) (r : Fin 16) :
    lidx_main_v5 (ix3 p s o) r = ix3 p s r :=
  funext fun a => Fin.ext (by match a with | ⟨0, _⟩ => rfl | ⟨1, _⟩ => rfl | ⟨2, _⟩ => rfl)

/-- The right operand's index of the last contraction: B is read at (r, o). -/
theorem ridx_v5_ix3 (p : Fin 4) (s : Fin 4096) (o : Fin 4096) (r : Fin 16) :
    ridx_main_v5 (ix3 p s o) r = ix2 r o :=
  funext fun a => Fin.ext (by match a with | ⟨0, _⟩ => rfl | ⟨1, _⟩ => rfl)

/-- The left operand's index of the middle contraction at output (p, s, r). -/
theorem lidx_v4_ix3 (p : Fin 4) (s : Fin 4096) (r : Fin 16) (d : Fin 4096) :
    lidx_main_v4 (ix3 p s r) d = ix3 p s d :=
  funext fun a => Fin.ext (by match a with | ⟨0, _⟩ => rfl | ⟨1, _⟩ => rfl | ⟨2, _⟩ => rfl)

/-- The right operand's index of the middle contraction: A is read at (d, r). -/
theorem ridx_v4_ix3 (p : Fin 4) (s : Fin 4096) (r : Fin 16) (d : Fin 4096) :
    ridx_main_v4 (ix3 p s r) d = ix2 d r :=
  funext fun a => Fin.ext (by match a with | ⟨0, _⟩ => rfl | ⟨1, _⟩ => rfl)

/-- The reference's last value is the specification's reference function. -/
theorem val_eq_spec (x : FVec Ideal S4x4096x4096 .f32) (w : FVec Ideal S4096x4096 .f32) (b : FVec Ideal S4096 .f32)
    (a : FVec Ideal S4096x16 .f32) (bb : FVec Ideal S16x4096 .f32) :
    val_main_v8 (F := Ideal) x w b a bb = Cert.Spec.refSpec x w b a bb := by
  funext i
  obtain ⟨p, s, o, rfl⟩ : ∃ (p : Fin 4) (s : Fin 4096) (o : Fin 4096), i = ix3 p s o := ⟨i 0, i 1, i 2, eq_ix3 i⟩
  rw [val_main_v8_apply, val_main_v3_apply, val_main_v0_apply, val_main_v2_apply, val_main_v1_apply, val_main_v7_apply,
    val_main_v6_apply, val_main_cst_apply, val_main_v5_apply]
  simp only [val_main_v4_apply, lidx_v0_ix3, ridx_v0_ix3, idx_v1_v2_ix3, lidx_v5_ix3, ridx_v5_ix3, lidx_v4_ix3, ridx_v4_ix3,
    Ideal.addf_def, Ideal.mulf_def, Ideal.ofBits_def]
  rfl

/-- The term the reference's run states for its result is the specification's reference function of the arguments. -/
theorem ref_eq_spec (x : FVec Ideal S4x4096x4096 .f32) (w : FVec Ideal S4096x4096 .f32) (b : FVec Ideal S4096 .f32)
    (a : FVec Ideal S4096x16 .f32) (bb : FVec Ideal S16x4096 .f32) :
    addf (addf (Host.dotGeneral dot_S4x4096x4096_S4096x4096_S4x4096x4096_2_1_01_0_n_n none x w) (broadcastInDim S4x4096x4096 ![0, 1, 2] bcast_S1x1x4096_S4x4096x4096_0_1_2 (broadcastInDim S1x1x4096 ![2] bcast_S4096_S1x1x4096_2 b))) (mulf (broadcastInDim S4x4096x4096 ![] bcast_S_S4x4096x4096 (constant (F := Ideal) S_ .f32 0x40000000#32)) (Host.dotGeneral dot_S4x4096x16_S16x4096_S4x4096x4096_2_0_01_1_n_n none (Host.dotGeneral dot_S4x4096x4096_S4096x16_S4x4096x16_2_0_01_1_n_n none x a) bb))
      = Cert.Spec.refSpec x w b a bb :=
  (val_main_v8_eq (F := Ideal) x w b a bb).trans (val_eq_spec x w b a bb)

end Cert.ReferenceIdeal.RefValue

end
-- ==== Proof.LibSumRuns.lean ====
/-
  Sums taken in runs.

  A sum of `a · b` consecutive terms `f 0, f 1, …` is the sum of its `a` runs of `b` terms, run `d` being
  `f (b · d), …, f (b · d + b − 1)` — in any commutative monoid, so also on the extended reals, where it says that a
  contraction accumulated block by block is the whole contraction. Stated over `Finset.range` and, for a contraction
  index that is a `Fin`, with the inner and the whole sum over `Fin b` and `Fin (a · b)`.
-/
import Idealize.ShloMosaic.PureOps.Ideal

namespace Cert.LibSumRuns

/-- A sum over `a · b` consecutive naturals, taken in `a` runs of `b`. -/
theorem sum_range_mul {M : Type*} [AddCommMonoid M] (f : ℕ → M) (a b : ℕ) :
    ∑ d ∈ Finset.range a, ∑ l ∈ Finset.range b, f (b * d + l) = ∑ k ∈ Finset.range (a * b), f k := by
  induction a with
  | zero => simp
  | succ a ih =>
    rw [Finset.sum_range_succ, ih, Nat.succ_mul, Finset.sum_range_add, Nat.mul_comm b a]

/-- The same with each run indexed by `Fin b` and the whole sum by `Fin (a · b)`. -/
theorem sum_fin_runs {M : Type*} [AddCommMonoid M] (f : ℕ → M) (a b : ℕ) :
    ∑ d ∈ Finset.range a, ∑ l : Fin b, f (b * d + l.val) = ∑ k : Fin (a * b), f k.val := by
  rw [Fin.sum_univ_eq_sum_range (fun k => f k) (a * b), ← sum_range_mul f a b]
  refine Finset.sum_congr rfl fun d _ => ?_
  exact Fin.sum_univ_eq_sum_range (fun l => f (b * d + l)) b

end Cert.LibSumRuns
-- ==== Proof.SpecLaw.lean ====
/-
  The kernels' arrangement of the sums equals the reference's.
  Only the commutative monoid of + on the extended reals is used: a running sum started from zero and extended block
  after block is the sum of its blocks; the blocks are consecutive runs of the contracted axis, so together they are
  the whole contraction (sixteen runs of 256, eight runs of 512, both 4096 columns); a column number below 4096 is its
  own remainder; row p · 4096 + s of x read as a matrix is x[p, s, ·]; and (a + t) + b = (a + b) + t.
-/
import proofs.«143101_j18683107738116_2_alg».proof.Proof.Spec
import proofs.«143101_j18683107738116_2_alg».proof.Proof.LibSumRuns

noncomputable section

open scoped BigOperators

namespace Cert.Spec

open Idealize.ShloMosaic Idealize.ShloMosaic.ValueIdx

/-- A running sum that starts as zero plus block 0 and adds one block per step is the sum of the blocks so far. -/
theorem running_eq_sum {M : Type*} [AddCommMonoid M] (blk acc : ℕ → M) (h0 : acc 0 = 0 + blk 0)
    (hs : ∀ k, acc (k + 1) = acc k + blk (k + 1)) (k : ℕ) : acc k = ∑ j ∈ Finset.range (k + 1), blk j := by
  induction k with
  | zero => rw [h0, zero_add, Finset.sum_range_one]
  | succ k ih => rw [hs, ih, ← Finset.sum_range_succ]

/-- The sum of `a` blocks of `b` consecutive terms, block `kb` starting at `kb · b`, is the sum of all `n = a · b` terms. -/
theorem sum_blocks {M : Type*} [AddCommMonoid M] (f : ℕ → M) (a b n : ℕ) (hn : a * b = n) :
    ∑ kb ∈ Finset.range a, ∑ d : Fin b, f (kb * b + d.val) = ∑ k : Fin n, f k.val := by
  subst hn
  rw [← Cert.LibSumRuns.sum_fin_runs f a b]
  refine Finset.sum_congr rfl fun kb _ => Finset.sum_congr rfl fun d _ => ?_
  rw [Nat.mul_comm]

/-- A column number below 4096 is its own remainder. -/
theorem col_val (k : Fin 4096) : col k.val = k := Fin.ext (Nat.mod_eq_of_lt k.isLt)

/-- Row p · 4096 + s of x read as a matrix is x[p, s, ·]. -/
theorem xrow_mk (X : (⟨3, ![4, 4096, 4096]⟩ : Shape).Idx → EReal) (p : Fin 4) (s : Fin 4096)
    (h : p.val * 4096 + s.val < 16384) (d : Fin 4096) :
    xrow X (⟨p.val * 4096 + s.val, h⟩ : Fin 16384) d = X (ix3 p s d) := by
  have hp : (⟨(p.val * 4096 + s.val) / 4096, by omega⟩ : Fin 4) = p := Fin.ext (by
    show (p.val * 4096 + s.val) / 4096 = p.val
    have := s.isLt
    omega)
  have hs : (⟨(p.val * 4096 + s.val) % 4096, Nat.mod_lt _ (by decide)⟩ : Fin 4096) = s := Fin.ext (by
    show (p.val * 4096 + s.val) % 4096 = s.val
    have := s.isLt
    omega)
  show X (ix3 (⟨(p.val * 4096 + s.val) / 4096, _⟩ : Fin 4) (⟨(p.val * 4096 + s.val) % 4096, _⟩ : Fin 4096) d) = _
  rw [hp, hs]

/-- Kernel 0's eight blocks of 512 are the whole contraction of row R of x with column r of A. -/
theorem acc0_seven (X : (⟨3, ![4, 4096, 4096]⟩ : Shape).Idx → EReal) (A : (⟨2, ![4096, 16]⟩ : Shape).Idx → EReal)
    (R : Fin 16384) (r : Fin 16) : acc0 X A R r 7 = ∑ d : Fin 4096, xrow X R d * A (ix2 d r) := by
  rw [running_eq_sum (blk0 X A R r) (acc0 X A R r) rfl (fun _ => rfl) 7]
  refine (sum_blocks (fun n : ℕ => xrow X R (col n) * A (ix2 (col n) r)) 8 512 4096 (by norm_num)).trans ?_
  refine Finset.sum_congr rfl fun k _ => ?_
  show xrow X R (col k.val) * A (ix2 (col k.val) r) = _
  rw [col_val]

/-- Kernel 1's sixteen blocks of 256 are the whole contraction of row R of x with row o of W. -/
theorem acc1_fifteen (X : (⟨3, ![4, 4096, 4096]⟩ : Shape).Idx → EReal) (Wt : (⟨2, ![4096, 4096]⟩ : Shape).Idx → EReal)
    (R : Fin 16384) (o : Fin 4096) : acc1 X Wt R o 15 = ∑ d : Fin 4096, xrow X R d * Wt (ix2 o d) := by
  rw [running_eq_sum (blk1 X Wt R o) (acc1 X Wt R o) rfl (fun _ => rfl) 15]
  refine (sum_blocks (fun n : ℕ => xrow X R (col n) * Wt (ix2 o (col n))) 16 256 4096 (by norm_num)).trans ?_
  refine Finset.sum_congr rfl fun k _ => ?_
  show xrow X R (col k.val) * Wt (ix2 o (col k.val)) = _
  rw [col_val]

/-- The kernels' result is the reference's. -/
theorem kerSpec_eq_refSpec (X : (⟨3, ![4, 4096, 4096]⟩ : Shape).Idx → EReal) (Wt : (⟨2, ![4096, 4096]⟩ : Shape).Idx → EReal)
    (bv : (⟨1, ![4096]⟩ : Shape).Idx → EReal) (A : (⟨2, ![4096, 16]⟩ : Shape).Idx → EReal) (Bm : (⟨2, ![16, 4096]⟩ : Shape).Idx → EReal) :
    kerSpec X Wt bv A Bm = refSpec X Wt bv A Bm := by
  funext i
  obtain ⟨p, s, o, rfl⟩ : ∃ (p : Fin 4) (s : Fin 4096) (o : Fin 4096), i = ix3 p s o := ⟨i 0, i 1, i 2, eq_ix3 i⟩
  have h : p.val * 4096 + s.val < 16384 := by
    have hp := p.isLt
    have hs := s.isLt
    omega
  show outK X Wt bv A Bm (⟨p.val * 4096 + s.val, h⟩ : Fin 16384) o = refAt X Wt bv A Bm p s o
  unfold outK refAt xaK
  rw [acc1_fifteen]
  simp only [acc0_seven, xrow_mk]
  exact add_right_comm _ _ _

end Cert.Spec

end
-- ==== Proof.lean ====
/-
  A linear layer with a low-rank update, out = x · Wᵀ + b + 2 · ((x · A) · B), as two kernels — xa = x2 · A summed
  over 8 blocks of the contracted axis, then x2 · Wᵀ summed over 16 blocks with 2 · (xa · B) and the bias added at the
  last block — against the same expression written with three matrix products on the host.
  Frames: each kernel's scratch carries the running sum from one grid point to the next; the body is run once per
  case of its two conditions (first block, middle block, last block) and the program is the chain host stretch,
  kernel 0, kernel 1, host stretch. The reference's frame is its run with the result dropped.
  Values, over the extended reals: both sides are sums of products; the kernels' block-by-block sums from zero are the
  whole sums, and (a + t) + b = (a + b) + t. Only that addition is commutative and associative is used; the inputs'
  finiteness is not.
-/
import proofs.«143101_j18683107738116_2_alg».proof.Defs
import proofs.«143101_j18683107738116_2_alg».proof.Proof.Gen.Kernel
import proofs.«143101_j18683107738116_2_alg».proof.Proof.Gen.KernelIdeal
import proofs.«143101_j18683107738116_2_alg».proof.Proof.Gen.ReferenceIdeal
import proofs.«143101_j18683107738116_2_alg».proof.Proof.Gen.Pre_finite_inputs
import proofs.«143101_j18683107738116_2_alg».proof.Proof.Gen.ReferenceIdeal.Run
import proofs.«143101_j18683107738116_2_alg».proof.Proof.Gen.ReferenceIdeal.Read
import proofs.«143101_j18683107738116_2_alg».proof.Proof.Kernel.Whole
import proofs.«143101_j18683107738116_2_alg».proof.Proof.KernelIdeal.Result
import proofs.«143101_j18683107738116_2_alg».proof.Proof.RefRead
import proofs.«143101_j18683107738116_2_alg».proof.Proof.SpecLaw
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the result at one function of arguments that agree. -/
theorem algebraic : Cert.algebraic_KernelIdeal_ReferenceIdeal := by
  intro m ρ m' ρ' _ hagree
  refine ⟨_, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.RefValue.ref_eq_spec _ _ _ _ _).trans (Cert.Spec.kerSpec_eq_refSpec _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
